-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S600000 : Shape := ⟨1, ![600000]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S50000x64 .f32) (main_arg2 : IVec S600000 32) (main_arg3 : IVec S600000 32) (main_arg4 : FVec F S600000 .f32) (main_arg5 : FVec F S128 .f32) (main_arg6 : FVec F S128 .f32) (main_arg7 : FVec F S128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x64 : Shape := ⟨2, ![50000, 64]⟩
abbrev S600000 : Shape := ⟨1, ![600000]⟩
abbrev S128 : Shape := ⟨1, ![128]⟩
abbrev S128x64 : Shape := ⟨2, ![128, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S64x64 : Shape := ⟨2, ![64, 64]⟩
abbrev S50000 : Shape := ⟨1, ![50000]⟩
abbrev S600000x1 : Shape := ⟨2, ![600000, 1]⟩
abbrev S50000x1 : Shape := ⟨2, ![50000, 1]⟩
abbrev S10000x1 : Shape := ⟨2, ![10000, 1]⟩
abbrev S600000x64 : Shape := ⟨2, ![600000, 64]⟩

abbrev nBuf : Space → Nat
  | .hbm => 86
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S600000, .i32⟩
  | .hbm, ⟨3, _⟩ => ⟨S600000, .i32⟩
  | .hbm, ⟨4, _⟩ => ⟨S600000, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S_, .f32⟩
  | .hbm, ⟨14, _⟩ => ⟨S1x64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S_, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S_, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S_, .f32⟩
  | .hbm, ⟨49, _⟩ => ⟨S600000, .f32⟩
  | .hbm, ⟨50, _⟩ => ⟨S_, .f32⟩
  | .hbm, ⟨51, _⟩ => ⟨S50000, .f32⟩
  | .hbm, ⟨52, _⟩ => ⟨S600000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000, .f32⟩
  | .hbm, ⟨67, _⟩ => ⟨S50000x1, .f32⟩
  | .hbm, ⟨68, _⟩ => ⟨S50000x64, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x64, .f32⟩
  | .hbm, ⟨78, _⟩ => ⟨S600000x1, .f32⟩
  | .hbm, ⟨79, _⟩ => ⟨S600000x64, .f32⟩
  | .hbm, ⟨80, _⟩ => ⟨S600000x64, .f32⟩
  | .hbm, ⟨81, _⟩ => ⟨S_, .f32⟩
  | .hbm, ⟨82, _⟩ => ⟨S50000x64, .f32⟩
  | .hbm, ⟨83, _⟩ => ⟨S600000x1, .i32⟩
  | .hbm, ⟨84, _⟩ => ⟨S50000x64, .f32⟩
  | .hbm, ⟨85, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S64x64, .f32⟩
  | .local _ .vmem, ⟨22, _⟩ => ⟨S10000x1, .f32⟩
  | .local _ .vmem, ⟨23, _⟩ => ⟨S10000x1, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x1, .f32⟩
  | .local _ .vmem, ⟨29, _⟩ => ⟨S10000x1, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23
abbrev cc1_sem13_0 : DmaSem sig := 24
abbrev cc1_sem13_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem3_1 : DmaSem sig := 32

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k0_cond2 (i : grid0.Coords) : BitVec 1 :=
  let arg0 : BitVec 32 := BitVec.ofNat 32 (i 0).val
  let c0_i32_7 : BitVec 32 := 0#32
  let v15 : BitVec 1 := Scalar.cmpi .ne arg0 c0_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S10000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S10000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bcast_S_S1x64 : S_.BroadcastsInDim S1x64 (![] : Fin 0 → Fin S1x64.rank)
  slices_S128_S64_0 : S128.Slices ![0] S64
  slices_S128_S64_64 : S128.Slices ![64] S64
  slices_S128x64_S64x64_0_0 : S128x64.Slices ![0, 0] S64x64
  slices_S128x64_S64x64_64_0 : S128x64.Slices ![64, 0] S64x64
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  broadcasts_S1x64_S10000x64 : S1x64.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S10000x64_S10000x64 : S10000x64.ShapeCasts S10000x64
  scatter_S50000_S600000x1_S600000_n_0_0_1_wf : ScatterDims.WF S50000 S600000x1 S600000 [] [0] [0] 1
  dot_S10000x64_S64x64_S10000x64_1_0_0_1_n_n_wf : DotDims.WF S10000x64 S64x64 S10000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S10000x1.size a ≤ S50000x1.size a
  hwx1_12 : ∀ i : grid1.Coords, EltTy.bits .f32 = 32 ∨ (Rect.block (s := S50000x1) S10000x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S10000x64.size a ≤ S50000x64.size a
  hwx1_13 : ∀ i : grid1.Coords, EltTy.bits .f32 = 32 ∨ (Rect.block (s := S50000x64) S10000x64.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v42) S10000x1.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v45) S10000x64.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S600000 : Shape := ⟨1, ![600000]⟩
abbrev S128 : Shape := ⟨1, ![128]⟩
abbrev S128x64 : Shape := ⟨2, ![128, 64]⟩
abbrev S64 : Shape := ⟨1, ![64]⟩
abbrev S50000x128 : Shape := ⟨2, ![50000, 128]⟩
abbrev S_ : Shape := ⟨0, ![]⟩
abbrev S1x128 : Shape := ⟨2, ![1, 128]⟩
abbrev S50000 : Shape := ⟨1, ![50000]⟩
abbrev S600000x1 : Shape := ⟨2, ![600000, 1]⟩
abbrev S50000x1 : Shape := ⟨2, ![50000, 1]⟩
abbrev S600000x64 : Shape := ⟨2, ![600000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S600000, .i32⟩
  | .hbm, ⟨3, _⟩ => ⟨S600000, .i32⟩
  | .hbm, ⟨4, _⟩ => ⟨S600000, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000x128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S50000x64, .f32⟩
  | .hbm, ⟨76, _⟩ => ⟨S50000x1, .f32⟩
  | .hbm, ⟨77, _⟩ => ⟨S50000x64, .f32⟩
  | .hbm, ⟨78, _⟩ => ⟨S50000x64, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000x64, .f32⟩
  | .hbm, ⟨88, _⟩ => ⟨S600000x1, .f32⟩
  | .hbm, ⟨89, _⟩ => ⟨S600000x64, .f32⟩
  | .hbm, ⟨90, _⟩ => ⟨S600000x64, .f32⟩
  | .hbm, ⟨91, _⟩ => ⟨S_, .f32⟩
  | .hbm, ⟨92, _⟩ => ⟨S50000x64, .f32⟩
  | .hbm, ⟨93, _⟩ => ⟨S600000x1, .i32⟩
  | .hbm, ⟨94, _⟩ => ⟨S50000x64, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S1x64, .f32⟩
  | .hbm, ⟨99, _⟩ => ⟨S50000x64, .f32⟩
  | .hbm, ⟨100, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call1_cst : Ref sig .tc := ⟨.hbm, 54, rfl⟩
abbrev main_call1_v0 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_v26 : Ref sig .tc := ⟨.hbm, 65, rfl⟩
abbrev main_cst_5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_7 : Ref sig .tc := ⟨.hbm, 79, rfl⟩
abbrev main_v38 : Ref sig .tc := ⟨.hbm, 80, rfl⟩
abbrev main_v39 : Ref sig .tc := ⟨.hbm, 81, rfl⟩
abbrev main_c_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.KIB.R0.lean ====
/- The column-statistics call of the kernel's program (its first pallas_call): the body's run at a grid point in each of
   its two control cases, what the four accumulators hold point by point, and the proof data of its pipeline. -/
import proofs.«159496_j27066883899809_1_alg».proof.Proof.Gen.Kernel.Launch
import proofs.«159496_j27066883899809_1_alg».proof.Proof.Gen.Kernel.Skeleton
import proofs.«159496_j27066883899809_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pallas_call: per column, the sum and the sum of squares of the rows of the two inputs, block by block.
    Five grid points, one block of 10000 rows each; the four 1x64 outputs keep one block index throughout, so their
    staging buffers carry the running totals from point to point and are written back after the last point only.
    Everything is stated at a parameter V, the contents of the TensorCore's buffers when the call is entered. -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- The first condition (the program id is 0) holds at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second (the program id is not 0) holds at every other point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two conditions holds at every point, so no output window is ever idle. -/
theorem live0_2 : ∀ i : grid0.Coords, cfg0.idle 2 i = false := by decide +kernel
theorem live0_3 : ∀ i : grid0.Coords, cfg0.idle 3 i = false := by decide +kernel
theorem live0_4 : ∀ i : grid0.Coords, cfg0.idle 4 i = false := by decide +kernel
theorem live0_5 : ∀ i : grid0.Coords, cfg0.idle 5 i = false := by decide +kernel

/-! ## The body, case by case -/

abbrev r0_in : Rect S10000x64 := Rect.unit (s := S10000x64) ![0, 0] S10000x64.size inb_S10000x64_S10000x64_0_0
abbrev r0_out : Rect S1x64 := Rect.unit (s := S1x64) ![0, 0] S1x64.size inb_S1x64_S1x64_0_0

/-- What the body leaves in the four accumulators at the first point: one whole-block store each, of the column sums
    (sums of squares) of the input block. -/
def outA0_2 (x0 : Vec F S10000x64 .f32) : Vec F S1x64 .f32 := View.canon [⟨r0_out, k0_pay1 (View.ld x0 r0_in)⟩]
def outA0_3 (x0 : Vec F S10000x64 .f32) : Vec F S1x64 .f32 := View.canon [⟨r0_out, k0_pay2 (View.ld x0 r0_in)⟩]
def outA0_4 (x1 : Vec F S10000x64 .f32) : Vec F S1x64 .f32 := View.canon [⟨r0_out, k0_pay3 (View.ld x1 r0_in)⟩]
def outA0_5 (x1 : Vec F S10000x64 .f32) : Vec F S1x64 .f32 := View.canon [⟨r0_out, k0_pay4 (View.ld x1 r0_in)⟩]

/-- What it leaves at a later point, the accumulator holding xo: one whole-block store each, of xo plus the block's
    column sums (sums of squares). -/
def outB0_2 (x0 : Vec F S10000x64 .f32) (xo : Vec F S1x64 .f32) : Vec F S1x64 .f32 :=
  View.canon [⟨r0_out, k0_pay5 (View.ld x0 r0_in) (View.ld xo r0_out)⟩]
def outB0_3 (x0 : Vec F S10000x64 .f32) (xo : Vec F S1x64 .f32) : Vec F S1x64 .f32 :=
  View.canon [⟨r0_out, k0_pay6 (View.ld x0 r0_in) (View.ld xo r0_out)⟩]
def outB0_4 (x1 : Vec F S10000x64 .f32) (xo : Vec F S1x64 .f32) : Vec F S1x64 .f32 :=
  View.canon [⟨r0_out, k0_pay7 (View.ld x1 r0_in) (View.ld xo r0_out)⟩]
def outB0_5 (x1 : Vec F S10000x64 .f32) (xo : Vec F S1x64 .f32) : Vec F S1x64 .f32 :=
  View.canon [⟨r0_out, k0_pay8 (View.ld x1 r0_in) (View.ld xo r0_out)⟩]

/-- One whole-block store covers an accumulator's block. -/
theorem cover0_out (p0 : Vec F S1x64 .f32) (y : S1x64.Idx) :
    ∃ pc ∈ ([⟨r0_out, p0⟩] : List (View.Piece (Elt F) S1x64 .f32)), y ∈ pc.1.set :=
  View.cover_of_tiled [⟨r0_out, p0⟩] S1x64.size (by rfl) y

set_option maxHeartbeats 1000000 in
/-- The body where the first condition holds and the second does not, on whole staging buffers, the inputs' at read
    contents and the accumulators' at anything: it returns with the inputs' as they were and each accumulator at its
    first-point contents. -/
theorem sound_kernel0_A (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc1 : k0_cond1 i = 1#1) (hc2 : ¬k0_cond2 i = 1#1)
    (x0 x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (outA0_2 x0) ∗ owns (c : Thread nD τ) arg4 fullShare (outA0_3 x0)
            ∗ owns (c : Thread nD τ) arg5 fullShare (outA0_4 x1) ∗ owns (c : Thread nD τ) arg6 fullShare (outA0_5 x1)) -∗ K ⟨⟩))
      ⊢ wp frame (wpE (defs₀ (F := F)) Variants.none c none) E (cc0__reduce_kernel i arg1 harg1 arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

set_option maxHeartbeats 1000000 in
/-- The body where the second condition holds and the first does not, the accumulators' buffers at read contents: it
    returns with the inputs' as they were and each accumulator at its later-point contents over what it held. -/
theorem sound_kernel0_B (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc1 : ¬k0_cond1 i = 1#1) (hc2 : k0_cond2 i = 1#1)
    (x0 x1 : Vec F S10000x64 .f32) (xo2 xo3 xo4 xo5 : Vec F S1x64 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ owns (c : Thread nD τ) arg5 fullShare xo4 ∗ owns (c : Thread nD τ) arg6 fullShare xo5
        ∗ (iprop(owns (c : Thread nD τ) arg1 fullShare x0 ∗ owns (c : Thread nD τ) arg2 fullShare x1
            ∗ owns (c : Thread nD τ) arg3 fullShare (outB0_2 x0 xo2) ∗ owns (c : Thread nD τ) arg4 fullShare (outB0_3 x0 xo3)
            ∗ owns (c : Thread nD τ) arg5 fullShare (outB0_4 x1 xo4) ∗ owns (c : Thread nD τ) arg6 fullShare (outB0_5 x1 xo5)) -∗ K ⟨⟩))
      ⊢ wp frame (wpE (defs₀ (F := F)) Variants.none c none) E (cc0__reduce_kernel i arg1 harg1 arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## What the accumulators hold after each point -/

/-- The running contents of each accumulator's staging buffer after the body at point n: the first point's store,
    then at each later point that point's store over what the point before left (the buffer is not written back
    between). -/
def acc0_2 (c : Dev nD) : (n : ℕ) → n < cfg0.N → Vec F S1x64 .f32
  | 0, hn => outA0_2 (iblk0 V c 0 ⟨0, hn⟩)
  | n + 1, hn => outB0_2 (iblk0 V c 0 ⟨n + 1, hn⟩) (acc0_2 c n (Nat.lt_of_succ_lt hn))
def acc0_3 (c : Dev nD) : (n : ℕ) → n < cfg0.N → Vec F S1x64 .f32
  | 0, hn => outA0_3 (iblk0 V c 0 ⟨0, hn⟩)
  | n + 1, hn => outB0_3 (iblk0 V c 0 ⟨n + 1, hn⟩) (acc0_3 c n (Nat.lt_of_succ_lt hn))
def acc0_4 (c : Dev nD) : (n : ℕ) → n < cfg0.N → Vec F S1x64 .f32
  | 0, hn => outA0_4 (iblk0 V c 1 ⟨0, hn⟩)
  | n + 1, hn => outB0_4 (iblk0 V c 1 ⟨n + 1, hn⟩) (acc0_4 c n (Nat.lt_of_succ_lt hn))
def acc0_5 (c : Dev nD) : (n : ℕ) → n < cfg0.N → Vec F S1x64 .f32
  | 0, hn => outA0_5 (iblk0 V c 1 ⟨0, hn⟩)
  | n + 1, hn => outB0_5 (iblk0 V c 1 ⟨n + 1, hn⟩) (acc0_5 c n (Nat.lt_of_succ_lt hn))

theorem acc0_2_first (c : Dev nD) (t : Fin cfg0.N) (h0 : t.val = 0) : acc0_2 V c t.val t.isLt = outA0_2 (iblk0 V c 0 t) := by
  obtain ⟨n, hn⟩ := t
  cases n with
  | zero => rfl
  | succ n => exact absurd h0 (Nat.succ_ne_zero n)
theorem acc0_3_first (c : Dev nD) (t : Fin cfg0.N) (h0 : t.val = 0) : acc0_3 V c t.val t.isLt = outA0_3 (iblk0 V c 0 t) := by
  obtain ⟨n, hn⟩ := t
  cases n with
  | zero => rfl
  | succ n => exact absurd h0 (Nat.succ_ne_zero n)
theorem acc0_4_first (c : Dev nD) (t : Fin cfg0.N) (h0 : t.val = 0) : acc0_4 V c t.val t.isLt = outA0_4 (iblk0 V c 1 t) := by
  obtain ⟨n, hn⟩ := t
  cases n with
  | zero => rfl
  | succ n => exact absurd h0 (Nat.succ_ne_zero n)
theorem acc0_5_first (c : Dev nD) (t : Fin cfg0.N) (h0 : t.val = 0) : acc0_5 V c t.val t.isLt = outA0_5 (iblk0 V c 1 t) := by
  obtain ⟨n, hn⟩ := t
  cases n with
  | zero => rfl
  | succ n => exact absurd h0 (Nat.succ_ne_zero n)

theorem acc0_2_later (c : Dev nD) (t : Fin cfg0.N) (h0 : t.val ≠ 0) :
    acc0_2 V c t.val t.isLt = outB0_2 (iblk0 V c 0 t) (acc0_2 V c (t.val - 1) (Nat.lt_of_le_of_lt (Nat.sub_le _ _) t.isLt)) := by
  obtain ⟨n, hn⟩ := t
  cases n with
  | zero => exact absurd rfl h0
  | succ n => rfl
theorem acc0_3_later (c : Dev nD) (t : Fin cfg0.N) (h0 : t.val ≠ 0) :
    acc0_3 V c t.val t.isLt = outB0_3 (iblk0 V c 0 t) (acc0_3 V c (t.val - 1) (Nat.lt_of_le_of_lt (Nat.sub_le _ _) t.isLt)) := by
  obtain ⟨n, hn⟩ := t
  cases n with
  | zero => exact absurd rfl h0
  | succ n => rfl
theorem acc0_4_later (c : Dev nD) (t : Fin cfg0.N) (h0 : t.val ≠ 0) :
    acc0_4 V c t.val t.isLt = outB0_4 (iblk0 V c 1 t) (acc0_4 V c (t.val - 1) (Nat.lt_of_le_of_lt (Nat.sub_le _ _) t.isLt)) := by
  obtain ⟨n, hn⟩ := t
  cases n with
  | zero => exact absurd rfl h0
  | succ n => rfl
theorem acc0_5_later (c : Dev nD) (t : Fin cfg0.N) (h0 : t.val ≠ 0) :
    acc0_5 V c t.val t.isLt = outB0_5 (iblk0 V c 1 t) (acc0_5 V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the call on core c: the arrays as found; after the body each input's buffer at its block and each
    accumulator's at its running contents; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
    | ⟨4, _⟩ => acc0_4 V c t.val t.isLt
    | ⟨5, _⟩ => acc0_5 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point an accumulator's staging buffer holds what the body left at the point before: the buffer was not
    written back between (only the last point writes back), the window is live and uncut. -/
theorem before0_2_later (c : Dev nD) (t : Fin cfg0.N) (h0 : t.val ≠ 0) (d) :
    (dat0 V c).before 2 t d = acc0_2 V c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live0_2 (fun _ _ => rfl)]
  dsimp only [dat0]
theorem before0_3_later (c : Dev nD) (t : Fin cfg0.N) (h0 : t.val ≠ 0) (d) :
    (dat0 V c).before 3 t d = acc0_3 V c (t.val - 1) (Nat.lt_of_le_of_lt (Nat.sub_le _ _) t.isLt) := by
  have hN : t.val < 5 := lt_of_lt_of_eq t.isLt (show cfg0.N = 5 from N_0)
  rw [Dat.before_out_kept _ 3 rfl t h0 (Bool.eq_false_iff.mpr fun h => by have := (flush0_3 _).mp h; dsimp only at this; omega)
    live0_3 (fun _ _ => rfl)]
  dsimp only [dat0]
theorem before0_4_later (c : Dev nD) (t : Fin cfg0.N) (h0 : t.val ≠ 0) (d) :
    (dat0 V c).before 4 t d = acc0_4 V c (t.val - 1) (Nat.lt_of_le_of_lt (Nat.sub_le _ _) t.isLt) := by
  have hN : t.val < 5 := lt_of_lt_of_eq t.isLt (show cfg0.N = 5 from N_0)
  rw [Dat.before_out_kept _ 4 rfl t h0 (Bool.eq_false_iff.mpr fun h => by have := (flush0_4 _).mp h; dsimp only at this; omega)
    live0_4 (fun _ _ => rfl)]
  dsimp only [dat0]
theorem before0_5_later (c : Dev nD) (t : Fin cfg0.N) (h0 : t.val ≠ 0) (d) :
    (dat0 V c).before 5 t d = acc0_5 V c (t.val - 1) (Nat.lt_of_le_of_lt (Nat.sub_le _ _) t.isLt) := by
  have hN : t.val < 5 := lt_of_lt_of_eq t.isLt (show cfg0.N = 5 from N_0)
  rw [Dat.before_out_kept _ 5 rfl t h0 (Bool.eq_false_iff.mpr fun h => by have := (flush0_5 _).mp h; dsimp only at this; omega)
    live0_5 (fun _ _ => rfl)]
  dsimp only [dat0]

/-- No output window is idle anywhere, so the body hands each accumulator back at its running contents. -/
theorem leaves0_2 (c : Dev nD) (t : Fin cfg0.N) :
    (dat0 V c).leavesExact 2 t = owns (c : Thread nD τ) (st0_2 t) fullShare ((dat0 V c).after 2 t) := by
  unfold Dat.leavesExact; rw [live0_2]
theorem leaves0_3 (c : Dev nD) (t : Fin cfg0.N) :
    (dat0 V c).leavesExact 3 t = owns (c : Thread nD τ) (st0_3 t) fullShare ((dat0 V c).after 3 t) := by
  unfold Dat.leavesExact; rw [live0_3]
theorem leaves0_4 (c : Dev nD) (t : Fin cfg0.N) :
    (dat0 V c).leavesExact 4 t = owns (c : Thread nD τ) (st0_4 t) fullShare ((dat0 V c).after 4 t) := by
  unfold Dat.leavesExact; rw [live0_4]
theorem leaves0_5 (c : Dev nD) (t : Fin cfg0.N) :
    (dat0 V c).leavesExact 5 t = owns (c : Thread nD τ) (st0_5 t) fullShare ((dat0 V c).after 5 t) := by
  unfold Dat.leavesExact; rw [live0_5]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t
    ∗ (dat0 V c).leavesExact 3 t
    ∗ (dat0 V c).leavesExact 4 t
    ∗ (dat0 V c).leavesExact 5 t)

set_option maxHeartbeats 1000000 in
/-- The body at any point: the inputs' buffers hold their blocks; at the first point the first case's run applies, at a
    later point the second's, each accumulator's buffer then holding what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0_2, leaves0_3, leaves0_4, leaves0_5,
    after0_0, after0_1, after0_2, after0_3, after0_4, after0_5]
  by_cases h0 : t.val = 0
  · rw [acc0_2_first V c t h0, acc0_3_first V c t h0, acc0_4_first V c t h0, acc0_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) _ _ _ _ _ _ _ _ _ _ _ _ ((hcond0_1 t).mpr h0) (fun h => (hcond0_2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_2_later V c t h0, acc0_3_later V c t h0, acc0_4_later V c t h0, acc0_5_later V c t h0]
    simp only [before0_2_later V c t h0, before0_3_later V c t h0, before0_4_later V c t h0, before0_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) _ _ _ _ _ _ _ _ _ _ _ _ (fun h => h0 ((hcond0_1 t).mp h)) ((hcond0_2 t).mpr h0)
      (iblk0 V c 0 t) (iblk0 V c 1 t) _ _ _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KIB.R1.lean ====
/- The batch-norm and projection call of the kernel's program: its body's run at a grid point and the proof data of its pipeline. -/
import proofs.«159496_j27066883899809_1_alg».proof.Proof.Gen.Kernel.Launch
import proofs.«159496_j27066883899809_1_alg».proof.Proof.Gen.Kernel.Skeleton
import proofs.«159496_j27066883899809_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call (batch-norm, ReLU and the projection of a block of rows, scaled by the out-degree factor).
    Everything is stated at a parameter `V`, the contents of the TensorCore's buffers when the call is entered. -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

abbrev r1_b : Rect S10000x64 := Rect.unit (s := S10000x64) ![0, 0] S10000x64.size inb_S10000x64_S10000x64_0_0
abbrev r1_s : Rect S1x64 := Rect.unit (s := S1x64) ![0, 0] S1x64.size inb_S1x64_S1x64_0_0
abbrev r1_w : Rect S64x64 := Rect.unit (s := S64x64) ![0, 0] S64x64.size inb_S64x64_S64x64_0_0
abbrev r1_c : Rect S10000x1 := Rect.unit (s := S10000x1) ![0, 0] S10000x1.size inb_S10000x1_S10000x1_0_0

/-- What the body leaves in the output window's buffer: its one whole-block store, of the payload of the thirteen loads. -/
def out1_13 (x0 : Vec F S10000x64 .f32) (x1 : Vec F S10000x64 .f32) (x2 : Vec F S1x64 .f32) (x3 : Vec F S1x64 .f32) (x4 : Vec F S1x64 .f32) (x5 : Vec F S1x64 .f32) (x6 : Vec F S1x64 .f32) (x7 : Vec F S1x64 .f32) (x8 : Vec F S1x64 .f32) (x9 : Vec F S1x64 .f32) (x10 : Vec F S64x64 .f32) (x11 : Vec F S64x64 .f32) (x12 : Vec F S10000x1 .f32) : Vec F S10000x64 .f32 :=
  View.canon [⟨r1_b, k1_pay1 (k1_pay2 (View.ld x0 r1_b) (View.ld x2 r1_s) (View.ld x3 r1_s) (View.ld x4 r1_s) (View.ld x5 r1_s))
    (k1_pay3 (View.ld x1 r1_b) (View.ld x6 r1_s) (View.ld x7 r1_s) (View.ld x8 r1_s) (View.ld x9 r1_s)) (k1_pay4 (F := F))
    (View.ld x10 r1_w) (View.ld x11 r1_w) (View.ld x12 r1_c)⟩]

theorem cover1_13 (p0 : Vec F S10000x64 .f32) (y : S10000x64.Idx) :
    ∃ pc ∈ ([⟨r1_b, p0⟩] : List (View.Piece (Elt F) S10000x64 .f32)), y ∈ pc.1.set :=
  View.cover_of_tiled [⟨r1_b, p0⟩] S10000x64.size (by rfl) y

set_option maxHeartbeats 4000000 in
/-- The body on whole staging buffers, the inputs' at read contents and the output's at anything, returns with the inputs'
    as they were and the output's at `out1_13` of them. -/
theorem sound_kernel1 (c : Dev nD) (E : Set ℕ) (i : grid1.Coords)
    (arg1 : Memref sig .tc .vmem S10000x64 .f32) (harg1 : arg1.IsWhole)
    (arg2 : Memref sig .tc .vmem S10000x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S64x64 .f32) (harg11 : arg11.IsWhole)
    (arg12 : Memref sig .tc .vmem S64x64 .f32) (harg12 : arg12.IsWhole)
    (arg13 : Memref sig .tc .vmem S10000x1 .f32) (harg13 : arg13.IsWhole)
    (arg14 : Memref sig .tc .vmem S10000x64 .f32) (harg14 : arg14.IsWhole)
    (x0 : Vec F S10000x64 .f32) (x1 : Vec F S10000x64 .f32) (x2 : Vec F S1x64 .f32) (x3 : Vec F S1x64 .f32) (x4 : Vec F S1x64 .f32) (x5 : Vec F S1x64 .f32) (x6 : Vec F S1x64 .f32) (x7 : Vec F S1x64 .f32) (x8 : Vec F S1x64 .f32) (x9 : Vec F S1x64 .f32) (x10 : Vec F S64x64 .f32) (x11 : Vec F S64x64 .f32) (x12 : Vec F S10000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__bn_matmul_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__bn_matmul_kernel_eq_skeleton]; unfold cc1__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-- The proof data of the call on core `c`: the arrays as found; after the body each input's buffer at its block and the
    output's at `out1_13` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KIB.R2.lean ====
/- The final-scaling call of the kernel's program: its body's run at a grid point and the proof data of its pipeline. -/
import proofs.«159496_j27066883899809_1_alg».proof.Proof.Gen.Kernel.Launch
import proofs.«159496_j27066883899809_1_alg».proof.Proof.Gen.Kernel.Skeleton
import proofs.«159496_j27066883899809_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call (the final scaling): rows of the aggregate times the in-degree factor, plus the bias.
    Everything is stated at a parameter `V`, the contents of the TensorCore's buffers when the call is entered. -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S10000x1 := Rect.unit (s := S10000x1) ![0, 0] S10000x1.size inb_S10000x1_S10000x1_0_0
abbrev r2_2 : Rect S1x64 := Rect.unit (s := S1x64) ![0, 0] S1x64.size inb_S1x64_S1x64_0_0

/-- What the body leaves in the output window's buffer: its one whole-block store, of the payload of the three loads. -/
def out2_3 (x0 : Vec F S10000x64 .f32) (x1 : Vec F S10000x1 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging buffers, the inputs' at read contents and the output's at anything, returns with the inputs'
    as they were and the output's at `out2_3` of them. -/
theorem sound_kernel2 (c : Dev nD) (E : Set ℕ) (i : grid2.Coords) (arg1 : Memref sig .tc .vmem S10000x64 .f32) (harg1 : arg1.IsWhole)
    (arg2 : Memref sig .tc .vmem S10000x1 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x64 .f32) (x1 : Vec F S10000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the call on core `c`: the arrays as found; after the body each input's buffer at its block and the
    output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KIB.Run.lean ====
/- The run of the whole program through its three pallas_calls: the buffer contents at every boundary, the calls as
   segments over one thread state, and the launch. -/
import proofs.«159496_j27066883899809_1_alg».proof.Proof.KIB.R0
import proofs.«159496_j27066883899809_1_alg».proof.Proof.KIB.R1
import proofs.«159496_j27066883899809_1_alg».proof.Proof.KIB.R2
import proofs.«159496_j27066883899809_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: three pallas_calls among two stretches of host operations

## The buffer contents at each boundary, folded from the launch memory -/

/-- Core `c`'s buffers at launch (the first call is entered from them). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations (the second call's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the third call's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the third call: what the program ends with. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### A buffer no host operation writes passes a stretch unchanged -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-! ### The arguments end as launched: no host operation and no call writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_of_ne m ρ c main_arg6 (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_of_ne m ρ c main_arg7 (by decide)
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_of_ne m ρ c main_arg8 (by decide)
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl

/-! ## The proof data family and the thread state -/

abbrev adm' : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 over the thread state: entered from every unscoped buffer at `W0`, left at `W1`: its arrays split out of
    the unscoped buffers and put back at the exit contents; the generator register into the invariant and out; nothing owed. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`: its arrays split out of
    the unscoped buffers and put back at the exit contents; the generator register into the invariant and out; nothing owed. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W4`, left at `W5`: its arrays split out of
    the unscoped buffers and put back at the exit contents; the generator register into the invariant and out; nothing owed. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]

set_option backward.isDefEq.respectTransparency.types false in
/-- Every weakly fair execution of the program from memory `m` terminates, faulting nowhere, and every final memory holds
    each unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm' (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

/-- The run with the result named: the result array ends at what the third call's write-backs leave, the arguments as launched. -/
theorem run_result : θ_run defs (onTc (τ := τ) (main (F := F))) ⟨m, fun _ => 0, ρ⟩ (fun r => ∀ c : Dev nD,
      r.2.mem ((c.tc : Thread nD τ).loc main_v59) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v59 (by decide))).trans (W5_arr m ρ c 3),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

end Cert.Kernel.Hand

end
-- ==== Proof.KI.R0.lean ====
/- The column-statistics call of the kernel's program (its first pallas_call): the body's run at a grid point in each of
   its two control cases, what the four accumulators hold point by point, and the proof data of its pipeline. -/
import proofs.«159496_j27066883899809_1_alg».proof.Proof.Gen.KernelIdeal.Launch
import proofs.«159496_j27066883899809_1_alg».proof.Proof.Gen.KernelIdeal.Skeleton
import proofs.«159496_j27066883899809_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pallas_call: per column, the sum and the sum of squares of the rows of the two inputs, block by block.
    Five grid points, one block of 10000 rows each; the four 1x64 outputs keep one block index throughout, so their
    staging buffers carry the running totals from point to point and are written back after the last point only.
    Everything is stated at a parameter V, the contents of the TensorCore's buffers when the call is entered. -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- The first condition (the program id is 0) holds at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second (the program id is not 0) holds at every other point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two conditions holds at every point, so no output window is ever idle. -/
theorem live0_2 : ∀ i : grid0.Coords, cfg0.idle 2 i = false := by decide +kernel
theorem live0_3 : ∀ i : grid0.Coords, cfg0.idle 3 i = false := by decide +kernel
theorem live0_4 : ∀ i : grid0.Coords, cfg0.idle 4 i = false := by decide +kernel
theorem live0_5 : ∀ i : grid0.Coords, cfg0.idle 5 i = false := by decide +kernel

/-! ## The body, case by case -/

abbrev r0_in : Rect S10000x64 := Rect.unit (s := S10000x64) ![0, 0] S10000x64.size inb_S10000x64_S10000x64_0_0
abbrev r0_out : Rect S1x64 := Rect.unit (s := S1x64) ![0, 0] S1x64.size inb_S1x64_S1x64_0_0

/-- What the body leaves in the four accumulators at the first point: one whole-block store each, of the column sums
    (sums of squares) of the input block. -/
def outA0_2 (x0 : Vec F S10000x64 .f32) : Vec F S1x64 .f32 := View.canon [⟨r0_out, k0_pay1 (View.ld x0 r0_in)⟩]
def outA0_3 (x0 : Vec F S10000x64 .f32) : Vec F S1x64 .f32 := View.canon [⟨r0_out, k0_pay2 (View.ld x0 r0_in)⟩]
def outA0_4 (x1 : Vec F S10000x64 .f32) : Vec F S1x64 .f32 := View.canon [⟨r0_out, k0_pay3 (View.ld x1 r0_in)⟩]
def outA0_5 (x1 : Vec F S10000x64 .f32) : Vec F S1x64 .f32 := View.canon [⟨r0_out, k0_pay4 (View.ld x1 r0_in)⟩]

/-- What it leaves at a later point, the accumulator holding xo: one whole-block store each, of xo plus the block's
    column sums (sums of squares). -/
def outB0_2 (x0 : Vec F S10000x64 .f32) (xo : Vec F S1x64 .f32) : Vec F S1x64 .f32 :=
  View.canon [⟨r0_out, k0_pay5 (View.ld x0 r0_in) (View.ld xo r0_out)⟩]
def outB0_3 (x0 : Vec F S10000x64 .f32) (xo : Vec F S1x64 .f32) : Vec F S1x64 .f32 :=
  View.canon [⟨r0_out, k0_pay6 (View.ld x0 r0_in) (View.ld xo r0_out)⟩]
def outB0_4 (x1 : Vec F S10000x64 .f32) (xo : Vec F S1x64 .f32) : Vec F S1x64 .f32 :=
  View.canon [⟨r0_out, k0_pay7 (View.ld x1 r0_in) (View.ld xo r0_out)⟩]
def outB0_5 (x1 : Vec F S10000x64 .f32) (xo : Vec F S1x64 .f32) : Vec F S1x64 .f32 :=
  View.canon [⟨r0_out, k0_pay8 (View.ld x1 r0_in) (View.ld xo r0_out)⟩]

/-- One whole-block store covers an accumulator's block. -/
theorem cover0_out (p0 : Vec F S1x64 .f32) (y : S1x64.Idx) :
    ∃ pc ∈ ([⟨r0_out, p0⟩] : List (View.Piece (Elt F) S1x64 .f32)), y ∈ pc.1.set :=
  View.cover_of_tiled [⟨r0_out, p0⟩] S1x64.size (by rfl) y

set_option maxHeartbeats 1000000 in
/-- The body where the first condition holds and the second does not, on whole staging buffers, the inputs' at read
    contents and the accumulators' at anything: it returns with the inputs' as they were and each accumulator at its
    first-point contents. -/
theorem sound_kernel0_A (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc1 : k0_cond1 i = 1#1) (hc2 : ¬k0_cond2 i = 1#1)
    (x0 x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (outA0_2 x0) ∗ owns (c : Thread nD τ) arg4 fullShare (outA0_3 x0)
            ∗ owns (c : Thread nD τ) arg5 fullShare (outA0_4 x1) ∗ owns (c : Thread nD τ) arg6 fullShare (outA0_5 x1)) -∗ K ⟨⟩))
      ⊢ wp frame (wpE (defs₀ (F := F)) Variants.none c none) E (cc0__reduce_kernel i arg1 harg1 arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

set_option maxHeartbeats 1000000 in
/-- The body where the second condition holds and the first does not, the accumulators' buffers at read contents: it
    returns with the inputs' as they were and each accumulator at its later-point contents over what it held. -/
theorem sound_kernel0_B (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc1 : ¬k0_cond1 i = 1#1) (hc2 : k0_cond2 i = 1#1)
    (x0 x1 : Vec F S10000x64 .f32) (xo2 xo3 xo4 xo5 : Vec F S1x64 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ owns (c : Thread nD τ) arg5 fullShare xo4 ∗ owns (c : Thread nD τ) arg6 fullShare xo5
        ∗ (iprop(owns (c : Thread nD τ) arg1 fullShare x0 ∗ owns (c : Thread nD τ) arg2 fullShare x1
            ∗ owns (c : Thread nD τ) arg3 fullShare (outB0_2 x0 xo2) ∗ owns (c : Thread nD τ) arg4 fullShare (outB0_3 x0 xo3)
            ∗ owns (c : Thread nD τ) arg5 fullShare (outB0_4 x1 xo4) ∗ owns (c : Thread nD τ) arg6 fullShare (outB0_5 x1 xo5)) -∗ K ⟨⟩))
      ⊢ wp frame (wpE (defs₀ (F := F)) Variants.none c none) E (cc0__reduce_kernel i arg1 harg1 arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## What the accumulators hold after each point -/

/-- The running contents of each accumulator's staging buffer after the body at point n: the first point's store,
    then at each later point that point's store over what the point before left (the buffer is not written back
    between). -/
def acc0_2 (c : Dev nD) : (n : ℕ) → n < cfg0.N → Vec F S1x64 .f32
  | 0, hn => outA0_2 (iblk0 V c 0 ⟨0, hn⟩)
  | n + 1, hn => outB0_2 (iblk0 V c 0 ⟨n + 1, hn⟩) (acc0_2 c n (Nat.lt_of_succ_lt hn))
def acc0_3 (c : Dev nD) : (n : ℕ) → n < cfg0.N → Vec F S1x64 .f32
  | 0, hn => outA0_3 (iblk0 V c 0 ⟨0, hn⟩)
  | n + 1, hn => outB0_3 (iblk0 V c 0 ⟨n + 1, hn⟩) (acc0_3 c n (Nat.lt_of_succ_lt hn))
def acc0_4 (c : Dev nD) : (n : ℕ) → n < cfg0.N → Vec F S1x64 .f32
  | 0, hn => outA0_4 (iblk0 V c 1 ⟨0, hn⟩)
  | n + 1, hn => outB0_4 (iblk0 V c 1 ⟨n + 1, hn⟩) (acc0_4 c n (Nat.lt_of_succ_lt hn))
def acc0_5 (c : Dev nD) : (n : ℕ) → n < cfg0.N → Vec F S1x64 .f32
  | 0, hn => outA0_5 (iblk0 V c 1 ⟨0, hn⟩)
  | n + 1, hn => outB0_5 (iblk0 V c 1 ⟨n + 1, hn⟩) (acc0_5 c n (Nat.lt_of_succ_lt hn))

theorem acc0_2_first (c : Dev nD) (t : Fin cfg0.N) (h0 : t.val = 0) : acc0_2 V c t.val t.isLt = outA0_2 (iblk0 V c 0 t) := by
  obtain ⟨n, hn⟩ := t
  cases n with
  | zero => rfl
  | succ n => exact absurd h0 (Nat.succ_ne_zero n)
theorem acc0_3_first (c : Dev nD) (t : Fin cfg0.N) (h0 : t.val = 0) : acc0_3 V c t.val t.isLt = outA0_3 (iblk0 V c 0 t) := by
  obtain ⟨n, hn⟩ := t
  cases n with
  | zero => rfl
  | succ n => exact absurd h0 (Nat.succ_ne_zero n)
theorem acc0_4_first (c : Dev nD) (t : Fin cfg0.N) (h0 : t.val = 0) : acc0_4 V c t.val t.isLt = outA0_4 (iblk0 V c 1 t) := by
  obtain ⟨n, hn⟩ := t
  cases n with
  | zero => rfl
  | succ n => exact absurd h0 (Nat.succ_ne_zero n)
theorem acc0_5_first (c : Dev nD) (t : Fin cfg0.N) (h0 : t.val = 0) : acc0_5 V c t.val t.isLt = outA0_5 (iblk0 V c 1 t) := by
  obtain ⟨n, hn⟩ := t
  cases n with
  | zero => rfl
  | succ n => exact absurd h0 (Nat.succ_ne_zero n)

theorem acc0_2_later (c : Dev nD) (t : Fin cfg0.N) (h0 : t.val ≠ 0) :
    acc0_2 V c t.val t.isLt = outB0_2 (iblk0 V c 0 t) (acc0_2 V c (t.val - 1) (Nat.lt_of_le_of_lt (Nat.sub_le _ _) t.isLt)) := by
  obtain ⟨n, hn⟩ := t
  cases n with
  | zero => exact absurd rfl h0
  | succ n => rfl
theorem acc0_3_later (c : Dev nD) (t : Fin cfg0.N) (h0 : t.val ≠ 0) :
    acc0_3 V c t.val t.isLt = outB0_3 (iblk0 V c 0 t) (acc0_3 V c (t.val - 1) (Nat.lt_of_le_of_lt (Nat.sub_le _ _) t.isLt)) := by
  obtain ⟨n, hn⟩ := t
  cases n with
  | zero => exact absurd rfl h0
  | succ n => rfl
theorem acc0_4_later (c : Dev nD) (t : Fin cfg0.N) (h0 : t.val ≠ 0) :
    acc0_4 V c t.val t.isLt = outB0_4 (iblk0 V c 1 t) (acc0_4 V c (t.val - 1) (Nat.lt_of_le_of_lt (Nat.sub_le _ _) t.isLt)) := by
  obtain ⟨n, hn⟩ := t
  cases n with
  | zero => exact absurd rfl h0
  | succ n => rfl
theorem acc0_5_later (c : Dev nD) (t : Fin cfg0.N) (h0 : t.val ≠ 0) :
    acc0_5 V c t.val t.isLt = outB0_5 (iblk0 V c 1 t) (acc0_5 V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the call on core c: the arrays as found; after the body each input's buffer at its block and each
    accumulator's at its running contents; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
    | ⟨4, _⟩ => acc0_4 V c t.val t.isLt
    | ⟨5, _⟩ => acc0_5 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point an accumulator's staging buffer holds what the body left at the point before: the buffer was not
    written back between (only the last point writes back), the window is live and uncut. -/
theorem before0_2_later (c : Dev nD) (t : Fin cfg0.N) (h0 : t.val ≠ 0) (d) :
    (dat0 V c).before 2 t d = acc0_2 V c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live0_2 (fun _ _ => rfl)]
  dsimp only [dat0]
theorem before0_3_later (c : Dev nD) (t : Fin cfg0.N) (h0 : t.val ≠ 0) (d) :
    (dat0 V c).before 3 t d = acc0_3 V c (t.val - 1) (Nat.lt_of_le_of_lt (Nat.sub_le _ _) t.isLt) := by
  have hN : t.val < 5 := lt_of_lt_of_eq t.isLt (show cfg0.N = 5 from N_0)
  rw [Dat.before_out_kept _ 3 rfl t h0 (Bool.eq_false_iff.mpr fun h => by have := (flush0_3 _).mp h; dsimp only at this; omega)
    live0_3 (fun _ _ => rfl)]
  dsimp only [dat0]
theorem before0_4_later (c : Dev nD) (t : Fin cfg0.N) (h0 : t.val ≠ 0) (d) :
    (dat0 V c).before 4 t d = acc0_4 V c (t.val - 1) (Nat.lt_of_le_of_lt (Nat.sub_le _ _) t.isLt) := by
  have hN : t.val < 5 := lt_of_lt_of_eq t.isLt (show cfg0.N = 5 from N_0)
  rw [Dat.before_out_kept _ 4 rfl t h0 (Bool.eq_false_iff.mpr fun h => by have := (flush0_4 _).mp h; dsimp only at this; omega)
    live0_4 (fun _ _ => rfl)]
  dsimp only [dat0]
theorem before0_5_later (c : Dev nD) (t : Fin cfg0.N) (h0 : t.val ≠ 0) (d) :
    (dat0 V c).before 5 t d = acc0_5 V c (t.val - 1) (Nat.lt_of_le_of_lt (Nat.sub_le _ _) t.isLt) := by
  have hN : t.val < 5 := lt_of_lt_of_eq t.isLt (show cfg0.N = 5 from N_0)
  rw [Dat.before_out_kept _ 5 rfl t h0 (Bool.eq_false_iff.mpr fun h => by have := (flush0_5 _).mp h; dsimp only at this; omega)
    live0_5 (fun _ _ => rfl)]
  dsimp only [dat0]

/-- No output window is idle anywhere, so the body hands each accumulator back at its running contents. -/
theorem leaves0_2 (c : Dev nD) (t : Fin cfg0.N) :
    (dat0 V c).leavesExact 2 t = owns (c : Thread nD τ) (st0_2 t) fullShare ((dat0 V c).after 2 t) := by
  unfold Dat.leavesExact; rw [live0_2]
theorem leaves0_3 (c : Dev nD) (t : Fin cfg0.N) :
    (dat0 V c).leavesExact 3 t = owns (c : Thread nD τ) (st0_3 t) fullShare ((dat0 V c).after 3 t) := by
  unfold Dat.leavesExact; rw [live0_3]
theorem leaves0_4 (c : Dev nD) (t : Fin cfg0.N) :
    (dat0 V c).leavesExact 4 t = owns (c : Thread nD τ) (st0_4 t) fullShare ((dat0 V c).after 4 t) := by
  unfold Dat.leavesExact; rw [live0_4]
theorem leaves0_5 (c : Dev nD) (t : Fin cfg0.N) :
    (dat0 V c).leavesExact 5 t = owns (c : Thread nD τ) (st0_5 t) fullShare ((dat0 V c).after 5 t) := by
  unfold Dat.leavesExact; rw [live0_5]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t
    ∗ (dat0 V c).leavesExact 3 t
    ∗ (dat0 V c).leavesExact 4 t
    ∗ (dat0 V c).leavesExact 5 t)

set_option maxHeartbeats 1000000 in
/-- The body at any point: the inputs' buffers hold their blocks; at the first point the first case's run applies, at a
    later point the second's, each accumulator's buffer then holding what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0_2, leaves0_3, leaves0_4, leaves0_5,
    after0_0, after0_1, after0_2, after0_3, after0_4, after0_5]
  by_cases h0 : t.val = 0
  · rw [acc0_2_first V c t h0, acc0_3_first V c t h0, acc0_4_first V c t h0, acc0_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) _ _ _ _ _ _ _ _ _ _ _ _ ((hcond0_1 t).mpr h0) (fun h => (hcond0_2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_2_later V c t h0, acc0_3_later V c t h0, acc0_4_later V c t h0, acc0_5_later V c t h0]
    simp only [before0_2_later V c t h0, before0_3_later V c t h0, before0_4_later V c t h0, before0_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) _ _ _ _ _ _ _ _ _ _ _ _ (fun h => h0 ((hcond0_1 t).mp h)) ((hcond0_2 t).mpr h0)
      (iblk0 V c 0 t) (iblk0 V c 1 t) _ _ _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- The batch-norm and projection call of the kernel's program: its body's run at a grid point and the proof data of its pipeline. -/
import proofs.«159496_j27066883899809_1_alg».proof.Proof.Gen.KernelIdeal.Launch
import proofs.«159496_j27066883899809_1_alg».proof.Proof.Gen.KernelIdeal.Skeleton
import proofs.«159496_j27066883899809_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call (batch-norm, ReLU and the projection of a block of rows, scaled by the out-degree factor).
    Everything is stated at a parameter `V`, the contents of the TensorCore's buffers when the call is entered. -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

abbrev r1_b : Rect S10000x64 := Rect.unit (s := S10000x64) ![0, 0] S10000x64.size inb_S10000x64_S10000x64_0_0
abbrev r1_s : Rect S1x64 := Rect.unit (s := S1x64) ![0, 0] S1x64.size inb_S1x64_S1x64_0_0
abbrev r1_w : Rect S64x64 := Rect.unit (s := S64x64) ![0, 0] S64x64.size inb_S64x64_S64x64_0_0
abbrev r1_c : Rect S10000x1 := Rect.unit (s := S10000x1) ![0, 0] S10000x1.size inb_S10000x1_S10000x1_0_0

/-- What the body leaves in the output window's buffer: its one whole-block store, of the payload of the thirteen loads. -/
def out1_13 (x0 : Vec F S10000x64 .f32) (x1 : Vec F S10000x64 .f32) (x2 : Vec F S1x64 .f32) (x3 : Vec F S1x64 .f32) (x4 : Vec F S1x64 .f32) (x5 : Vec F S1x64 .f32) (x6 : Vec F S1x64 .f32) (x7 : Vec F S1x64 .f32) (x8 : Vec F S1x64 .f32) (x9 : Vec F S1x64 .f32) (x10 : Vec F S64x64 .f32) (x11 : Vec F S64x64 .f32) (x12 : Vec F S10000x1 .f32) : Vec F S10000x64 .f32 :=
  View.canon [⟨r1_b, k1_pay1 (k1_pay2 (View.ld x0 r1_b) (View.ld x2 r1_s) (View.ld x3 r1_s) (View.ld x4 r1_s) (View.ld x5 r1_s))
    (k1_pay3 (View.ld x1 r1_b) (View.ld x6 r1_s) (View.ld x7 r1_s) (View.ld x8 r1_s) (View.ld x9 r1_s)) (k1_pay4 (F := F))
    (View.ld x10 r1_w) (View.ld x11 r1_w) (View.ld x12 r1_c)⟩]

theorem cover1_13 (p0 : Vec F S10000x64 .f32) (y : S10000x64.Idx) :
    ∃ pc ∈ ([⟨r1_b, p0⟩] : List (View.Piece (Elt F) S10000x64 .f32)), y ∈ pc.1.set :=
  View.cover_of_tiled [⟨r1_b, p0⟩] S10000x64.size (by rfl) y

set_option maxHeartbeats 4000000 in
/-- The body on whole staging buffers, the inputs' at read contents and the output's at anything, returns with the inputs'
    as they were and the output's at `out1_13` of them. -/
theorem sound_kernel1 (c : Dev nD) (E : Set ℕ) (i : grid1.Coords)
    (arg1 : Memref sig .tc .vmem S10000x64 .f32) (harg1 : arg1.IsWhole)
    (arg2 : Memref sig .tc .vmem S10000x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S64x64 .f32) (harg11 : arg11.IsWhole)
    (arg12 : Memref sig .tc .vmem S64x64 .f32) (harg12 : arg12.IsWhole)
    (arg13 : Memref sig .tc .vmem S10000x1 .f32) (harg13 : arg13.IsWhole)
    (arg14 : Memref sig .tc .vmem S10000x64 .f32) (harg14 : arg14.IsWhole)
    (x0 : Vec F S10000x64 .f32) (x1 : Vec F S10000x64 .f32) (x2 : Vec F S1x64 .f32) (x3 : Vec F S1x64 .f32) (x4 : Vec F S1x64 .f32) (x5 : Vec F S1x64 .f32) (x6 : Vec F S1x64 .f32) (x7 : Vec F S1x64 .f32) (x8 : Vec F S1x64 .f32) (x9 : Vec F S1x64 .f32) (x10 : Vec F S64x64 .f32) (x11 : Vec F S64x64 .f32) (x12 : Vec F S10000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__bn_matmul_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__bn_matmul_kernel_eq_skeleton]; unfold cc1__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-- The proof data of the call on core `c`: the arrays as found; after the body each input's buffer at its block and the
    output's at `out1_13` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- The final-scaling call of the kernel's program: its body's run at a grid point and the proof data of its pipeline. -/
import proofs.«159496_j27066883899809_1_alg».proof.Proof.Gen.KernelIdeal.Launch
import proofs.«159496_j27066883899809_1_alg».proof.Proof.Gen.KernelIdeal.Skeleton
import proofs.«159496_j27066883899809_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call (the final scaling): rows of the aggregate times the in-degree factor, plus the bias.
    Everything is stated at a parameter `V`, the contents of the TensorCore's buffers when the call is entered. -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S10000x1 := Rect.unit (s := S10000x1) ![0, 0] S10000x1.size inb_S10000x1_S10000x1_0_0
abbrev r2_2 : Rect S1x64 := Rect.unit (s := S1x64) ![0, 0] S1x64.size inb_S1x64_S1x64_0_0

/-- What the body leaves in the output window's buffer: its one whole-block store, of the payload of the three loads. -/
def out2_3 (x0 : Vec F S10000x64 .f32) (x1 : Vec F S10000x1 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging buffers, the inputs' at read contents and the output's at anything, returns with the inputs'
    as they were and the output's at `out2_3` of them. -/
theorem sound_kernel2 (c : Dev nD) (E : Set ℕ) (i : grid2.Coords) (arg1 : Memref sig .tc .vmem S10000x64 .f32) (harg1 : arg1.IsWhole)
    (arg2 : Memref sig .tc .vmem S10000x1 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x64 .f32) (x1 : Vec F S10000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the call on core `c`: the arrays as found; after the body each input's buffer at its block and the
    output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The run of the whole program through its three pallas_calls: the buffer contents at every boundary, the calls as
   segments over one thread state, and the launch. -/
import proofs.«159496_j27066883899809_1_alg».proof.Proof.KI.R0
import proofs.«159496_j27066883899809_1_alg».proof.Proof.KI.R1
import proofs.«159496_j27066883899809_1_alg».proof.Proof.KI.R2
import proofs.«159496_j27066883899809_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: three pallas_calls among two stretches of host operations

## The buffer contents at each boundary, folded from the launch memory -/

/-- Core `c`'s buffers at launch (the first call is entered from them). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations (the second call's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the third call's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the third call: what the program ends with. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### A buffer no host operation writes passes a stretch unchanged -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-! ### The arguments end as launched: no host operation and no call writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_of_ne m ρ c main_arg6 (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_of_ne m ρ c main_arg7 (by decide)
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_of_ne m ρ c main_arg8 (by decide)
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl

/-! ## The proof data family and the thread state -/

abbrev adm' : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 over the thread state: entered from every unscoped buffer at `W0`, left at `W1`: its arrays split out of
    the unscoped buffers and put back at the exit contents; the generator register into the invariant and out; nothing owed. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`: its arrays split out of
    the unscoped buffers and put back at the exit contents; the generator register into the invariant and out; nothing owed. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W4`, left at `W5`: its arrays split out of
    the unscoped buffers and put back at the exit contents; the generator register into the invariant and out; nothing owed. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]

set_option backward.isDefEq.respectTransparency.types false in
/-- Every weakly fair execution of the program from memory `m` terminates, faulting nowhere, and every final memory holds
    each unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm' (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

/-- The run with the result named: the result array ends at what the third call's write-backs leave, the arguments as launched. -/
theorem run_result : θ_run defs (onTc (τ := τ) (main (F := F))) ⟨m, fun _ => 0, ρ⟩ (fun r => ∀ c : Dev nD,
      r.2.mem ((c.tc : Thread nD τ).loc main_v59) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v59 (by decide))).trans (W5_arr m ρ c 3),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

end Cert.KernelIdeal.Hand

end
-- ==== Proof.Ref.Run.lean ====
/-
  The reference program's run: @main as ONE list of its 92 host operations — its own 67 and, at
  the two call sites, the bodies of the functions it calls (the variance function's 19 with the select function's 3
  nested in it, and the rectifier's 3), each over the buffers of that call's record — and the run read back
  through the straight-line rule: every weakly fair execution terminates with every buffer at the fold of the
  operations over the launch contents; in particular the result buffer, and the nine arguments unchanged because
  no operation writes them.
-/
import proofs.«159496_j27066883899809_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 92 operations in order, the calls' bodies inlined over the calls' buffer records. -/
abbrev ops : List (HloOp τ sig (Elt F)) :=
  [
    binary main_arg0 main_arg1 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    nullary main_cst (constant S_ .f32 0x00000000#32),
    binary main_v0 main_cst main_v1 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_0 (constant S_ .f32 0x47435000#32),
    unary main_cst_0 main_v2 (broadcastInDim S128 ![] bcast_S_S128 : (⟨S_, .f32⟩ : BufTy).Contents (Elt F) → (⟨S128, .f32⟩ : BufTy).Contents (Elt F)),
    binary main_v1 main_v2 main_v3 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v0) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v0 main_v6 main_v7 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v8 (broadcastInDim S128 ![] bcast_S_S128 : (⟨S_, .f32⟩ : BufTy).Contents (Elt F) → (⟨S128, .f32⟩ : BufTy).Contents (Elt F)),
    binary main_v4 main_v8 main_v9 (addf : (⟨S128, .f32⟩ : BufTy).Contents (Elt F) → (⟨S128, .f32⟩ : BufTy).Contents (Elt F) → (⟨S128, .f32⟩ : BufTy).Contents (Elt F)),
    unary main_v9 main_v10 (Host.rsqrt : (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v7 main_v12 main_v13 (mulf : (⟨S50000x128, .f32⟩ : BufTy).Contents (Elt F) → (⟨S50000x128, .f32⟩ : BufTy).Contents (Elt F) → (⟨S50000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (mulf : (⟨S50000x128, .f32⟩ : BufTy).Contents (Elt F) → (⟨S50000x128, .f32⟩ : BufTy).Contents (Elt F) → (⟨S50000x128, .f32⟩ : BufTy).Contents (Elt F)),
    unary main_arg6 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v19) main_call1.v0 main_call1.v1 maximumf,
    nullary main_cst_2 (constant S_ .f32 0x3F800000#32),
    unary main_cst_2 main_v21 (broadcastInDim S600000 ![] bcast_S_S600000 : (⟨S_, .f32⟩ : BufTy).Contents (Elt F) → (⟨S600000, .f32⟩ : BufTy).Contents (Elt F)),
    nullary main_cst_3 (constant S_ .f32 0x00000000#32),
    unary main_cst_3 main_v22 (broadcastInDim S50000 ![] bcast_S_S50000 : (⟨S_, .f32⟩ : BufTy).Contents (Elt F) → (⟨S50000, .f32⟩ : BufTy).Contents (Elt F)),
    unary main_arg2 main_v23 (broadcastInDim S600000x1 ![0] bcast_S600000_S600000x1_0 : (⟨S600000, .i32⟩ : BufTy).Contents (Elt F) → (⟨S600000x1, .i32⟩ : BufTy).Contents (Elt F)),
    ternary main_v22 main_v23 main_v21 main_v24 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_4 (constant S_ .f32 0x3F800000#32),
    unary main_cst_4 main_v25 (broadcastInDim S50000 ![] bcast_S_S50000 : (⟨S_, .f32⟩ : BufTy).Contents (Elt F) → (⟨S50000, .f32⟩ : BufTy).Contents (Elt F)),
    binary main_v24 main_v25 main_v26 (maximumf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    unary main_cst_5 main_v27 (broadcastInDim S50000 ![] bcast_S_S50000 : (⟨S_, .f32⟩ : BufTy).Contents (Elt F) → (⟨S50000, .f32⟩ : BufTy).Contents (Elt F)),
    unary main_arg3 main_v28 (broadcastInDim S600000x1 ![0] bcast_S600000_S600000x1_0 : (⟨S600000, .i32⟩ : BufTy).Contents (Elt F) → (⟨S600000x1, .i32⟩ : BufTy).Contents (Elt F)),
    ternary main_v27 main_v28 main_v21 main_v29 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_6 (constant S_ .f32 0x3F800000#32),
    unary main_cst_6 main_v30 (broadcastInDim S50000 ![] bcast_S_S50000 : (⟨S_, .f32⟩ : BufTy).Contents (Elt F) → (⟨S50000, .f32⟩ : BufTy).Contents (Elt F)),
    binary main_v29 main_v30 main_v31 (maximumf : (⟨S50000, .f32⟩ : BufTy).Contents (Elt F) → (⟨S50000, .f32⟩ : BufTy).Contents (Elt F) → (⟨S50000, .f32⟩ : BufTy).Contents (Elt F)),
    unary main_v26 main_v32 (Host.rsqrt : (⟨S50000, .f32⟩ : BufTy).Contents (Elt F) → (⟨S50000, .f32⟩ : BufTy).Contents (Elt F)),
    unary main_v31 main_v33 (Host.rsqrt : (⟨S50000, .f32⟩ : BufTy).Contents (Elt F) → (⟨S50000, .f32⟩ : BufTy).Contents (Elt F)),
    binary main_v20 main_arg7 main_v34 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v32 main_v35 (broadcastInDim S50000x1 ![0] bcast_S50000_S50000x1_0 : (⟨S50000, .f32⟩ : BufTy).Contents (Elt F) → (⟨S50000x1, .f32⟩ : BufTy).Contents (Elt F)),
    unary main_v35 main_v36 (broadcastInDim S50000x64 ![0, 1] bcast_S50000x1_S50000x64_0_1 : (⟨S50000x1, .f32⟩ : BufTy).Contents (Elt F) → (⟨S50000x64, .f32⟩ : BufTy).Contents (Elt F)),
    binary main_v34 main_v36 main_v37 (mulf : (⟨S50000x64, .f32⟩ : BufTy).Contents (Elt F) → (⟨S50000x64, .f32⟩ : BufTy).Contents (Elt F) → (⟨S50000x64, .f32⟩ : BufTy).Contents (Elt F)),
    nullary main_c_7 (constantI S_ 32 0#32),
    unary main_c_7 main_v38 (broadcastInDim S600000 ![] bcast_S_S600000 : (⟨S_, .i32⟩ : BufTy).Contents (Elt F) → (⟨S600000, .i32⟩ : BufTy).Contents (Elt F)),
    binary main_arg2 main_v38 main_v39 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v40 (broadcastInDim S600000 ![] bcast_S_S600000 : (⟨S_, .i32⟩ : BufTy).Contents (Elt F) → (⟨S600000, .i32⟩ : BufTy).Contents (Elt F)),
    binary main_arg2 main_v40 main_v41 (addi : (⟨S600000, .i32⟩ : BufTy).Contents (Elt F) → (⟨S600000, .i32⟩ : BufTy).Contents (Elt F) → (⟨S600000, .i32⟩ : BufTy).Contents (Elt F)),
    ternary main_v39 main_v41 main_arg2 main_v42 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v42 main_v43 (broadcastInDim S600000x1 ![0] bcast_S600000_S600000x1_0 : (⟨S600000, .i32⟩ : BufTy).Contents (Elt F) → (⟨S600000x1, .i32⟩ : BufTy).Contents (Elt F)),
    binary main_v37 main_v43 main_v44 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    unary main_arg4 main_v45 (broadcastInDim S600000x1 ![0] bcast_S600000_S600000x1_0 : (⟨S600000, .f32⟩ : BufTy).Contents (Elt F) → (⟨S600000x1, .f32⟩ : BufTy).Contents (Elt F)),
    unary main_v45 main_v46 (broadcastInDim S600000x64 ![0, 1] bcast_S600000x1_S600000x64_0_1 : (⟨S600000x1, .f32⟩ : BufTy).Contents (Elt F) → (⟨S600000x64, .f32⟩ : BufTy).Contents (Elt F)),
    binary main_v44 main_v46 main_v47 (mulf : (⟨S600000x64, .f32⟩ : BufTy).Contents (Elt F) → (⟨S600000x64, .f32⟩ : BufTy).Contents (Elt F) → (⟨S600000x64, .f32⟩ : BufTy).Contents (Elt F)),
    nullary main_cst_9 (constant S_ .f32 0x00000000#32),
    unary main_cst_9 main_v48 (broadcastInDim S50000x64 ![] bcast_S_S50000x64 : (⟨S_, .f32⟩ : BufTy).Contents (Elt F) → (⟨S50000x64, .f32⟩ : BufTy).Contents (Elt F)),
    unary main_arg3 main_v49 (broadcastInDim S600000x1 ![0] bcast_S600000_S600000x1_0 : (⟨S600000, .i32⟩ : BufTy).Contents (Elt F) → (⟨S600000x1, .i32⟩ : BufTy).Contents (Elt F)),
    ternary main_v48 main_v49 main_v47 main_v50 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    unary main_v33 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x64 ![0, 1] bcast_S50000x1_S50000x64_0_1 : (⟨S50000x1, .f32⟩ : BufTy).Contents (Elt F) → (⟨S50000x64, .f32⟩ : BufTy).Contents (Elt F)),
    binary main_v50 main_v52 main_v53 (mulf : (⟨S50000x64, .f32⟩ : BufTy).Contents (Elt F) → (⟨S50000x64, .f32⟩ : BufTy).Contents (Elt F) → (⟨S50000x64, .f32⟩ : BufTy).Contents (Elt F)),
    unary main_arg8 main_v54 (broadcastInDim S1x64 ![1] bcast_S64_S1x64_1 : (⟨S64, .f32⟩ : BufTy).Contents (Elt F) → (⟨S1x64, .f32⟩ : BufTy).Contents (Elt F)),
    unary main_v54 main_v55 (broadcastInDim S50000x64 ![0, 1] bcast_S1x64_S50000x64_0_1 : (⟨S1x64, .f32⟩ : BufTy).Contents (Elt F) → (⟨S50000x64, .f32⟩ : BufTy).Contents (Elt F)),
    binary main_v53 main_v55 main_v56 (addf : (⟨S50000x64, .f32⟩ : BufTy).Contents (Elt F) → (⟨S50000x64, .f32⟩ : BufTy).Contents (Elt F) → (⟨S50000x64, .f32⟩ : BufTy).Contents (Elt F)) ]

-- ninety-two binds re-associated: the rewrite under the chain recurses once per statement
set_option maxRecDepth 4096 in
set_option maxHeartbeats 4000000 in
/-- @main is that straight line: the two windows and the called functions unfolded, the records at their fields,
    both sides are one chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub ..⟩

/-- Every buffer after the run is the fold of the operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

set_option maxRecDepth 4096 in
/-- No operation writes `main_arg0`. -/
theorem main_arg0_eq (V : Valuation τ sig (Elt F)) :
    after ops V (Proc.devRef .tc main_arg0) = V (Proc.devRef .tc main_arg0) := by
  after_results_simp

set_option maxRecDepth 4096 in
/-- No operation writes `main_arg1`. -/
theorem main_arg1_eq (V : Valuation τ sig (Elt F)) :
    after ops V (Proc.devRef .tc main_arg1) = V (Proc.devRef .tc main_arg1) := by
  after_results_simp

set_option maxRecDepth 4096 in
/-- No operation writes `main_arg2`. -/
theorem main_arg2_eq (V : Valuation τ sig (Elt F)) :
    after ops V (Proc.devRef .tc main_arg2) = V (Proc.devRef .tc main_arg2) := by
  after_results_simp

set_option maxRecDepth 4096 in
/-- No operation writes `main_arg3`. -/
theorem main_arg3_eq (V : Valuation τ sig (Elt F)) :
    after ops V (Proc.devRef .tc main_arg3) = V (Proc.devRef .tc main_arg3) := by
  after_results_simp

set_option maxRecDepth 4096 in
/-- No operation writes `main_arg4`. -/
theorem main_arg4_eq (V : Valuation τ sig (Elt F)) :
    after ops V (Proc.devRef .tc main_arg4) = V (Proc.devRef .tc main_arg4) := by
  after_results_simp

set_option maxRecDepth 4096 in
/-- No operation writes `main_arg5`. -/
theorem main_arg5_eq (V : Valuation τ sig (Elt F)) :
    after ops V (Proc.devRef .tc main_arg5) = V (Proc.devRef .tc main_arg5) := by
  after_results_simp

set_option maxRecDepth 4096 in
/-- No operation writes `main_arg6`. -/
theorem main_arg6_eq (V : Valuation τ sig (Elt F)) :
    after ops V (Proc.devRef .tc main_arg6) = V (Proc.devRef .tc main_arg6) := by
  after_results_simp

set_option maxRecDepth 4096 in
/-- No operation writes `main_arg7`. -/
theorem main_arg7_eq (V : Valuation τ sig (Elt F)) :
    after ops V (Proc.devRef .tc main_arg7) = V (Proc.devRef .tc main_arg7) := by
  after_results_simp

set_option maxRecDepth 4096 in
/-- No operation writes `main_arg8`. -/
theorem main_arg8_eq (V : Valuation τ sig (Elt F)) :
    after ops V (Proc.devRef .tc main_arg8) = V (Proc.devRef .tc main_arg8) := by
  after_results_simp

/-- On every device, for any float values, from any memory with zero counters: every weakly fair execution of
    @main terminates with the result at the fold of the operations over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v56) = StableHlo.after ops (fun b => m (c, b)) (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c main_v56,
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _)⟩)
    (run_all m ρ)

end Cert.ReferenceIdeal.Hand

end
-- ==== Proof.Ref.Val.lean ====
/-
  The reference's value. `featR` is the node features — the rectifier of the batch normalisation of the two inputs
  laid side by side, times the weight matrix, each row scaled by the inverse square root of its out-degree clamped
  at one — and `tailR` the graph aggregation of such features: gathered along the source table, weighted per edge,
  scatter-added along the destination table, each row scaled by the inverse square root of its in-degree clamped at
  one, plus the bias. Each is stated as the printed operations compose it and read at an index; the fold of the 92
  operations at the result buffer is `tailR (featR …) …` of the contents at the argument buffers.
-/
import proofs.«159496_j27066883899809_1_alg».proof.Proof.Ref.Run
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The arrays, as the printed operations compose them -/

/-- The two inputs laid side by side along the feature axis. -/
def xcatA (x1 x2 : FVec Ideal S50000x64 .f32) : FVec Ideal S50000x128 .f32 :=
  concatenate S50000x128 1 [⟨S50000x64, x1⟩, ⟨S50000x64, x2⟩] concatenates_S50000x64_S50000x64_S50000x128_d1

/-- The column means: the column sums over the node count. -/
def meanA (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The centred array inside the variance function: the array less its column means, the means taken as a one-row array
    broadcast down the rows. -/
def centredA (x : FVec Ideal S50000x128 .f32) : FVec Ideal S50000x128 .f32 :=
  subf x (broadcastInDim S50000x128 ![0, 1] bcast_S1x128_S50000x128_0_1
    (Host.divf (broadcastInDim S1x128 ![1] bcast_S128_S1x128_1
        (Host.reduceAdd x (constant (F := Ideal) S_ .f32 0x00000000#32) reducesTo_S50000x128_S128_d0 h_S_))
      (broadcastInDim S1x128 ![] bcast_S_S1x128 (constant (F := Ideal) S_ .f32 0x47435000#32))))

/-- The variance function's divisor: the node count less the (zero) degrees-of-freedom correction. -/
def dofA : FVec Ideal S_ .f32 :=
  subf (constant (F := Ideal) S_ .f32 0x47435000#32) (sitofp .f32 (constantI S_ 32 0#32))

/-- The column variances: the column sums of the squared centred array over the divisor where the divisor is positive,
    the not-a-number literal elsewhere. -/
def varA (x : FVec Ideal S50000x128 .f32) : FVec Ideal S128 .f32 :=
  select (broadcastInDim S128 ![] bcast_S_S128 (cmpf .ogt dofA (constant (F := Ideal) S_ .f32 0x00000000#32)))
    (Host.divf (Host.reduceAdd (mulf (centredA x) (centredA x)) (constant (F := Ideal) S_ .f32 0x00000000#32) reducesTo_S50000x128_S128_d0 h_S_)
      (broadcastInDim S128 ![] bcast_S_S128 dofA))
    (broadcastInDim S128 ![] bcast_S_S128 (id (constant (F := Ideal) S_ .f32 0x7FC00000#32)))

/-- The rectified batch normalisation of an array of node rows. -/
def hA (x : FVec Ideal S50000x128 .f32) (gamma beta : FVec Ideal S128 .f32) : FVec Ideal S50000x128 .f32 :=
  maximumf
    (addf
      (mulf
        (mulf
          (subf x (broadcastInDim S50000x128 ![0, 1] bcast_S1x128_S50000x128_0_1 (broadcastInDim S1x128 ![1] bcast_S128_S1x128_1 (meanA x))))
          (broadcastInDim S50000x128 ![0, 1] bcast_S1x128_S50000x128_0_1 (broadcastInDim S1x128 ![1] bcast_S128_S1x128_1
            (Host.rsqrt (addf (varA x) (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 gamma)))
      (broadcastInDim S50000x128 ![0, 1] bcast_S1x128_S50000x128_0_1 (broadcastInDim S1x128 ![1] bcast_S128_S1x128_1 beta)))
    (broadcastInDim S50000x128 ![] bcast_S_S50000x128 (constant (F := Ideal) S_ .f32 0x00000000#32))

/-- The inverse square root of a node's degree along an index table, the degree clamped at one from below: the degree
    is the scatter-add of ones along the table into zeros. -/
def degNormA (tbl : IVec S600000 32) : FVec Ideal S50000 .f32 :=
  Host.rsqrt (maximumf
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 tbl)
      (broadcastInDim S600000 ![] bcast_S_S600000 (constant (F := Ideal) S_ .f32 0x3F800000#32)))
    (broadcastInDim S50000 ![] bcast_S_S50000 (constant (F := Ideal) S_ .f32 0x3F800000#32)))

/-- The out-degree normaliser (along the source table). -/
def noutR (src : IVec S600000 32) : FVec Ideal S50000 .f32 := degNormA src
/-- The in-degree normaliser (along the destination table). -/
def ninR (dst : IVec S600000 32) : FVec Ideal S50000 .f32 := degNormA dst

/-- The node features: the rectified batch normalisation of the two inputs side by side, times the weight matrix, each
    row times its out-degree normaliser. -/
def featR (x1 x2 : FVec Ideal S50000x64 .f32) (src : IVec S600000 32) (gamma beta : FVec Ideal S128 .f32)
    (W : FVec Ideal S128x64 .f32) : FVec Ideal S50000x64 .f32 :=
  mulf (Host.dotGeneral (F := Ideal) dot_S50000x128_S128x64_S50000x64_1_0_0_1_n_n none (hA (xcatA x1 x2) gamma beta) W)
    (broadcastInDim S50000x64 ![0, 1] bcast_S50000x1_S50000x64_0_1 (broadcastInDim S50000x1 ![0] bcast_S50000_S50000x1_0 (noutR src)))

/-- The source table with a negative entry wrapped by the node count, as a column of start indices. -/
def srcIdxA (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The aggregation: the features gathered along the source table, times the edge weight, scatter-added along the
    destination table into zeros. -/
def aggR (feat : FVec Ideal S50000x64 .f32) (src dst : IVec S600000 32) (ew : FVec Ideal S600000 .f32) : FVec Ideal S50000x64 .f32 :=
  Host.scatterAdd (F := Ideal) scatter_S50000x64_S600000x1_S600000x64_1_0_0_1
    (broadcastInDim S50000x64 ![] bcast_S_S50000x64 (constant (F := Ideal) S_ .f32 0x00000000#32))
    (broadcastInDim S600000x1 ![0] bcast_S600000_S600000x1_0 dst)
    (mulf (Host.gather gather_S50000x64_S600000x1_S600000x64_1_0_n_n_0_1_164 feat (srcIdxA src))
      (broadcastInDim S600000x64 ![0, 1] bcast_S600000x1_S600000x64_0_1 (broadcastInDim S600000x1 ![0] bcast_S600000_S600000x1_0 ew)))

/-- The result from the node features: the aggregation, each row times its in-degree normaliser, plus the bias. -/
def tailR (feat : FVec Ideal S50000x64 .f32) (src dst : IVec S600000 32) (ew : FVec Ideal S600000 .f32)
    (b : FVec Ideal S64 .f32) : FVec Ideal S50000x64 .f32 :=
  addf
    (mulf (aggR feat src dst ew)
      (broadcastInDim S50000x64 ![0, 1] bcast_S50000x1_S50000x64_0_1 (broadcastInDim S50000x1 ![0] bcast_S50000_S50000x1_0 (ninR dst))))
    (broadcastInDim S50000x64 ![0, 1] bcast_S1x64_S50000x64_0_1 (broadcastInDim S1x64 ![1] bcast_S64_S1x64_1 b))

/-! ## Broadcasts at an index -/

section Bcast
variable {α : Type}

/-- A column laid across the columns — [a] to [a, 1] to [a, b] — read at (r, j) is the column at r. -/
theorem bcast_col_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (y : (⟨1, ![a]⟩ : Shape).Idx → α) (r : Fin a) (j : Fin b) :
    broadcastInDim ⟨2, ![a, b]⟩ ![0, 1] h2 (broadcastInDim ⟨2, ![a, 1]⟩ ![0] h1 y) (ix2 r j) = y (ix1 r) := by
  refine (broadcastInDim_apply ![0, 1] h2 _ (ix2 r j) (ix2 r (0 : Fin 1)) ?_).trans
    (broadcastInDim_apply ![0] h1 y (ix2 r (0 : Fin 1)) (ix1 r) ?_)
  · intro c
    fin_cases c
    · show r.val = if a = 1 then 0 else r.val
      split_ifs with h
      · have := r.isLt; omega
      · rfl
    · show (0 : ℕ) = if (1 : ℕ) = 1 then 0 else _
      simp
  · intro c
    fin_cases c
    show r.val = if a = 1 then 0 else r.val
    split_ifs with h
    · have := r.isLt; omega
    · rfl

/-- A row laid down the rows — [b] to [1, b] to [a, b] — read at (r, j) is the row at j. -/
theorem bcast_row_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (y : (⟨1, ![b]⟩ : Shape).Idx → α) (r : Fin a) (j : Fin b) :
    broadcastInDim ⟨2, ![a, b]⟩ ![0, 1] h2 (broadcastInDim ⟨2, ![1, b]⟩ ![1] h1 y) (ix2 r j) = y (ix1 j) := by
  refine (broadcastInDim_oneRow_apply h2 _ r j).trans (broadcastInDim_apply ![1] h1 y (ix2 (0 : Fin 1) j) (ix1 j) ?_)
  intro c
  fin_cases c
  show j.val = if b = 1 then 0 else j.val
  split_ifs with h
  · have := j.isLt; omega
  · rfl

/-- A one-row array [1, b] made from a row [b], read at (0, j), is the row at j. -/
theorem bcast_toRow_apply {b : Nat} (h1 : (⟨1, ![b]⟩ : Shape).BroadcastsInDim ⟨2, ![1, b]⟩ ![1])
    (y : (⟨1, ![b]⟩ : Shape).Idx → α) (j : Fin b) :
    broadcastInDim ⟨2, ![1, b]⟩ ![1] h1 y (ix2 (0 : Fin 1) j) = y (ix1 j) := by
  refine broadcastInDim_apply ![1] h1 y (ix2 (0 : Fin 1) j) (ix1 j) ?_
  intro c
  fin_cases c
  show j.val = if b = 1 then 0 else j.val
  split_ifs with h
  · have := j.isLt; omega
  · rfl

end Bcast

/-! ## The result at an index -/

/-- The result at (r, j): the aggregation there, times row r's in-degree normaliser, plus the bias at j. -/
theorem tailR_apply (feat : FVec Ideal S50000x64 .f32) (src dst : IVec S600000 32) (ew : FVec Ideal S600000 .f32)
    (b : FVec Ideal S64 .f32) (r : Fin 50000) (j : Fin 64) :
    tailR feat src dst ew b (ix2 r j) = aggR feat src dst ew (ix2 r j) * ninR dst (ix1 r) + b (ix1 j) := by
  unfold tailR
  rw [addf_apply, mulf_apply, bcast_col_apply, bcast_row_apply]

/-! ## The node features at an index -/

/-- The node count's pattern is fifty thousand. -/
theorem ofBits_nodes : Ideal.ofBits .f32 0x47435000#32 = ((50000 : ℝ) : EReal) := by
  simp [Ideal.ofBits, Ideal.ieee, -EReal.coe_mul]; norm_num

/-- The column reduction's shape relation, with its inserted index. -/
theorem reduces_rows : S50000x128.Reduces [0] S128 := by decide

/-- The two inputs side by side at (r, k): the first at (r, k) for k below 64, the second at (r, k - 64) otherwise. -/
def xR (x1 x2 : FVec Ideal S50000x64 .f32) (r : Fin 50000) (k : Fin 128) : EReal :=
  if h : k.val < 64 then x1 (ix2 r (⟨k.val, h⟩ : Fin 64)) else x2 (ix2 r (⟨k.val - 64, by omega⟩ : Fin 64))

theorem xcatA_apply (x1 x2 : FVec Ideal S50000x64 .f32) (r : Fin 50000) (k : Fin 128) :
    xcatA x1 x2 (ix2 r k) = xR x1 x2 r k := by
  unfold xcatA xR
  split_ifs with h
  · refine concatenate_pair_apply_left _ x1 x2 _ (ix2 r k) rfl (ix2 r (⟨k.val, h⟩ : Fin 64)) ?_
    intro b
    fin_cases b <;> rfl
  · refine concatenate_pair_apply_right _ x1 x2 _ (ix2 r k) rfl rfl (ix2 r (⟨k.val - 64, by omega⟩ : Fin 64)) ?_ ?_
    · intro b hb
      fin_cases b
      · rfl
      · exact absurd rfl hb
    · show (k.val - 64) + 64 = k.val
      omega

/-- A column sum of a [50000, 128] array from the zero literal, at column k. -/
theorem colsum_apply (X : FVec Ideal S50000x128 .f32) (k : Fin 128) :
    Host.reduceAdd X (constant (F := Ideal) S_ .f32 0x00000000#32) reducesTo_S50000x128_S128_d0 h_S_ (ix1 k)
      = 0 + ∑ r : Fin 50000, X (ix2 r k) := by
  refine (hostReduceAdd_apply X _ _ _ (ix1 k)).trans ?_
  refine (Ideal.hostReduceAdd_single reducesTo_S50000x128_S128_d0 reduces_rows X _ (ix1 k)).trans ?_
  refine congrArg₂ (· + ·) Ideal.ofBits_zero_f32 (Finset.sum_congr rfl fun r _ => congrArg X ?_)
  funext c
  fin_cases c <;> rfl

/-- The column mean at k: the column sum over the node count. -/
theorem meanA_apply (X : FVec Ideal S50000x128 .f32) (k : Fin 128) :
    meanA X (ix1 k) = Ideal.div (0 + ∑ r : Fin 50000, X (ix2 r k)) (Ideal.ofBits .f32 0x47435000#32) := by
  unfold meanA
  rw [hostDivf_apply, colsum_apply, broadcastInDim_scalar_apply]
  rfl

/-- The centred array at (r, k): the entry less its column's mean. -/
theorem centredA_apply (X : FVec Ideal S50000x128 .f32) (r : Fin 50000) (k : Fin 128) :
    centredA X (ix2 r k)
      = X (ix2 r k) - Ideal.div (0 + ∑ r' : Fin 50000, X (ix2 r' k)) (Ideal.ofBits .f32 0x47435000#32) := by
  unfold centredA
  rw [subf_apply, broadcastInDim_oneRow_apply, hostDivf_apply, bcast_toRow_apply, colsum_apply, broadcastInDim_scalar_apply]
  rfl

/-- The variance's divisor is the node count less the word zero read as a float. -/
theorem dofA_apply :
    dofA ix0 = Ideal.ofBits .f32 0x47435000#32 - FloatOps.sitofp (F := Ideal) .f32 (0#32 : BitVec 32) := rfl

/-- It is fifty thousand. -/
theorem dofA_eq : dofA ix0 = ((50000 : ℝ) : EReal) := by
  show Ideal.ofBits .f32 0x47435000#32 - (((0#32 : BitVec 32).toInt : ℝ) : EReal) = _
  rw [ofBits_nodes]
  simp

/-- So the variance function's comparison of it with zero holds. -/
theorem dofA_pos : FloatOps.cmpf (F := Ideal) .ogt (dofA ix0) (Ideal.ofBits .f32 0x00000000#32) = 1#1 := by
  rw [Ideal.cmpf_def, dofA_eq, Ideal.ofBits_zero_f32]
  have h : (0 : EReal) < ((50000 : ℝ) : EReal) := by exact_mod_cast (by norm_num : (0 : ℝ) < 50000)
  simp [Ideal.cmp, h]

/-- The column variance at k: the column sum of the squared centred entries over the divisor (the comparison holds, so
    the select returns the quotient, not the not-a-number literal). -/
theorem varA_apply (X : FVec Ideal S50000x128 .f32) (k : Fin 128) :
    varA X (ix1 k) = Ideal.div (0 + ∑ r : Fin 50000, centredA X (ix2 r k) * centredA X (ix2 r k)) (dofA ix0) := by
  unfold varA
  rw [select_apply, broadcastInDim_scalar_apply, cmpf_apply]
  rw [show (constant (F := Ideal) S_ .f32 0x00000000#32 ix0) = Ideal.ofBits .f32 0x00000000#32 from rfl, dofA_pos, select_one,
    hostDivf_apply, colsum_apply, broadcastInDim_scalar_apply]
  rfl

/-- The rectified batch normalisation at (r, k). -/
theorem hA_apply (X : FVec Ideal S50000x128 .f32) (gamma beta : FVec Ideal S128 .f32) (r : Fin 50000) (k : Fin 128) :
    hA X gamma beta (ix2 r k)
      = max ((X (ix2 r k) - meanA X (ix1 k)) * Ideal.rsqrt (varA X (ix1 k) + Ideal.ofBits .f32 0x3727C5AC#32) * gamma (ix1 k)
          + beta (ix1 k)) 0 := by
  unfold hA
  rw [maximumf_apply, addf_apply, mulf_apply, mulf_apply, subf_apply, bcast_row_apply, bcast_row_apply, bcast_row_apply,
    bcast_row_apply, broadcastInDim_scalar_apply]
  show max (_ * Ideal.rsqrt (varA X (ix1 k) + broadcastInDim S128 ![] bcast_S_S128 (constant (F := Ideal) S_ .f32 0x3727C5AC#32) (ix1 k)) * _ + _)
    (Ideal.ofBits .f32 0x00000000#32) = _
  rw [broadcastInDim_scalar_apply, Ideal.ofBits_zero_f32]
  rfl

/-! ### The same over the two inputs, entry by entry -/

/-- The mean of column k of the two inputs side by side. -/
def meanR (x1 x2 : FVec Ideal S50000x64 .f32) (k : Fin 128) : EReal :=
  Ideal.div (0 + ∑ r : Fin 50000, xR x1 x2 r k) (Ideal.ofBits .f32 0x47435000#32)

/-- The variance of column k: the sum of the squared deviations from the mean over the node count less the word zero
    read as a float. -/
def varR (x1 x2 : FVec Ideal S50000x64 .f32) (k : Fin 128) : EReal :=
  Ideal.div (0 + ∑ r : Fin 50000, (xR x1 x2 r k - meanR x1 x2 k) * (xR x1 x2 r k - meanR x1 x2 k))
    (Ideal.ofBits .f32 0x47435000#32 - FloatOps.sitofp (F := Ideal) .f32 (0#32 : BitVec 32))

/-- The rectified batch normalisation at (r, k). -/
def hR (x1 x2 : FVec Ideal S50000x64 .f32) (gamma beta : FVec Ideal S128 .f32) (r : Fin 50000) (k : Fin 128) : EReal :=
  max ((xR x1 x2 r k - meanR x1 x2 k) * Ideal.rsqrt (varR x1 x2 k + Ideal.ofBits .f32 0x3727C5AC#32) * gamma (ix1 k)
    + beta (ix1 k)) 0

theorem meanA_xcat (x1 x2 : FVec Ideal S50000x64 .f32) (k : Fin 128) :
    meanA (xcatA x1 x2) (ix1 k) = meanR x1 x2 k := by
  rw [meanA_apply]
  unfold meanR
  simp only [xcatA_apply]

theorem centredA_xcat (x1 x2 : FVec Ideal S50000x64 .f32) (r : Fin 50000) (k : Fin 128) :
    centredA (xcatA x1 x2) (ix2 r k) = xR x1 x2 r k - meanR x1 x2 k := by
  rw [centredA_apply]
  unfold meanR
  simp only [xcatA_apply]

theorem varA_xcat (x1 x2 : FVec Ideal S50000x64 .f32) (k : Fin 128) :
    varA (xcatA x1 x2) (ix1 k) = varR x1 x2 k := by
  rw [varA_apply, dofA_apply]
  unfold varR
  simp only [centredA_xcat]

theorem hA_xcat (x1 x2 : FVec Ideal S50000x64 .f32) (gamma beta : FVec Ideal S128 .f32) (r : Fin 50000) (k : Fin 128) :
    hA (xcatA x1 x2) gamma beta (ix2 r k) = hR x1 x2 gamma beta r k := by
  rw [hA_apply, meanA_xcat, varA_xcat, xcatA_apply]
  rfl

/-! ### The product with the weight matrix -/

/-- The dot's left operand index at output (r, j) and contraction coordinate k is (r, k). -/
theorem dot_lhsIdx (r : Fin 50000) (j : Fin 64) (k : Fin 128) :
    dot_S50000x128_S128x64_S50000x64_1_0_0_1_n_n.lhsIdx (ix2 r j)
        ((contrEquiv1 dot_S50000x128_S128x64_S50000x64_1_0_0_1_n_n 128 rfl rfl).symm k) = ix2 r k := by
  funext a
  fin_cases a
  · exact Fin.ext rfl
  · refine Fin.ext ?_
    exact (DotDims.lhsIdx_val_of_single dot_S50000x128_S128x64_S50000x64_1_0_0_1_n_n (cl := (1 : Fin 2)) rfl _ _).trans
      (contrEquiv1_symm_val dot_S50000x128_S128x64_S50000x64_1_0_0_1_n_n 128 rfl rfl k)

/-- The dot's right operand index at output (r, j) and contraction coordinate k is (k, j). -/
theorem dot_rhsIdx (r : Fin 50000) (j : Fin 64) (k : Fin 128) :
    dot_S50000x128_S128x64_S50000x64_1_0_0_1_n_n.rhsIdx (ix2 r j)
        ((contrEquiv1 dot_S50000x128_S128x64_S50000x64_1_0_0_1_n_n 128 rfl rfl).symm k) = ix2 k j := by
  funext a
  fin_cases a
  · refine Fin.ext ?_
    exact (DotDims.rhsIdx_val_of_single dot_S50000x128_S128x64_S50000x64_1_0_0_1_n_n (cr := (0 : Fin 2)) rfl _ _).trans
      (contrEquiv1_symm_val dot_S50000x128_S128x64_S50000x64_1_0_0_1_n_n 128 rfl rfl k)
  · exact Fin.ext rfl

/-- The product of a [50000, 128] array with the weight matrix at (r, j): the sum over the 128 columns. -/
theorem dot_apply (H : FVec Ideal S50000x128 .f32) (W : FVec Ideal S128x64 .f32) (r : Fin 50000) (j : Fin 64) :
    Host.dotGeneral (F := Ideal) dot_S50000x128_S128x64_S50000x64_1_0_0_1_n_n none H W (ix2 r j)
      = ∑ k : Fin 128, H (ix2 r k) * W (ix2 k j) := by
  simp only [Host.dotGeneral]
  refine (Ideal.dotGeneral_apply _ _ _ H W (ix2 r j)).trans ?_
  refine (Equiv.sum_comp (contrEquiv1 dot_S50000x128_S128x64_S50000x64_1_0_0_1_n_n 128 rfl rfl).symm _).symm.trans ?_
  refine Finset.sum_congr rfl fun k _ => ?_
  rw [dot_lhsIdx, dot_rhsIdx]

/-- The node features at (r, j): the rectified batch normalisation of row r against column j of the weight matrix,
    times row r's out-degree normaliser. -/
theorem featR_apply (x1 x2 : FVec Ideal S50000x64 .f32) (src : IVec S600000 32) (gamma beta : FVec Ideal S128 .f32)
    (W : FVec Ideal S128x64 .f32) (r : Fin 50000) (j : Fin 64) :
    featR x1 x2 src gamma beta W (ix2 r j)
      = (∑ k : Fin 128, hR x1 x2 gamma beta r k * W (ix2 k j)) * noutR src (ix1 r) := by
  unfold featR
  rw [mulf_apply, bcast_col_apply, dot_apply]
  simp only [hA_xcat]

/-- The equation lemmas of this module's definitions, stated here once so that every module unfolding one of them
    refers to the same declaration. -/
theorem defs_equations_realized : True := by
  have := @xcatA.eq_1; have := @xcatA.eq_def
  have := @meanA.eq_1; have := @meanA.eq_def
  have := @centredA.eq_1; have := @centredA.eq_def
  have := @dofA.eq_1; have := @dofA.eq_def
  have := @varA.eq_1; have := @varA.eq_def
  have := @hA.eq_1; have := @hA.eq_def
  have := @degNormA.eq_1; have := @degNormA.eq_def
  have := @noutR.eq_1; have := @noutR.eq_def
  have := @ninR.eq_1; have := @ninR.eq_def
  have := @featR.eq_1; have := @featR.eq_def
  have := @srcIdxA.eq_1; have := @srcIdxA.eq_def
  have := @aggR.eq_1; have := @aggR.eq_def
  have := @tailR.eq_1; have := @tailR.eq_def
  have := @xR.eq_1; have := @xR.eq_def
  have := @meanR.eq_1; have := @meanR.eq_def
  have := @varR.eq_1; have := @varR.eq_def
  have := @hR.eq_1; have := @hR.eq_def
  trivial

/-! ## The fold at the result buffer -/

attribute [local irreducible] Host.reduceAdd Host.gather Host.scatterAdd concatenate broadcastInDim in
set_option maxRecDepth 16384 in
set_option maxHeartbeats 4000000 in
/-- The fold of the operations at the result buffer is that composed term of the contents at the argument buffers:
    each operation's result at its own buffer is its function's value, at any other buffer what was there, and the
    typed references' transports are the identity at these literal references. -/
theorem out_eq (V : Valuation τ sig (Elt Ideal)) :
    after ops V (Proc.devRef .tc main_v56)
      = tailR (featR (V (Proc.devRef .tc main_arg0)) (V (Proc.devRef .tc main_arg1)) (V (Proc.devRef .tc main_arg2))
                (V (Proc.devRef .tc main_arg5)) (V (Proc.devRef .tc main_arg6)) (V (Proc.devRef .tc main_arg7)))
          (V (Proc.devRef .tc main_arg2)) (V (Proc.devRef .tc main_arg3)) (V (Proc.devRef .tc main_arg4)) (V (Proc.devRef .tc main_arg8)) := by
  after_results_simp
  rfl

/-- The same over a launch memory. -/
theorem result_eq (m : (ℓ : Loc nD τ sig) → Buf (Elt Ideal) ℓ) (c : Dev nD) :
    StableHlo.after ops (fun b => m (c, b)) (Proc.devRef .tc main_v56)
      = tailR (featR (m ((c.tc : Thread nD τ).loc main_arg0)) (m ((c.tc : Thread nD τ).loc main_arg1)) (m ((c.tc : Thread nD τ).loc main_arg2))
                (m ((c.tc : Thread nD τ).loc main_arg5)) (m ((c.tc : Thread nD τ).loc main_arg6)) (m ((c.tc : Thread nD τ).loc main_arg7)))
          (m ((c.tc : Thread nD τ).loc main_arg2)) (m ((c.tc : Thread nD τ).loc main_arg3)) (m ((c.tc : Thread nD τ).loc main_arg4))
          (m ((c.tc : Thread nD τ).loc main_arg8)) :=
  out_eq (fun b => m (c, b))

/-- The run, with the result read as that composed term: every weakly fair execution of @main terminates with the result
    buffer at `tailR (featR …) …` of the launch contents of the arguments, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v56)
        = tailR (featR (m ((c.tc : Thread nD τ).loc main_arg0)) (m ((c.tc : Thread nD τ).loc main_arg1)) (m ((c.tc : Thread nD τ).loc main_arg2))
                  (m ((c.tc : Thread nD τ).loc main_arg5)) (m ((c.tc : Thread nD τ).loc main_arg6)) (m ((c.tc : Thread nD τ).loc main_arg7)))
            (m ((c.tc : Thread nD τ).loc main_arg2)) (m ((c.tc : Thread nD τ).loc main_arg3)) (m ((c.tc : Thread nD τ).loc main_arg4))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m c), (h c).2⟩) (run m ρ)

end Cert.ReferenceIdeal.Hand

end
-- ==== Proof.FiniteIn.lean ====
/-
  Finiteness of the two node-feature arrays out of the precondition. The precondition says that, for each
  float argument `x`, `|x| < +∞` holds at every element (an `and`-reduction over all axes of the
  elementwise comparison, the seven reductions `and`-ed together) and that the result is `1`. Read back:
  every element of the first two arguments is an extended real other than `⊤` and `⊥`.
-/
import proofs.«159496_j27066883899809_1_alg».proof.Defs
import proofs.«159496_j27066883899809_1_alg».proof.Proof.Gen.Pre_finite_inputs
import Idealize.ShloMosaic.Lib.ReduceAll
import Idealize.ShloMosaic.Lib.ValueIdx
import Idealize.ShloMosaic.PureOps.Ideal.Laws

noncomputable section

namespace Cert.FiniteIn

open Idealize.ShloMosaic Idealize.SL.Sem

/-- The shape of rank `0` has exactly one index. -/
instance subsingleton_scalar_idx : Subsingleton Cert.Pre_finite_inputs.S_.Idx :=
  ⟨fun _ _ => funext fun d => d.elim0⟩

/-- The binary32 pattern `0x7F800000` (exponent all ones, significand zero, sign `+`) denotes `+∞`. -/
theorem ofBits_inf : Ideal.ofBits .f32 0x7F800000#32 = ⊤ := by
  simp [Ideal.ofBits, Ideal.ieee]

/-- An extended real whose absolute value `max x (-x)` lies strictly below `+∞` is neither infinity. -/
theorem finite_of_abs_lt_top (x : EReal) (h : max x (-x) < ⊤) : x ≠ ⊤ ∧ x ≠ ⊥ := by
  constructor
  · rintro rfl
    simp at h
  · rintro rfl
    simp at h

/-- The element test of the precondition: if the comparison `|x| < +∞`, with `+∞` spelled by its
    binary32 pattern, answers `1`, then `x` is neither infinity. -/
theorem finite_of_cmp (x : EReal)
    (h : FloatOps.cmpf (F := Ideal) (φ := .f32) .olt (FloatOps.hostAbsf x) (FloatOps.ofBits .f32 0x7F800000#32) = 1#1) :
    x ≠ ⊤ ∧ x ≠ ⊥ := by
  rw [Ideal.cmpf_def, Ideal.hostAbsf_def, Ideal.absf_def, Ideal.ofBits_def, ofBits_inf] at h
  refine finite_of_abs_lt_top x ?_
  by_contra hlt
  simp [Ideal.cmp, hlt] at h

/-- One `jnp.all(|a| < +∞)` of the precondition, read back at an element: if the `and`-reduction over all
    axes of the elementwise comparison is `1`, every element of `a` is neither infinity. -/
theorem all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1)
    (i : s.Idx) : a i ≠ ⊤ ∧ a i ≠ ⊥ :=
  finite_of_cmp (a i) (Host.reduce_andi_all _ _ hr hu ValueIdx.ix0 e i)

/-- The precondition, read back: if the predicate of the nine arguments is `1`, every element of the first
    and of the second argument is neither infinity. -/
theorem fn_finite [hF : Cert.Pre_finite_inputs.Facts]
    (a0 a1 : FVec Ideal Cert.Pre_finite_inputs.S50000x64 .f32)
    (a2 a3 : IVec Cert.Pre_finite_inputs.S600000 32) (a4 : FVec Ideal Cert.Pre_finite_inputs.S600000 .f32)
    (a5 a6 : FVec Ideal Cert.Pre_finite_inputs.S128 .f32) (a7 : FVec Ideal Cert.Pre_finite_inputs.S128x64 .f32)
    (a8 : FVec Ideal Cert.Pre_finite_inputs.S64 .f32)
    (h : Cert.Pre_finite_inputs.fn (F := Ideal) a0 a1 a2 a3 a4 a5 a6 a7 a8 = fun _ => 1#1) :
    (∀ i, a0 i ≠ ⊤ ∧ a0 i ≠ ⊥) ∧ (∀ i, a1 i ≠ ⊤ ∧ a1 i ≠ ⊥) := by
  have h0 := congrFun h ValueIdx.ix0
  dsimp only [Cert.Pre_finite_inputs.fn, Cert.Pre_finite_inputs.fn_part1, andi] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  exact ⟨fun i => all_finite a0 _ _ _ h3 i, fun i => all_finite a1 _ _ _ h7 i⟩

/-- Under the precondition every element of the first argument array is neither infinity, on every device. -/
theorem x1_finite [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x64.Idx) :
    @Ne EReal (m ((c.tc : Thread Cert.KernelIdeal.nD Cert.KernelIdeal.τ).loc Cert.KernelIdeal.main_arg0) i) ⊤
      ∧ @Ne EReal (m ((c.tc : Thread Cert.KernelIdeal.nD Cert.KernelIdeal.τ).loc Cert.KernelIdeal.main_arg0) i) ⊥ :=
  (fn_finite _ _ _ _ _ _ _ _ _ (h c)).1 i

/-- Under the precondition every element of the second argument array is neither infinity, on every device. -/
theorem x2_finite [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x64.Idx) :
    @Ne EReal (m ((c.tc : Thread Cert.KernelIdeal.nD Cert.KernelIdeal.τ).loc Cert.KernelIdeal.main_arg1) i) ⊤
      ∧ @Ne EReal (m ((c.tc : Thread Cert.KernelIdeal.nD Cert.KernelIdeal.τ).loc Cert.KernelIdeal.main_arg1) i) ⊥ :=
  (fn_finite _ _ _ _ _ _ _ _ _ (h c)).2 i

end Cert.FiniteIn

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KI.HostVal.lean ====
/- The two stretches of host operations of the kernel's program, read at an index: the batch statistics from the four
   column sums, the halves of the scale, shift and weight arguments, the degree factors, and the aggregate. -/
import proofs.«159496_j27066883899809_1_alg».proof.Proof.Gen.KernelIdeal.Launch
import proofs.«159496_j27066883899809_1_alg».proof.Proof.LibLayout
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

noncomputable section

namespace Cert.KernelIdeal.HostVal

open Idealize.ShloMosaic Idealize.ShloMosaic.TcCoe Idealize.SL.Sem Idealize.ShloMosaic.ValueIdx
open Cert.KernelIdeal Cert.KernelIdeal.Gen Cert.LibLayout

variable (W : Valuation τ sig (Elt Ideal))

/-- The number of rows, as the programs' literal. -/
abbrev nRows : EReal := Ideal.ofBits .f32 0x47435000#32
/-- The batch-norm epsilon, as the programs' literal. -/
abbrev epsBN : EReal := Ideal.ofBits .f32 0x3727C5AC#32

/-- A literal spread over any shape reads the literal everywhere. -/
theorem bcastConst_apply {t : Shape} (h : (⟨0, ![]⟩ : Shape).BroadcastsInDim t (![] : Fin 0 → Fin t.rank)) (w : BitVec 32) (j : t.Idx) :
    broadcastInDim t ![] h (constant (F := Ideal) S_ .f32 w) j = Ideal.ofBits .f32 w := by
  rw [broadcastInDim_scalar_apply]; rfl

/-- The degree factor of a list of endpoints: the reciprocal square root of the number of edges at each node, at least one.
    (The scatter-add is kept whole: both programs apply the same one to the same operands.) -/
def degFactor (e : S600000.Idx → BitVec 32) : S50000.Idx → EReal :=
  (Host.rsqrt (F := Ideal)
          (maximumf
            (Host.scatterAdd (F := Ideal) scatter_S50000_S600000x1_S600000_n_0_0_1
              (broadcastInDim S50000 ![] bcast_S_S50000 (constant (F := Ideal) S_ .f32 0x00000000#32))
              (broadcastInDim S600000x1 ![0] bcast_S600000_S600000x1_0 e)
              (broadcastInDim S600000 ![] bcast_S_S600000 (constant (F := Ideal) S_ .f32 0x3F800000#32)))
            (broadcastInDim S50000 ![] bcast_S_S50000 (constant (F := Ideal) S_ .f32 0x3F800000#32))))

/-- The aggregate: rows of `feat` gathered at the (wrapped) sources, times the edge weights, scatter-added at the destinations.
    (Gather and scatter-add are kept whole: both programs apply the same ones to the same operands.) -/
def aggregate (feat : S50000x64.Idx → EReal) (src dst : S600000.Idx → BitVec 32) (ew : S600000.Idx → EReal) : S50000x64.Idx → EReal :=
  Host.scatterAdd (F := Ideal) scatter_S50000x64_S600000x1_S600000x64_1_0_0_1
      (broadcastInDim S50000x64 ![] bcast_S_S50000x64 (constant (F := Ideal) S_ .f32 0x00000000#32))
      (broadcastInDim S600000x1 ![0] bcast_S600000_S600000x1_0 dst)
      (mulf
        (Host.gather gather_S50000x64_S600000x1_S600000x64_1_0_n_n_0_1_164 feat
          (broadcastInDim S600000x1 ![0] bcast_S600000_S600000x1_0
            (select
              (cmpi CmpIPredicate.slt src
                (broadcastInDim S600000 ![] bcast_S_S600000 (constantI S_ 32 0#32)))
              (addi src
                (broadcastInDim S600000 ![] bcast_S_S600000 (constantI S_ 32 50000#32)))
              src)))
        (broadcastInDim S600000x64 ![0, 1] bcast_S600000x1_S600000x64_0_1
          (broadcastInDim S600000x1 ![0] bcast_S600000_S600000x1_0 ew)))

/-! ## The first stretch -/

set_option maxHeartbeats 2000000 in
/-- The mean of the first half's column `k`: its column sum over the number of rows. -/
theorem mean1_apply (k : Fin 64) :
    ((StableHlo.after (hostOps1 (F := Ideal)) W (Proc.devRef .tc main_v2)) : S1x64.Idx → EReal) (ix2 (0 : Fin 1) k)
      = Ideal.div (((W (Proc.devRef .tc main_v0_0) : S1x64.Idx → EReal)) (ix2 (0 : Fin 1) k)) nRows := by
  have e : (StableHlo.after (hostOps1 (F := Ideal)) W (Proc.devRef .tc main_v2))
      = Host.divf (F := Ideal) (W (Proc.devRef .tc main_v0_0)) (broadcastInDim S1x64 ![] bcast_S_S1x64 (constant (F := Ideal) S_ .f32 0x47435000#32)) := by
    after_results_simp
    try rfl
  rw [e]
  simp only [Host.divf, Ideal.hostDivf_def]
  rw [bcastConst_apply]

set_option maxHeartbeats 2000000 in
theorem mean2_apply (k : Fin 64) :
    ((StableHlo.after (hostOps1 (F := Ideal)) W (Proc.devRef .tc main_v11)) : S1x64.Idx → EReal) (ix2 (0 : Fin 1) k)
      = Ideal.div (((W (Proc.devRef .tc main_v0_2) : S1x64.Idx → EReal)) (ix2 (0 : Fin 1) k)) nRows := by
  have e : (StableHlo.after (hostOps1 (F := Ideal)) W (Proc.devRef .tc main_v11))
      = Host.divf (F := Ideal) (W (Proc.devRef .tc main_v0_2)) (broadcastInDim S1x64 ![] bcast_S_S1x64 (constant (F := Ideal) S_ .f32 0x47435000#32)) := by
    after_results_simp
    try rfl
  rw [e]
  simp only [Host.divf, Ideal.hostDivf_def]
  rw [bcastConst_apply]

set_option maxHeartbeats 2000000 in
/-- The first half's scale of column `k`: the reciprocal square root of the mean of squares less the squared mean, plus epsilon. -/
theorem inv1_apply (k : Fin 64) :
    ((StableHlo.after (hostOps1 (F := Ideal)) W (Proc.devRef .tc main_v9)) : S1x64.Idx → EReal) (ix2 (0 : Fin 1) k)
      = Ideal.rsqrt ((Ideal.div (((W (Proc.devRef .tc main_v0_1) : S1x64.Idx → EReal)) (ix2 (0 : Fin 1) k)) nRows
          - Ideal.div (((W (Proc.devRef .tc main_v0_0) : S1x64.Idx → EReal)) (ix2 (0 : Fin 1) k)) nRows * Ideal.div (((W (Proc.devRef .tc main_v0_0) : S1x64.Idx → EReal)) (ix2 (0 : Fin 1) k)) nRows) + epsBN) := by
  have e : (StableHlo.after (hostOps1 (F := Ideal)) W (Proc.devRef .tc main_v9))
      = Host.rsqrt (F := Ideal) (addf (subf (Host.divf (W (Proc.devRef .tc main_v0_1)) (broadcastInDim S1x64 ![] bcast_S_S1x64 (constant (F := Ideal) S_ .f32 0x47435000#32)))
          (mulf (Host.divf (W (Proc.devRef .tc main_v0_0)) (broadcastInDim S1x64 ![] bcast_S_S1x64 (constant (F := Ideal) S_ .f32 0x47435000#32))) (Host.divf (W (Proc.devRef .tc main_v0_0)) (broadcastInDim S1x64 ![] bcast_S_S1x64 (constant (F := Ideal) S_ .f32 0x47435000#32))))) (broadcastInDim S1x64 ![] bcast_S_S1x64 (constant (F := Ideal) S_ .f32 0x3727C5AC#32))) := by
    after_results_simp
    try rfl
  rw [e]
  simp only [Host.rsqrt, Host.divf, addf, subf, mulf, Ideal.hostDivf_def, Ideal.hostUnary_rsqrt_def, Ideal.addf_def, Ideal.subf_def, Ideal.mulf_def]
  rw [bcastConst_apply, bcastConst_apply]

set_option maxHeartbeats 2000000 in
theorem inv2_apply (k : Fin 64) :
    ((StableHlo.after (hostOps1 (F := Ideal)) W (Proc.devRef .tc main_v18)) : S1x64.Idx → EReal) (ix2 (0 : Fin 1) k)
      = Ideal.rsqrt ((Ideal.div (((W (Proc.devRef .tc main_v0_3) : S1x64.Idx → EReal)) (ix2 (0 : Fin 1) k)) nRows
          - Ideal.div (((W (Proc.devRef .tc main_v0_2) : S1x64.Idx → EReal)) (ix2 (0 : Fin 1) k)) nRows * Ideal.div (((W (Proc.devRef .tc main_v0_2) : S1x64.Idx → EReal)) (ix2 (0 : Fin 1) k)) nRows) + epsBN) := by
  have e : (StableHlo.after (hostOps1 (F := Ideal)) W (Proc.devRef .tc main_v18))
      = Host.rsqrt (F := Ideal) (addf (subf (Host.divf (W (Proc.devRef .tc main_v0_3)) (broadcastInDim S1x64 ![] bcast_S_S1x64 (constant (F := Ideal) S_ .f32 0x47435000#32)))
          (mulf (Host.divf (W (Proc.devRef .tc main_v0_2)) (broadcastInDim S1x64 ![] bcast_S_S1x64 (constant (F := Ideal) S_ .f32 0x47435000#32))) (Host.divf (W (Proc.devRef .tc main_v0_2)) (broadcastInDim S1x64 ![] bcast_S_S1x64 (constant (F := Ideal) S_ .f32 0x47435000#32))))) (broadcastInDim S1x64 ![] bcast_S_S1x64 (constant (F := Ideal) S_ .f32 0x3727C5AC#32))) := by
    after_results_simp
    try rfl
  rw [e]
  simp only [Host.rsqrt, Host.divf, addf, subf, mulf, Ideal.hostDivf_def, Ideal.hostUnary_rsqrt_def, Ideal.addf_def, Ideal.subf_def, Ideal.mulf_def]
  rw [bcastConst_apply, bcastConst_apply]

set_option maxHeartbeats 2000000 in
/-- A half of the scale / shift argument, as a one-row matrix, reads the argument at the half's offset. -/
theorem gamma1_apply (k : Fin 64) (k' : Fin 128) (hk : k'.val = k.val) :
    ((StableHlo.after (hostOps1 (F := Ideal)) W (Proc.devRef .tc main_v20)) : S1x64.Idx → EReal) (ix2 (0 : Fin 1) k) = ((W (Proc.devRef .tc main_arg5) : S128.Idx → EReal)) (ix1 k') := by
  have e : (StableHlo.after (hostOps1 (F := Ideal)) W (Proc.devRef .tc main_v20))
      = fun i => shapeCast S1x64 (extractStridedSlice S64 ![0] (W (Proc.devRef .tc main_arg5)) slices_S128_S64_0) shapeCasts_S64_S1x64 i := by
    after_results_simp
    try rfl
  rw [e]
  show shapeCast S1x64 _ shapeCasts_S64_S1x64 (ix2 (0 : Fin 1) k) = _
  rw [shapeCast_a_1a_apply]
  exact extractStridedSlice_apply _ _ _ _ _ (fun ax => by
    match ax with
    | ⟨0, _⟩ => show k'.val = 0 + k.val; omega)

set_option maxHeartbeats 2000000 in
/-- A half of the scale / shift argument, as a one-row matrix, reads the argument at the half's offset. -/
theorem gamma2_apply (k : Fin 64) (k' : Fin 128) (hk : k'.val = 64 + k.val) :
    ((StableHlo.after (hostOps1 (F := Ideal)) W (Proc.devRef .tc main_v22)) : S1x64.Idx → EReal) (ix2 (0 : Fin 1) k) = ((W (Proc.devRef .tc main_arg5) : S128.Idx → EReal)) (ix1 k') := by
  have e : (StableHlo.after (hostOps1 (F := Ideal)) W (Proc.devRef .tc main_v22))
      = fun i => shapeCast S1x64 (extractStridedSlice S64 ![64] (W (Proc.devRef .tc main_arg5)) slices_S128_S64_64) shapeCasts_S64_S1x64 i := by
    after_results_simp
    try rfl
  rw [e]
  show shapeCast S1x64 _ shapeCasts_S64_S1x64 (ix2 (0 : Fin 1) k) = _
  rw [shapeCast_a_1a_apply]
  exact extractStridedSlice_apply _ _ _ _ _ (fun ax => by
    match ax with
    | ⟨0, _⟩ => show k'.val = 64 + k.val; omega)

set_option maxHeartbeats 2000000 in
/-- A half of the scale / shift argument, as a one-row matrix, reads the argument at the half's offset. -/
theorem beta1_apply (k : Fin 64) (k' : Fin 128) (hk : k'.val = k.val) :
    ((StableHlo.after (hostOps1 (F := Ideal)) W (Proc.devRef .tc main_v24)) : S1x64.Idx → EReal) (ix2 (0 : Fin 1) k) = ((W (Proc.devRef .tc main_arg6) : S128.Idx → EReal)) (ix1 k') := by
  have e : (StableHlo.after (hostOps1 (F := Ideal)) W (Proc.devRef .tc main_v24))
      = fun i => shapeCast S1x64 (extractStridedSlice S64 ![0] (W (Proc.devRef .tc main_arg6)) slices_S128_S64_0) shapeCasts_S64_S1x64 i := by
    after_results_simp
    try rfl
  rw [e]
  show shapeCast S1x64 _ shapeCasts_S64_S1x64 (ix2 (0 : Fin 1) k) = _
  rw [shapeCast_a_1a_apply]
  exact extractStridedSlice_apply _ _ _ _ _ (fun ax => by
    match ax with
    | ⟨0, _⟩ => show k'.val = 0 + k.val; omega)

set_option maxHeartbeats 2000000 in
/-- A half of the scale / shift argument, as a one-row matrix, reads the argument at the half's offset. -/
theorem beta2_apply (k : Fin 64) (k' : Fin 128) (hk : k'.val = 64 + k.val) :
    ((StableHlo.after (hostOps1 (F := Ideal)) W (Proc.devRef .tc main_v26)) : S1x64.Idx → EReal) (ix2 (0 : Fin 1) k) = ((W (Proc.devRef .tc main_arg6) : S128.Idx → EReal)) (ix1 k') := by
  have e : (StableHlo.after (hostOps1 (F := Ideal)) W (Proc.devRef .tc main_v26))
      = fun i => shapeCast S1x64 (extractStridedSlice S64 ![64] (W (Proc.devRef .tc main_arg6)) slices_S128_S64_64) shapeCasts_S64_S1x64 i := by
    after_results_simp
    try rfl
  rw [e]
  show shapeCast S1x64 _ shapeCasts_S64_S1x64 (ix2 (0 : Fin 1) k) = _
  rw [shapeCast_a_1a_apply]
  exact extractStridedSlice_apply _ _ _ _ _ (fun ax => by
    match ax with
    | ⟨0, _⟩ => show k'.val = 64 + k.val; omega)

set_option maxHeartbeats 2000000 in
/-- A half of the weight matrix reads the matrix at the half's row offset. -/
theorem w1_apply (k j : Fin 64) (k' : Fin 128) (hk : k'.val = k.val) :
    ((StableHlo.after (hostOps1 (F := Ideal)) W (Proc.devRef .tc main_v27)) : S64x64.Idx → EReal) (ix2 k j) = ((W (Proc.devRef .tc main_arg7) : S128x64.Idx → EReal)) (ix2 k' j) := by
  have e : (StableHlo.after (hostOps1 (F := Ideal)) W (Proc.devRef .tc main_v27))
      = extractStridedSlice S64x64 ![0, 0] (W (Proc.devRef .tc main_arg7)) slices_S128x64_S64x64_0_0 := by
    after_results_simp
    try rfl
  rw [e]
  exact slice2_axis0_apply 0 _ _ k j k' (by omega)

set_option maxHeartbeats 2000000 in
/-- A half of the weight matrix reads the matrix at the half's row offset. -/
theorem w2_apply (k j : Fin 64) (k' : Fin 128) (hk : k'.val = 64 + k.val) :
    ((StableHlo.after (hostOps1 (F := Ideal)) W (Proc.devRef .tc main_v28)) : S64x64.Idx → EReal) (ix2 k j) = ((W (Proc.devRef .tc main_arg7) : S128x64.Idx → EReal)) (ix2 k' j) := by
  have e : (StableHlo.after (hostOps1 (F := Ideal)) W (Proc.devRef .tc main_v28))
      = extractStridedSlice S64x64 ![64, 0] (W (Proc.devRef .tc main_arg7)) slices_S128x64_S64x64_64_0 := by
    after_results_simp
    try rfl
  rw [e]
  exact slice2_axis0_apply 64 _ _ k j k' (by omega)

set_option maxHeartbeats 2000000 in
/-- The bias as a one-row matrix. -/
theorem bias_apply (j : Fin 64) :
    ((StableHlo.after (hostOps1 (F := Ideal)) W (Proc.devRef .tc main_v29)) : S1x64.Idx → EReal) (ix2 (0 : Fin 1) j) = ((W (Proc.devRef .tc main_arg8) : S64.Idx → EReal)) (ix1 j) := by
  have e : (StableHlo.after (hostOps1 (F := Ideal)) W (Proc.devRef .tc main_v29))
      = fun i => shapeCast S1x64 (W (Proc.devRef .tc main_arg8)) shapeCasts_S64_S1x64 i := by
    after_results_simp
    try rfl
  rw [e]
  show shapeCast S1x64 _ shapeCasts_S64_S1x64 (ix2 (0 : Fin 1) j) = _
  rw [shapeCast_a_1a_apply]

set_option maxHeartbeats 2000000 in
/-- The out-degree factor as a column. -/
theorem nout_apply (r : Fin 50000) :
    ((StableHlo.after (hostOps1 (F := Ideal)) W (Proc.devRef .tc main_v42)) : S50000x1.Idx → EReal) (ix2 r (0 : Fin 1)) = degFactor (W (Proc.devRef .tc main_arg2)) (ix1 r) := by
  have e : (StableHlo.after (hostOps1 (F := Ideal)) W (Proc.devRef .tc main_v42))
      = fun i => shapeCast S50000x1 (degFactor (W (Proc.devRef .tc main_arg2))) shapeCasts_S50000_S50000x1 i := by
    unfold degFactor
    after_results_simp
    try rfl
  rw [e]
  show shapeCast S50000x1 _ shapeCasts_S50000_S50000x1 (ix2 r (0 : Fin 1)) = _
  rw [shapeCast_a_a1_apply]

set_option maxHeartbeats 2000000 in
/-- The in-degree factor as a column. -/
theorem nin_apply (r : Fin 50000) :
    ((StableHlo.after (hostOps1 (F := Ideal)) W (Proc.devRef .tc main_v44)) : S50000x1.Idx → EReal) (ix2 r (0 : Fin 1)) = degFactor (W (Proc.devRef .tc main_arg3)) (ix1 r) := by
  have e : (StableHlo.after (hostOps1 (F := Ideal)) W (Proc.devRef .tc main_v44))
      = fun i => shapeCast S50000x1 (degFactor (W (Proc.devRef .tc main_arg3))) shapeCasts_S50000_S50000x1 i := by
    unfold degFactor
    after_results_simp
    try rfl
  rw [e]
  show shapeCast S50000x1 _ shapeCasts_S50000_S50000x1 (ix2 r (0 : Fin 1)) = _
  rw [shapeCast_a_a1_apply]

/-! ## The second stretch -/

set_option maxHeartbeats 2000000 in
/-- The aggregate the third call reads. -/
theorem agg_eq :
    StableHlo.after (hostOps2 (F := Ideal)) W (Proc.devRef .tc main_v58)
      = aggregate (W (Proc.devRef .tc main_v45)) (W (Proc.devRef .tc main_arg2)) (W (Proc.devRef .tc main_arg3)) (W (Proc.devRef .tc main_arg4)) := by
  unfold aggregate
  after_results_simp

end Cert.KernelIdeal.HostVal

end
-- ==== Proof.KI.Chain.lean ====
/- The kernel's program, boundary by boundary at the ideal instance: what each pallas_call finds in the buffers it reads,
   in terms of the argument arrays and of what the calls before it left. -/
import proofs.«159496_j27066883899809_1_alg».proof.Proof.KI.Run
import proofs.«159496_j27066883899809_1_alg».proof.Proof.KI.HostVal

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.HostVal

variable (m : (ℓ : Loc nD τ sig) → Buf (Elt Ideal) ℓ) (ρ : Dev nD → PrngReg)

/-! ## The arguments, at every boundary, are the launch contents -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)
theorem W2_arg0 (c : Dev nD) : W2 m ρ c (Proc.devRef .tc main_arg0) = m ((c : Thread nD τ).loc main_arg0) :=
  (W2_of m ρ c main_arg0 (by decide)).trans (W1_arg0 m ρ c)
theorem W2_arg1 (c : Dev nD) : W2 m ρ c (Proc.devRef .tc main_arg1) = m ((c : Thread nD τ).loc main_arg1) :=
  (W2_of m ρ c main_arg1 (by decide)).trans (W1_arg1 m ρ c)
theorem W2_arg2 (c : Dev nD) : W2 m ρ c (Proc.devRef .tc main_arg2) = m ((c : Thread nD τ).loc main_arg2) :=
  (W2_of m ρ c main_arg2 (by decide)).trans (W1_arg2 m ρ c)
theorem W2_arg3 (c : Dev nD) : W2 m ρ c (Proc.devRef .tc main_arg3) = m ((c : Thread nD τ).loc main_arg3) :=
  (W2_of m ρ c main_arg3 (by decide)).trans (W1_arg3 m ρ c)
theorem W2_arg4 (c : Dev nD) : W2 m ρ c (Proc.devRef .tc main_arg4) = m ((c : Thread nD τ).loc main_arg4) :=
  (W2_of m ρ c main_arg4 (by decide)).trans (W1_arg4 m ρ c)
theorem W2_arg5 (c : Dev nD) : W2 m ρ c (Proc.devRef .tc main_arg5) = m ((c : Thread nD τ).loc main_arg5) :=
  (W2_of m ρ c main_arg5 (by decide)).trans (W1_arg5 m ρ c)
theorem W2_arg6 (c : Dev nD) : W2 m ρ c (Proc.devRef .tc main_arg6) = m ((c : Thread nD τ).loc main_arg6) :=
  (W2_of m ρ c main_arg6 (by decide)).trans (W1_arg6 m ρ c)
theorem W2_arg7 (c : Dev nD) : W2 m ρ c (Proc.devRef .tc main_arg7) = m ((c : Thread nD τ).loc main_arg7) :=
  (W2_of m ρ c main_arg7 (by decide)).trans (W1_arg7 m ρ c)
theorem W2_arg8 (c : Dev nD) : W2 m ρ c (Proc.devRef .tc main_arg8) = m ((c : Thread nD τ).loc main_arg8) :=
  (W2_of m ρ c main_arg8 (by decide)).trans (W1_arg8 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)

/-! ## What the third call reads -/

/-- The aggregate: the gather / weight / scatter-add of what the second call left. -/
theorem W4_v58 (c : Dev nD) : W4 m ρ c (Proc.devRef .tc main_v58)
    = aggregate (W3 m ρ c (Proc.devRef .tc main_v45)) (m ((c : Thread nD τ).loc main_arg2)) (m ((c : Thread nD τ).loc main_arg3)) (m ((c : Thread nD τ).loc main_arg4)) := by
  refine (agg_eq (W3 m ρ c)).trans ?_
  rw [W3_arg2, W3_arg3, W3_arg4]

theorem W4_v44 (c : Dev nD) : W4 m ρ c (Proc.devRef .tc main_v44) = W2 m ρ c (Proc.devRef .tc main_v44) :=
  (W4_of m ρ c main_v44 (by decide)).trans (W3_of_ne m ρ c main_v44 (by decide))
theorem W4_v29 (c : Dev nD) : W4 m ρ c (Proc.devRef .tc main_v29) = W2 m ρ c (Proc.devRef .tc main_v29) :=
  (W4_of m ρ c main_v29 (by decide)).trans (W3_of_ne m ρ c main_v29 (by decide))

/-- The in-degree factor column the third call reads. -/
theorem W4_v44_apply (c : Dev nD) (r : Fin 50000) :
    (W4 m ρ c (Proc.devRef .tc main_v44) : S50000x1.Idx → EReal) (ix2 r (0 : Fin 1)) = degFactor (m ((c : Thread nD τ).loc main_arg3)) (ix1 r) := by
  rw [W4_v44]
  refine (nin_apply (W1 m ρ c) r).trans ?_
  rw [W1_arg3]

/-- The bias row the third call reads. -/
theorem W4_v29_apply (c : Dev nD) (j : Fin 64) :
    (W4 m ρ c (Proc.devRef .tc main_v29) : S1x64.Idx → EReal) (ix2 (0 : Fin 1) j) = (m ((c : Thread nD τ).loc main_arg8) : S64.Idx → EReal) (ix1 j) := by
  rw [W4_v29]
  refine (bias_apply (W1 m ρ c) j).trans ?_
  rw [W1_arg8]

/-! ## What the second call reads -/

theorem W2_v42_apply (c : Dev nD) (r : Fin 50000) :
    (W2 m ρ c (Proc.devRef .tc main_v42) : S50000x1.Idx → EReal) (ix2 r (0 : Fin 1)) = degFactor (m ((c : Thread nD τ).loc main_arg2)) (ix1 r) := by
  refine (nout_apply (W1 m ρ c) r).trans ?_
  rw [W1_arg2]

theorem W2_v20_apply (c : Dev nD) (k : Fin 64) (k' : Fin 128) (hk : k'.val = k.val) :
    (W2 m ρ c (Proc.devRef .tc main_v20) : S1x64.Idx → EReal) (ix2 (0 : Fin 1) k) = (m ((c : Thread nD τ).loc main_arg5) : S128.Idx → EReal) (ix1 k') := by
  refine (gamma1_apply (W1 m ρ c) k k' hk).trans ?_
  rw [W1_arg5]
theorem W2_v22_apply (c : Dev nD) (k : Fin 64) (k' : Fin 128) (hk : k'.val = 64 + k.val) :
    (W2 m ρ c (Proc.devRef .tc main_v22) : S1x64.Idx → EReal) (ix2 (0 : Fin 1) k) = (m ((c : Thread nD τ).loc main_arg5) : S128.Idx → EReal) (ix1 k') := by
  refine (gamma2_apply (W1 m ρ c) k k' hk).trans ?_
  rw [W1_arg5]
theorem W2_v24_apply (c : Dev nD) (k : Fin 64) (k' : Fin 128) (hk : k'.val = k.val) :
    (W2 m ρ c (Proc.devRef .tc main_v24) : S1x64.Idx → EReal) (ix2 (0 : Fin 1) k) = (m ((c : Thread nD τ).loc main_arg6) : S128.Idx → EReal) (ix1 k') := by
  refine (beta1_apply (W1 m ρ c) k k' hk).trans ?_
  rw [W1_arg6]
theorem W2_v26_apply (c : Dev nD) (k : Fin 64) (k' : Fin 128) (hk : k'.val = 64 + k.val) :
    (W2 m ρ c (Proc.devRef .tc main_v26) : S1x64.Idx → EReal) (ix2 (0 : Fin 1) k) = (m ((c : Thread nD τ).loc main_arg6) : S128.Idx → EReal) (ix1 k') := by
  refine (beta2_apply (W1 m ρ c) k k' hk).trans ?_
  rw [W1_arg6]
theorem W2_v27_apply (c : Dev nD) (k j : Fin 64) (k' : Fin 128) (hk : k'.val = k.val) :
    (W2 m ρ c (Proc.devRef .tc main_v27) : S64x64.Idx → EReal) (ix2 k j) = (m ((c : Thread nD τ).loc main_arg7) : S128x64.Idx → EReal) (ix2 k' j) := by
  refine (w1_apply (W1 m ρ c) k j k' hk).trans ?_
  rw [W1_arg7]
theorem W2_v28_apply (c : Dev nD) (k j : Fin 64) (k' : Fin 128) (hk : k'.val = 64 + k.val) :
    (W2 m ρ c (Proc.devRef .tc main_v28) : S64x64.Idx → EReal) (ix2 k j) = (m ((c : Thread nD τ).loc main_arg7) : S128x64.Idx → EReal) (ix2 k' j) := by
  refine (w2_apply (W1 m ρ c) k j k' hk).trans ?_
  rw [W1_arg7]

/-- The four column sums the first call leaves. -/
theorem W1_v0_0 (c : Dev nD) : W1 m ρ c (Proc.devRef .tc main_v0_0) = (dat0 (V0 m ρ) c).arrAt 2 cfg0.N := W1_arr m ρ c 2
theorem W1_v0_1 (c : Dev nD) : W1 m ρ c (Proc.devRef .tc main_v0_1) = (dat0 (V0 m ρ) c).arrAt 3 cfg0.N := W1_arr m ρ c 3
theorem W1_v0_2 (c : Dev nD) : W1 m ρ c (Proc.devRef .tc main_v0_2) = (dat0 (V0 m ρ) c).arrAt 4 cfg0.N := W1_arr m ρ c 4
theorem W1_v0_3 (c : Dev nD) : W1 m ρ c (Proc.devRef .tc main_v0_3) = (dat0 (V0 m ρ) c).arrAt 5 cfg0.N := W1_arr m ρ c 5

end Cert.KernelIdeal.Hand

end
-- ==== Proof.KI.KDefs.lean ====
/- The kernel's node features in closed form over the argument arrays: per half, the batch statistics of a column from its
   sum and its sum of squares, the rectified normalisation of an entry, and the projected row scaled by the out-degree factor. -/
import proofs.«159496_j27066883899809_1_alg».proof.Proof.KI.HostVal

noncomputable section

namespace Cert.KernelIdeal.Hand

open Idealize.ShloMosaic Idealize.ShloMosaic.ValueIdx
open Cert.KernelIdeal Cert.KernelIdeal.HostVal

/-- The mean of column `k` of a half: its sum over the number of rows. -/
def kmean (x : S50000x64.Idx → EReal) (k : Fin 64) : EReal :=
  Ideal.div (∑ r : Fin 50000, x (ix2 r k)) nRows

/-- The scale of column `k` of a half: the reciprocal square root of its mean of squares less its squared mean, plus epsilon. -/
def kinv (x : S50000x64.Idx → EReal) (k : Fin 64) : EReal :=
  Ideal.rsqrt ((Ideal.div (∑ r : Fin 50000, x (ix2 r k) * x (ix2 r k)) nRows - kmean x k * kmean x k) + epsBN)

/-- The rectified normalisation of entry `(r, k)` of the half whose scale and shift sit at offset `off` of the 128 columns. -/
def kbn (x : S50000x64.Idx → EReal) (gamma beta : S128.Idx → EReal) (off : ℕ) (hoff : off + 64 ≤ 128) (r : Fin 50000) (k : Fin 64) : EReal :=
  max (((x (ix2 r k) - kmean x k) * kinv x k) * gamma (ix1 (⟨off + k.val, by omega⟩ : Fin 128))
      + beta (ix1 (⟨off + k.val, by omega⟩ : Fin 128))) (Ideal.ofBits .f32 0x00000000#32)

/-- The kernel's node features at `(r, j)`: the two halves' rectified normalisations times the two halves of the weight
    matrix, added, times the out-degree factor of row `r`. -/
def kfeatAt (x1 x2 : S50000x64.Idx → EReal) (gamma beta : S128.Idx → EReal) (W : S128x64.Idx → EReal)
    (src : S600000.Idx → BitVec 32) (r : Fin 50000) (j : Fin 64) : EReal :=
  ((∑ k : Fin 64, kbn x1 gamma beta 0 (by omega) r k * W (ix2 (⟨0 + k.val, by omega⟩ : Fin 128) j))
    + (∑ k : Fin 64, kbn x2 gamma beta 64 (by omega) r k * W (ix2 (⟨64 + k.val, by omega⟩ : Fin 128) j)))
  * degFactor src (ix1 r)

end Cert.KernelIdeal.Hand

end
-- ==== Proof.KI.Val0.lean ====
/- The column-statistics call at the ideal values: what its four output arrays hold when it returns. Each accumulator
   ends at the sum over the five row blocks of the block's column sums (sums of squares); over the extended reals addition
   is commutative and associative and 0 + x = x, so the five block sums regroup into one sum over all 50000 rows. -/
import proofs.«159496_j27066883899809_1_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## The body's payloads read at an index -/

theorem zeros2 : (![0, 0] : Fin 2 → Nat) = fun _ => 0 := funext fun a => by fin_cases a <;> rfl

/-- The column sum of a 10000x64 block, kept as a 1x64 row: at column j, the sum of the block's rows there. -/
theorem colsum_at (x : FVec Ideal S10000x64 .f32) (j : Fin 64) :
    (shapeCast S1x64 (multiReduction (F := Ideal) .add [0] S64 x 0x00000000#32 reduces_S10000x64_S64 (.inl rfl) rfl) shapeCasts_S64_S1x64
      : FVec Ideal S1x64 .f32) (ix2 (0 : Fin 1) j) = ∑ r : Fin 10000, x (ix2 r j) := by
  refine (shapeCast_a_1a_apply _ shapeCasts_S64_S1x64 (0 : Fin 1) j).trans ?_
  refine (Ideal.multiReduction_add_single x 0x00000000#32 reduces_S10000x64_S64 (.inl rfl) rfl (ix1 j)).trans ?_
  refine Finset.sum_congr rfl fun r _ => congrArg x ?_
  funext a
  match a with
  | ⟨0, _⟩ => rfl
  | ⟨1, _⟩ => rfl

theorem pay1_at (x : Vec Ideal S10000x64 .f32) (j : Fin 64) :
    k0_pay1 (F := Ideal) x (ix2 (0 : Fin 1) j) = ∑ r : Fin 10000, x (ix2 r j) := by
  unfold k0_pay1
  exact colsum_at x j

theorem pay2_at (x : Vec Ideal S10000x64 .f32) (j : Fin 64) :
    k0_pay2 (F := Ideal) x (ix2 (0 : Fin 1) j) = ∑ r : Fin 10000, x (ix2 r j) * x (ix2 r j) := by
  unfold k0_pay2
  exact colsum_at (mulf x x) j

theorem pay3_at (x : Vec Ideal S10000x64 .f32) (j : Fin 64) :
    k0_pay3 (F := Ideal) x (ix2 (0 : Fin 1) j) = ∑ r : Fin 10000, x (ix2 r j) := by
  unfold k0_pay3
  exact colsum_at x j

theorem pay4_at (x : Vec Ideal S10000x64 .f32) (j : Fin 64) :
    k0_pay4 (F := Ideal) x (ix2 (0 : Fin 1) j) = ∑ r : Fin 10000, x (ix2 r j) * x (ix2 r j) := by
  unfold k0_pay4
  exact colsum_at (mulf x x) j

theorem pay5_at (x : Vec Ideal S10000x64 .f32) (xo : Vec Ideal S1x64 .f32) (j : Fin 64) :
    k0_pay5 (F := Ideal) x xo (ix2 (0 : Fin 1) j) = xo (ix2 (0 : Fin 1) j) + ∑ r : Fin 10000, x (ix2 r j) := by
  unfold k0_pay5
  show (shapeCast S1x64 xo shapeCasts_S1x64_S1x64 : FVec Ideal S1x64 .f32) (ix2 (0 : Fin 1) j) + k0_pay1 (F := Ideal) x (ix2 (0 : Fin 1) j) = _
  rw [shapeCast_self, pay1_at]

theorem pay6_at (x : Vec Ideal S10000x64 .f32) (xo : Vec Ideal S1x64 .f32) (j : Fin 64) :
    k0_pay6 (F := Ideal) x xo (ix2 (0 : Fin 1) j) = xo (ix2 (0 : Fin 1) j) + ∑ r : Fin 10000, x (ix2 r j) * x (ix2 r j) := by
  unfold k0_pay6
  show (shapeCast S1x64 xo shapeCasts_S1x64_S1x64 : FVec Ideal S1x64 .f32) (ix2 (0 : Fin 1) j) + k0_pay2 (F := Ideal) x (ix2 (0 : Fin 1) j) = _
  rw [shapeCast_self, pay2_at]

theorem pay7_at (x : Vec Ideal S10000x64 .f32) (xo : Vec Ideal S1x64 .f32) (j : Fin 64) :
    k0_pay7 (F := Ideal) x xo (ix2 (0 : Fin 1) j) = xo (ix2 (0 : Fin 1) j) + ∑ r : Fin 10000, x (ix2 r j) := by
  unfold k0_pay7
  show (shapeCast S1x64 xo shapeCasts_S1x64_S1x64 : FVec Ideal S1x64 .f32) (ix2 (0 : Fin 1) j) + k0_pay3 (F := Ideal) x (ix2 (0 : Fin 1) j) = _
  rw [shapeCast_self, pay3_at]

theorem pay8_at (x : Vec Ideal S10000x64 .f32) (xo : Vec Ideal S1x64 .f32) (j : Fin 64) :
    k0_pay8 (F := Ideal) x xo (ix2 (0 : Fin 1) j) = xo (ix2 (0 : Fin 1) j) + ∑ r : Fin 10000, x (ix2 r j) * x (ix2 r j) := by
  unfold k0_pay8
  show (shapeCast S1x64 xo shapeCasts_S1x64_S1x64 : FVec Ideal S1x64 .f32) (ix2 (0 : Fin 1) j) + k0_pay4 (F := Ideal) x (ix2 (0 : Fin 1) j) = _
  rw [shapeCast_self, pay4_at]

/-- What the body's one store leaves in an accumulator is the store's payload over the whole loaded buffers. -/
theorem outA0_2_eq (x0 : Vec Ideal S10000x64 .f32) : outA0_2 (F := Ideal) x0 = k0_pay1 x0 := by
  unfold outA0_2
  rw [View.canon_unit_zero zeros2, View.ld_unit_zero (S := S10000x64) zeros2]
theorem outA0_3_eq (x0 : Vec Ideal S10000x64 .f32) : outA0_3 (F := Ideal) x0 = k0_pay2 x0 := by
  unfold outA0_3
  rw [View.canon_unit_zero zeros2, View.ld_unit_zero (S := S10000x64) zeros2]
theorem outA0_4_eq (x1 : Vec Ideal S10000x64 .f32) : outA0_4 (F := Ideal) x1 = k0_pay3 x1 := by
  unfold outA0_4
  rw [View.canon_unit_zero zeros2, View.ld_unit_zero (S := S10000x64) zeros2]
theorem outA0_5_eq (x1 : Vec Ideal S10000x64 .f32) : outA0_5 (F := Ideal) x1 = k0_pay4 x1 := by
  unfold outA0_5
  rw [View.canon_unit_zero zeros2, View.ld_unit_zero (S := S10000x64) zeros2]
theorem outB0_2_eq (x0 : Vec Ideal S10000x64 .f32) (xo : Vec Ideal S1x64 .f32) : outB0_2 (F := Ideal) x0 xo = k0_pay5 x0 xo := by
  unfold outB0_2
  rw [View.canon_unit_zero zeros2, View.ld_unit_zero (S := S10000x64) zeros2, View.ld_unit_zero (S := S1x64) zeros2]
theorem outB0_3_eq (x0 : Vec Ideal S10000x64 .f32) (xo : Vec Ideal S1x64 .f32) : outB0_3 (F := Ideal) x0 xo = k0_pay6 x0 xo := by
  unfold outB0_3
  rw [View.canon_unit_zero zeros2, View.ld_unit_zero (S := S10000x64) zeros2, View.ld_unit_zero (S := S1x64) zeros2]
theorem outB0_4_eq (x1 : Vec Ideal S10000x64 .f32) (xo : Vec Ideal S1x64 .f32) : outB0_4 (F := Ideal) x1 xo = k0_pay7 x1 xo := by
  unfold outB0_4
  rw [View.canon_unit_zero zeros2, View.ld_unit_zero (S := S10000x64) zeros2, View.ld_unit_zero (S := S1x64) zeros2]
theorem outB0_5_eq (x1 : Vec Ideal S10000x64 .f32) (xo : Vec Ideal S1x64 .f32) : outB0_5 (F := Ideal) x1 xo = k0_pay8 x1 xo := by
  unfold outB0_5
  rw [View.canon_unit_zero zeros2, View.ld_unit_zero (S := S10000x64) zeros2, View.ld_unit_zero (S := S1x64) zeros2]

/-! ## The input blocks: block t is rows 10000 t … 10000 t + 9999 of its array -/

theorem iblk0_0_apply (c : Dev nD) (t : Fin cfg0.N) (r : Fin 10000) (j : Fin 64) (h : 10000 * t.val + r.val < 50000) :
    (iblk0 V c 0 t : Vec Ideal S10000x64 .f32) (ix2 r j) = (V c main_arg0 : S50000x64.Idx → EReal) (ix2 ⟨10000 * t.val + r.val, h⟩ j) := by
  have hi : win0_0.index t 0 = t.val ∧ win0_0.index t 1 = 0 := by
    rcases fin_N0 t with rfl | rfl | rfl | rfl | rfl <;> decide
  unfold iblk0
  rw [View.read_apply]
  show V c main_arg0 _ = V c main_arg0 _
  refine congrArg (V c main_arg0) ?_
  funext a
  apply Fin.ext
  match a with
  | ⟨0, _⟩ => show win0_0.index t 0 * 10000 + 1 * r.val = 10000 * t.val + r.val; rw [hi.1]; omega
  | ⟨1, _⟩ => show win0_0.index t 1 * 64 + 1 * j.val = j.val; rw [hi.2]; omega

theorem iblk0_1_apply (c : Dev nD) (t : Fin cfg0.N) (r : Fin 10000) (j : Fin 64) (h : 10000 * t.val + r.val < 50000) :
    (iblk0 V c 1 t : Vec Ideal S10000x64 .f32) (ix2 r j) = (V c main_arg1 : S50000x64.Idx → EReal) (ix2 ⟨10000 * t.val + r.val, h⟩ j) := by
  have hi : win0_1.index t 0 = t.val ∧ win0_1.index t 1 = 0 := by
    rcases fin_N0 t with rfl | rfl | rfl | rfl | rfl <;> decide
  unfold iblk0
  rw [View.read_apply]
  show V c main_arg1 _ = V c main_arg1 _
  refine congrArg (V c main_arg1) ?_
  funext a
  apply Fin.ext
  match a with
  | ⟨0, _⟩ => show win0_1.index t 0 * 10000 + 1 * r.val = 10000 * t.val + r.val; rw [hi.1]; omega
  | ⟨1, _⟩ => show win0_1.index t 1 * 64 + 1 * j.val = j.val; rw [hi.2]; omega

/-! ## Five block sums are one sum over all rows -/

/-- Column j of a 50000x64 array as a sequence of its rows (0 past the end). -/
def colSeq (G : S50000x64.Idx → EReal) (j : Fin 64) (r : ℕ) : EReal := if h : r < 50000 then G (ix2 ⟨r, h⟩ j) else 0

theorem sum_colSeq (G : S50000x64.Idx → EReal) (j : Fin 64) :
    ∑ r ∈ Finset.range 50000, colSeq G j r = ∑ r : Fin 50000, G (ix2 r j) := by
  rw [Finset.sum_range]
  exact Finset.sum_congr rfl fun r _ => dif_pos r.isLt

/-- The column sum of block n, when the block's rows are rows 10000 n … of the array. -/
theorem sum_block (G : S50000x64.Idx → EReal) (j : Fin 64) (n : ℕ) (hn : n < 5) (x : Vec Ideal S10000x64 .f32)
    (hx : ∀ (r : Fin 10000) (h : 10000 * n + r.val < 50000), x (ix2 r j) = G (ix2 ⟨10000 * n + r.val, h⟩ j)) :
    ∑ r : Fin 10000, x (ix2 r j) = ∑ r ∈ Finset.range 10000, colSeq G j (10000 * n + r) := by
  rw [Finset.sum_range]
  refine Finset.sum_congr rfl fun r _ => ?_
  have h : 10000 * n + r.val < 50000 := by have := r.isLt; omega
  rw [hx r h]; unfold colSeq; rw [dif_pos h]

/-- The same for the column sum of squares. -/
theorem sum_block_sq (G : S50000x64.Idx → EReal) (j : Fin 64) (n : ℕ) (hn : n < 5) (x : Vec Ideal S10000x64 .f32)
    (hx : ∀ (r : Fin 10000) (h : 10000 * n + r.val < 50000), x (ix2 r j) = G (ix2 ⟨10000 * n + r.val, h⟩ j)) :
    ∑ r : Fin 10000, x (ix2 r j) * x (ix2 r j) = ∑ r ∈ Finset.range 10000, colSeq (fun i => G i * G i) j (10000 * n + r) := by
  rw [Finset.sum_range]
  refine Finset.sum_congr rfl fun r _ => ?_
  have h : 10000 * n + r.val < 50000 := by have := r.isLt; omega
  rw [hx r h]; unfold colSeq; rw [dif_pos h]

/-- A running total that starts at block 0's sum and adds block n + 1's sum at step n + 1 is, after step n, the sum of
    the first 10000 (n + 1) terms. -/
theorem acc_eq_sum {N : ℕ} (f : ℕ → EReal) (a : (n : ℕ) → n < N → EReal)
    (h0 : ∀ h, a 0 h = ∑ r ∈ Finset.range 10000, f (10000 * 0 + r))
    (hs : ∀ n (h : n + 1 < N), a (n + 1) h = a n (Nat.lt_of_succ_lt h) + ∑ r ∈ Finset.range 10000, f (10000 * (n + 1) + r)) :
    ∀ n (h : n < N), a n h = ∑ r ∈ Finset.range (10000 * (n + 1)), f r
  | 0, h => by rw [h0]; simp only [Nat.mul_zero, Nat.zero_add, Nat.mul_one]
  | n + 1, h => by
    rw [hs n h, acc_eq_sum f a h0 hs n, show 10000 * (n + 1 + 1) = 10000 * (n + 1) + 10000 by omega, Finset.sum_range_add]

/-! ## The accumulators after each point -/

/-- The two input arrays as the call finds them, as 50000x64 arrays of extended reals. -/
abbrev inp0 (c : Dev nD) : S50000x64.Idx → EReal := V c main_arg0
abbrev inp1 (c : Dev nD) : S50000x64.Idx → EReal := V c main_arg1

theorem acc0_2_sum (c : Dev nD) (j : Fin 64) (n : ℕ) (h : n < cfg0.N) :
    acc0_2 V c n h (ix2 (0 : Fin 1) j) = ∑ r ∈ Finset.range (10000 * (n + 1)), colSeq (inp0 V c) j r :=
  acc_eq_sum (colSeq (inp0 V c) j) (fun n h => acc0_2 V c n h (ix2 (0 : Fin 1) j))
    (fun h => by
      show outA0_2 (iblk0 V c 0 ⟨0, h⟩) (ix2 (0 : Fin 1) j) = _
      refine (congrFun (outA0_2_eq (iblk0 V c 0 ⟨0, h⟩)) (ix2 (0 : Fin 1) j)).trans ?_
      refine (pay1_at (iblk0 V c 0 ⟨0, h⟩) j).trans ?_
      exact sum_block _ j 0 (by omega) _ (fun r hr => iblk0_0_apply V c ⟨0, h⟩ r j hr))
    (fun n h => by
      show outB0_2 (iblk0 V c 0 ⟨n + 1, h⟩) (acc0_2 V c n (Nat.lt_of_succ_lt h)) (ix2 (0 : Fin 1) j) = _
      refine (congrFun (outB0_2_eq (iblk0 V c 0 ⟨n + 1, h⟩) (acc0_2 V c n (Nat.lt_of_succ_lt h))) (ix2 (0 : Fin 1) j)).trans ?_
      refine (pay5_at (iblk0 V c 0 ⟨n + 1, h⟩) (acc0_2 V c n (Nat.lt_of_succ_lt h)) j).trans ?_
      refine congrArg (fun z => acc0_2 V c n (Nat.lt_of_succ_lt h) (ix2 (0 : Fin 1) j) + z) ?_
      exact sum_block _ j (n + 1) (lt_of_lt_of_eq h (show cfg0.N = 5 from N_0)) _ (fun r hr => iblk0_0_apply V c ⟨n + 1, h⟩ r j hr))
    n h

theorem acc0_3_sum (c : Dev nD) (j : Fin 64) (n : ℕ) (h : n < cfg0.N) :
    acc0_3 V c n h (ix2 (0 : Fin 1) j)
      = ∑ r ∈ Finset.range (10000 * (n + 1)), colSeq (fun i => (inp0 V c) i * (inp0 V c) i) j r :=
  acc_eq_sum (colSeq (fun i => (inp0 V c) i * (inp0 V c) i) j)
    (fun n h => acc0_3 V c n h (ix2 (0 : Fin 1) j))
    (fun h => by
      show outA0_3 (iblk0 V c 0 ⟨0, h⟩) (ix2 (0 : Fin 1) j) = _
      refine (congrFun (outA0_3_eq (iblk0 V c 0 ⟨0, h⟩)) (ix2 (0 : Fin 1) j)).trans ?_
      refine (pay2_at (iblk0 V c 0 ⟨0, h⟩) j).trans ?_
      exact sum_block_sq _ j 0 (by omega) _ (fun r hr => iblk0_0_apply V c ⟨0, h⟩ r j hr))
    (fun n h => by
      show outB0_3 (iblk0 V c 0 ⟨n + 1, h⟩) (acc0_3 V c n (Nat.lt_of_succ_lt h)) (ix2 (0 : Fin 1) j) = _
      refine (congrFun (outB0_3_eq (iblk0 V c 0 ⟨n + 1, h⟩) (acc0_3 V c n (Nat.lt_of_succ_lt h))) (ix2 (0 : Fin 1) j)).trans ?_
      refine (pay6_at (iblk0 V c 0 ⟨n + 1, h⟩) (acc0_3 V c n (Nat.lt_of_succ_lt h)) j).trans ?_
      refine congrArg (fun z => acc0_3 V c n (Nat.lt_of_succ_lt h) (ix2 (0 : Fin 1) j) + z) ?_
      exact sum_block_sq _ j (n + 1) (lt_of_lt_of_eq h (show cfg0.N = 5 from N_0)) _ (fun r hr => iblk0_0_apply V c ⟨n + 1, h⟩ r j hr))
    n h

theorem acc0_4_sum (c : Dev nD) (j : Fin 64) (n : ℕ) (h : n < cfg0.N) :
    acc0_4 V c n h (ix2 (0 : Fin 1) j) = ∑ r ∈ Finset.range (10000 * (n + 1)), colSeq (inp1 V c) j r :=
  acc_eq_sum (colSeq (inp1 V c) j) (fun n h => acc0_4 V c n h (ix2 (0 : Fin 1) j))
    (fun h => by
      show outA0_4 (iblk0 V c 1 ⟨0, h⟩) (ix2 (0 : Fin 1) j) = _
      refine (congrFun (outA0_4_eq (iblk0 V c 1 ⟨0, h⟩)) (ix2 (0 : Fin 1) j)).trans ?_
      refine (pay3_at (iblk0 V c 1 ⟨0, h⟩) j).trans ?_
      exact sum_block _ j 0 (by omega) _ (fun r hr => iblk0_1_apply V c ⟨0, h⟩ r j hr))
    (fun n h => by
      show outB0_4 (iblk0 V c 1 ⟨n + 1, h⟩) (acc0_4 V c n (Nat.lt_of_succ_lt h)) (ix2 (0 : Fin 1) j) = _
      refine (congrFun (outB0_4_eq (iblk0 V c 1 ⟨n + 1, h⟩) (acc0_4 V c n (Nat.lt_of_succ_lt h))) (ix2 (0 : Fin 1) j)).trans ?_
      refine (pay7_at (iblk0 V c 1 ⟨n + 1, h⟩) (acc0_4 V c n (Nat.lt_of_succ_lt h)) j).trans ?_
      refine congrArg (fun z => acc0_4 V c n (Nat.lt_of_succ_lt h) (ix2 (0 : Fin 1) j) + z) ?_
      exact sum_block _ j (n + 1) (lt_of_lt_of_eq h (show cfg0.N = 5 from N_0)) _ (fun r hr => iblk0_1_apply V c ⟨n + 1, h⟩ r j hr))
    n h

theorem acc0_5_sum (c : Dev nD) (j : Fin 64) (n : ℕ) (h : n < cfg0.N) :
    acc0_5 V c n h (ix2 (0 : Fin 1) j)
      = ∑ r ∈ Finset.range (10000 * (n + 1)), colSeq (fun i => (inp1 V c) i * (inp1 V c) i) j r :=
  acc_eq_sum (colSeq (fun i => (inp1 V c) i * (inp1 V c) i) j)
    (fun n h => acc0_5 V c n h (ix2 (0 : Fin 1) j))
    (fun h => by
      show outA0_5 (iblk0 V c 1 ⟨0, h⟩) (ix2 (0 : Fin 1) j) = _
      refine (congrFun (outA0_5_eq (iblk0 V c 1 ⟨0, h⟩)) (ix2 (0 : Fin 1) j)).trans ?_
      refine (pay4_at (iblk0 V c 1 ⟨0, h⟩) j).trans ?_
      exact sum_block_sq _ j 0 (by omega) _ (fun r hr => iblk0_1_apply V c ⟨0, h⟩ r j hr))
    (fun n h => by
      show outB0_5 (iblk0 V c 1 ⟨n + 1, h⟩) (acc0_5 V c n (Nat.lt_of_succ_lt h)) (ix2 (0 : Fin 1) j) = _
      refine (congrFun (outB0_5_eq (iblk0 V c 1 ⟨n + 1, h⟩) (acc0_5 V c n (Nat.lt_of_succ_lt h))) (ix2 (0 : Fin 1) j)).trans ?_
      refine (pay8_at (iblk0 V c 1 ⟨n + 1, h⟩) (acc0_5 V c n (Nat.lt_of_succ_lt h)) j).trans ?_
      refine congrArg (fun z => acc0_5 V c n (Nat.lt_of_succ_lt h) (ix2 (0 : Fin 1) j) + z) ?_
      exact sum_block_sq _ j (n + 1) (lt_of_lt_of_eq h (show cfg0.N = 5 from N_0)) _ (fun r hr => iblk0_1_apply V c ⟨n + 1, h⟩ r j hr))
    n h

/-! ## The result arrays when the call returns -/

/-- Accumulator 2's contents after the last point, as contents of its result array (its one block is the array). -/
abbrev res0_2 (c : Dev nD) : Buf (Elt Ideal) ((c : Thread nD τ).loc main_v0_0) := acc0_2 V c t0_4.val t0_4.isLt

/-- The one write-back, at the last point, writes them: block (0, 0) of the 1x64 array read through zero offsets is the array. -/
theorem flushed0_2 (c : Dev nD) (t : Fin cfg0.N) (hf : (cfg0.win 2).flush t = true) :
    (dat0 V c).flushed 2 t = ((cfg0.win 2).blk t).view.read (Elt Ideal) (res0_2 V c) := by
  have hN : cfg0.N = 5 := N_0
  have h4 : t.val = 4 := by have := (flush0_2 t).mp hf; have := t.isLt; omega
  obtain rfl : t = t0_4 := Fin.ext h4
  show (cfg0.win 2).cut (grid0.coords t0_4) ((dat0 V c).after 2 t0_4) = _
  rw [after0_2]
  have hz' : (fun a => win0_2.index t0_4 a * main_v0_0.ty.shape.size a) = fun _ => 0 := funext fun a => by fin_cases a <;> decide
  exact (Memref.read_access_unit_zero (Elt Ideal) main_v0_0 hz' (fun a => by rw [congrFun hz' a]; simp) (res0_2 V c)).symm

/-- So the result array ends holding them: the last point's block covers it. -/
theorem final0_2 (c : Dev nD) : (dat0 V c).arrAt 2 cfg0.N = res0_2 V c :=
  (dat0 V c).arrAt_eq_of_cover 2 (res0_2 V c) (flushed0_2 V c) fun i =>
    ⟨t0_4, (flush0_2 t0_4).mpr rfl, by
      show i ∈ ((View.whole main_v0_0).slice (win0_2.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_2.index t0_4 0 * win0_2.size 0 ≤ (i 0 : Nat) ∧ (i 0 : Nat) < win0_2.index t0_4 0 * win0_2.size 0 + win0_2.xsize (grid0.coords t0_4) 0
                  rw [show win0_2.index t0_4 0 * win0_2.size 0 = 0 from by decide +kernel, show win0_2.xsize (grid0.coords t0_4) 0 = 1 from by decide +kernel]; omega
      | ⟨1, _⟩ => show win0_2.index t0_4 1 * win0_2.size 1 ≤ (i 1 : Nat) ∧ (i 1 : Nat) < win0_2.index t0_4 1 * win0_2.size 1 + win0_2.xsize (grid0.coords t0_4) 1
                  rw [show win0_2.index t0_4 1 * win0_2.size 1 = 0 from by decide +kernel, show win0_2.xsize (grid0.coords t0_4) 1 = 64 from by decide +kernel]; omega⟩

/-- Accumulator 3's contents after the last point, as contents of its result array (its one block is the array). -/
abbrev res0_3 (c : Dev nD) : Buf (Elt Ideal) ((c : Thread nD τ).loc main_v0_1) := acc0_3 V c t0_4.val t0_4.isLt

/-- The one write-back, at the last point, writes them: block (0, 0) of the 1x64 array read through zero offsets is the array. -/
theorem flushed0_3 (c : Dev nD) (t : Fin cfg0.N) (hf : (cfg0.win 3).flush t = true) :
    (dat0 V c).flushed 3 t = ((cfg0.win 3).blk t).view.read (Elt Ideal) (res0_3 V c) := by
  have hN : cfg0.N = 5 := N_0
  have h4 : t.val = 4 := by have := (flush0_3 t).mp hf; have := t.isLt; omega
  obtain rfl : t = t0_4 := Fin.ext h4
  show (cfg0.win 3).cut (grid0.coords t0_4) ((dat0 V c).after 3 t0_4) = _
  rw [after0_3]
  have hz' : (fun a => win0_3.index t0_4 a * main_v0_1.ty.shape.size a) = fun _ => 0 := funext fun a => by fin_cases a <;> decide
  exact (Memref.read_access_unit_zero (Elt Ideal) main_v0_1 hz' (fun a => by rw [congrFun hz' a]; simp) (res0_3 V c)).symm

/-- So the result array ends holding them: the last point's block covers it. -/
theorem final0_3 (c : Dev nD) : (dat0 V c).arrAt 3 cfg0.N = res0_3 V c :=
  (dat0 V c).arrAt_eq_of_cover 3 (res0_3 V c) (flushed0_3 V c) fun i =>
    ⟨t0_4, (flush0_3 t0_4).mpr rfl, by
      show i ∈ ((View.whole main_v0_1).slice (win0_3.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_3.index t0_4 0 * win0_3.size 0 ≤ (i 0 : Nat) ∧ (i 0 : Nat) < win0_3.index t0_4 0 * win0_3.size 0 + win0_3.xsize (grid0.coords t0_4) 0
                  rw [show win0_3.index t0_4 0 * win0_3.size 0 = 0 from by decide +kernel, show win0_3.xsize (grid0.coords t0_4) 0 = 1 from by decide +kernel]; omega
      | ⟨1, _⟩ => show win0_3.index t0_4 1 * win0_3.size 1 ≤ (i 1 : Nat) ∧ (i 1 : Nat) < win0_3.index t0_4 1 * win0_3.size 1 + win0_3.xsize (grid0.coords t0_4) 1
                  rw [show win0_3.index t0_4 1 * win0_3.size 1 = 0 from by decide +kernel, show win0_3.xsize (grid0.coords t0_4) 1 = 64 from by decide +kernel]; omega⟩

/-- Accumulator 4's contents after the last point, as contents of its result array (its one block is the array). -/
abbrev res0_4 (c : Dev nD) : Buf (Elt Ideal) ((c : Thread nD τ).loc main_v0_2) := acc0_4 V c t0_4.val t0_4.isLt

/-- The one write-back, at the last point, writes them: block (0, 0) of the 1x64 array read through zero offsets is the array. -/
theorem flushed0_4 (c : Dev nD) (t : Fin cfg0.N) (hf : (cfg0.win 4).flush t = true) :
    (dat0 V c).flushed 4 t = ((cfg0.win 4).blk t).view.read (Elt Ideal) (res0_4 V c) := by
  have hN : cfg0.N = 5 := N_0
  have h4 : t.val = 4 := by have := (flush0_4 t).mp hf; have := t.isLt; omega
  obtain rfl : t = t0_4 := Fin.ext h4
  show (cfg0.win 4).cut (grid0.coords t0_4) ((dat0 V c).after 4 t0_4) = _
  rw [after0_4]
  have hz' : (fun a => win0_4.index t0_4 a * main_v0_2.ty.shape.size a) = fun _ => 0 := funext fun a => by fin_cases a <;> decide
  exact (Memref.read_access_unit_zero (Elt Ideal) main_v0_2 hz' (fun a => by rw [congrFun hz' a]; simp) (res0_4 V c)).symm

/-- So the result array ends holding them: the last point's block covers it. -/
theorem final0_4 (c : Dev nD) : (dat0 V c).arrAt 4 cfg0.N = res0_4 V c :=
  (dat0 V c).arrAt_eq_of_cover 4 (res0_4 V c) (flushed0_4 V c) fun i =>
    ⟨t0_4, (flush0_4 t0_4).mpr rfl, by
      show i ∈ ((View.whole main_v0_2).slice (win0_4.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_4.index t0_4 0 * win0_4.size 0 ≤ (i 0 : Nat) ∧ (i 0 : Nat) < win0_4.index t0_4 0 * win0_4.size 0 + win0_4.xsize (grid0.coords t0_4) 0
                  rw [show win0_4.index t0_4 0 * win0_4.size 0 = 0 from by decide +kernel, show win0_4.xsize (grid0.coords t0_4) 0 = 1 from by decide +kernel]; omega
      | ⟨1, _⟩ => show win0_4.index t0_4 1 * win0_4.size 1 ≤ (i 1 : Nat) ∧ (i 1 : Nat) < win0_4.index t0_4 1 * win0_4.size 1 + win0_4.xsize (grid0.coords t0_4) 1
                  rw [show win0_4.index t0_4 1 * win0_4.size 1 = 0 from by decide +kernel, show win0_4.xsize (grid0.coords t0_4) 1 = 64 from by decide +kernel]; omega⟩

/-- Accumulator 5's contents after the last point, as contents of its result array (its one block is the array). -/
abbrev res0_5 (c : Dev nD) : Buf (Elt Ideal) ((c : Thread nD τ).loc main_v0_3) := acc0_5 V c t0_4.val t0_4.isLt

/-- The one write-back, at the last point, writes them: block (0, 0) of the 1x64 array read through zero offsets is the array. -/
theorem flushed0_5 (c : Dev nD) (t : Fin cfg0.N) (hf : (cfg0.win 5).flush t = true) :
    (dat0 V c).flushed 5 t = ((cfg0.win 5).blk t).view.read (Elt Ideal) (res0_5 V c) := by
  have hN : cfg0.N = 5 := N_0
  have h4 : t.val = 4 := by have := (flush0_5 t).mp hf; have := t.isLt; omega
  obtain rfl : t = t0_4 := Fin.ext h4
  show (cfg0.win 5).cut (grid0.coords t0_4) ((dat0 V c).after 5 t0_4) = _
  rw [after0_5]
  have hz' : (fun a => win0_5.index t0_4 a * main_v0_3.ty.shape.size a) = fun _ => 0 := funext fun a => by fin_cases a <;> decide
  exact (Memref.read_access_unit_zero (Elt Ideal) main_v0_3 hz' (fun a => by rw [congrFun hz' a]; simp) (res0_5 V c)).symm

/-- So the result array ends holding them: the last point's block covers it. -/
theorem final0_5 (c : Dev nD) : (dat0 V c).arrAt 5 cfg0.N = res0_5 V c :=
  (dat0 V c).arrAt_eq_of_cover 5 (res0_5 V c) (flushed0_5 V c) fun i =>
    ⟨t0_4, (flush0_5 t0_4).mpr rfl, by
      show i ∈ ((View.whole main_v0_3).slice (win0_5.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_5.index t0_4 0 * win0_5.size 0 ≤ (i 0 : Nat) ∧ (i 0 : Nat) < win0_5.index t0_4 0 * win0_5.size 0 + win0_5.xsize (grid0.coords t0_4) 0
                  rw [show win0_5.index t0_4 0 * win0_5.size 0 = 0 from by decide +kernel, show win0_5.xsize (grid0.coords t0_4) 0 = 1 from by decide +kernel]; omega
      | ⟨1, _⟩ => show win0_5.index t0_4 1 * win0_5.size 1 ≤ (i 1 : Nat) ∧ (i 1 : Nat) < win0_5.index t0_4 1 * win0_5.size 1 + win0_5.xsize (grid0.coords t0_4) 1
                  rw [show win0_5.index t0_4 1 * win0_5.size 1 = 0 from by decide +kernel, show win0_5.xsize (grid0.coords t0_4) 1 = 64 from by decide +kernel]; omega⟩

/-- Each column's sum over all 50000 rows of the first input. -/
theorem arrAt0_2 (c : Dev nD) (j : Fin 64) :
    (dat0 (F := Ideal) V c).arrAt 2 cfg0.N (ix2 (0 : Fin 1) j) = ∑ r : Fin 50000, inp0 V c (ix2 r j) := by
  rw [final0_2 V c]
  exact (acc0_2_sum V c j 4 t0_4.isLt).trans (sum_colSeq _ j)

/-- Each column's sum of squares over all 50000 rows of the first input. -/
theorem arrAt0_3 (c : Dev nD) (j : Fin 64) :
    (dat0 (F := Ideal) V c).arrAt 3 cfg0.N (ix2 (0 : Fin 1) j) = ∑ r : Fin 50000, inp0 V c (ix2 r j) * inp0 V c (ix2 r j) := by
  rw [final0_3 V c]
  exact (acc0_3_sum V c j 4 t0_4.isLt).trans (sum_colSeq _ j)

/-- Each column's sum over all 50000 rows of the second input. -/
theorem arrAt0_4 (c : Dev nD) (j : Fin 64) :
    (dat0 (F := Ideal) V c).arrAt 4 cfg0.N (ix2 (0 : Fin 1) j) = ∑ r : Fin 50000, inp1 V c (ix2 r j) := by
  rw [final0_4 V c]
  exact (acc0_4_sum V c j 4 t0_4.isLt).trans (sum_colSeq _ j)

/-- Each column's sum of squares over all 50000 rows of the second input. -/
theorem arrAt0_5 (c : Dev nD) (j : Fin 64) :
    (dat0 (F := Ideal) V c).arrAt 5 cfg0.N (ix2 (0 : Fin 1) j) = ∑ r : Fin 50000, inp1 V c (ix2 r j) * inp1 V c (ix2 r j) := by
  rw [final0_5 V c]
  exact (acc0_5_sum V c j 4 t0_4.isLt).trans (sum_colSeq _ j)

end Cert.KernelIdeal.Hand

end
-- ==== Proof.KI.Val1Pay.lean ====
/- The batch-norm and projection body's arithmetic, read at an index of its block. -/
import proofs.«159496_j27066883899809_1_alg».proof.Proof.Gen.KernelIdeal.Skeleton
import proofs.«159496_j27066883899809_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.ShloMosaic.ValueIdx
open Cert.KernelIdeal Cert.KernelIdeal.Gen
open scoped BigOperators

/-- Batch-norm followed by ReLU at row `r`, feature `k`: the entry centred, scaled by the inverse deviation and the
    gain, shifted, and cut below at zero. -/
def bnrelu (x : S50000x64.Idx → EReal) (mean inv gamma beta : S1x64.Idx → EReal) (r : Fin 50000) (k : Fin 64) : EReal :=
  max (((x (ix2 r k) - mean (ix2 (0 : Fin 1) k)) * inv (ix2 (0 : Fin 1) k)) * gamma (ix2 (0 : Fin 1) k) + beta (ix2 (0 : Fin 1) k))
    (Ideal.ofBits .f32 0x00000000#32)

/-! # The normalisations at an index -/

/-- The first operand's batch-norm and ReLU at `(p, q)` of the block. -/
theorem pay1_2_apply (x : Vec Ideal S10000x64 .f32) (mean inv gamma beta : Vec Ideal S1x64 .f32) (p : Fin 10000) (q : Fin 64) :
    k1_pay2 x mean inv gamma beta (ix2 p q)
      = max (((x (ix2 p q) - mean (ix2 (0 : Fin 1) q)) * inv (ix2 (0 : Fin 1) q)) * gamma (ix2 (0 : Fin 1) q) + beta (ix2 (0 : Fin 1) q))
          (Ideal.ofBits .f32 0x00000000#32) := by
  unfold k1_pay2
  show max (((x (ix2 p q)
          - (broadcastTo S10000x64 (shapeCast S1x64 mean shapeCasts_S1x64_S1x64) broadcasts_S1x64_S10000x64) (ix2 p q))
        * (broadcastTo S10000x64 (shapeCast S1x64 inv shapeCasts_S1x64_S1x64) broadcasts_S1x64_S10000x64) (ix2 p q))
        * (broadcastTo S10000x64 (shapeCast S1x64 gamma shapeCasts_S1x64_S1x64) broadcasts_S1x64_S10000x64) (ix2 p q)
        + (broadcastTo S10000x64 (shapeCast S1x64 beta shapeCasts_S1x64_S1x64) broadcasts_S1x64_S10000x64) (ix2 p q))
      (Ideal.ofBits .f32 0x00000000#32) = _
  rw [shapeCast_self, shapeCast_self, shapeCast_self, shapeCast_self]
  rw [broadcastTo_1b_ab_apply mean broadcasts_S1x64_S10000x64 p q, broadcastTo_1b_ab_apply inv broadcasts_S1x64_S10000x64 p q,
    broadcastTo_1b_ab_apply gamma broadcasts_S1x64_S10000x64 p q, broadcastTo_1b_ab_apply beta broadcasts_S1x64_S10000x64 p q]

/-- The second operand's batch-norm at `(p, q)` of the block, before its ReLU. -/
theorem pay1_3_apply (x : Vec Ideal S10000x64 .f32) (mean inv gamma beta : Vec Ideal S1x64 .f32) (p : Fin 10000) (q : Fin 64) :
    k1_pay3 x mean inv gamma beta (ix2 p q)
      = ((x (ix2 p q) - mean (ix2 (0 : Fin 1) q)) * inv (ix2 (0 : Fin 1) q)) * gamma (ix2 (0 : Fin 1) q) + beta (ix2 (0 : Fin 1) q) := by
  unfold k1_pay3
  show ((x (ix2 p q)
          - (broadcastTo S10000x64 (shapeCast S1x64 mean shapeCasts_S1x64_S1x64) broadcasts_S1x64_S10000x64) (ix2 p q))
        * (broadcastTo S10000x64 (shapeCast S1x64 inv shapeCasts_S1x64_S1x64) broadcasts_S1x64_S10000x64) (ix2 p q))
        * (broadcastTo S10000x64 (shapeCast S1x64 gamma shapeCasts_S1x64_S1x64) broadcasts_S1x64_S10000x64) (ix2 p q)
        + (broadcastTo S10000x64 (shapeCast S1x64 beta shapeCasts_S1x64_S1x64) broadcasts_S1x64_S10000x64) (ix2 p q) = _
  rw [shapeCast_self, shapeCast_self, shapeCast_self, shapeCast_self]
  rw [broadcastTo_1b_ab_apply mean broadcasts_S1x64_S10000x64 p q, broadcastTo_1b_ab_apply inv broadcasts_S1x64_S10000x64 p q,
    broadcastTo_1b_ab_apply gamma broadcasts_S1x64_S10000x64 p q, broadcastTo_1b_ab_apply beta broadcasts_S1x64_S10000x64 p q]

/-- The zero the second operand's ReLU compares with. -/
theorem pay1_4_apply (j : S10000x64.Idx) : k1_pay4 (F := Ideal) j = Ideal.ofBits .f32 0x00000000#32 := rfl

/-! # A block product at an index -/

/-- A block of 10000 rows times a 64 x 64 matrix into the zero accumulator, at `(p, q)`: the sum over the 64 features of
    the row's entries times the matrix's column. -/
theorem mm1_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  refine (Ideal.matmul_constant_zero_apply dot_S10000x64_S64x64_S10000x64_1_0_0_1_n_n none A B (ix2 p q)).trans ?_
  refine (Equiv.sum_comp (contrEquiv1 dot_S10000x64_S64x64_S10000x64_1_0_0_1_n_n 64 rfl rfl).symm
    (fun k => A (dot_S10000x64_S64x64_S10000x64_1_0_0_1_n_n.lhsIdx (ix2 p q) k) * B (dot_S10000x64_S64x64_S10000x64_1_0_0_1_n_n.rhsIdx (ix2 p q) k))).symm.trans ?_
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => simp [DotDims.lhsIdx, dot_S10000x64_S64x64_S10000x64_1_0_0_1_n_n]; rfl
    | ⟨1, _⟩ =>
      exact (DotDims.lhsIdx_val_of_single dot_S10000x64_S64x64_S10000x64_1_0_0_1_n_n (cl := (1 : Fin 2)) rfl (ix2 p q) _).trans
        (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ =>
      exact (DotDims.rhsIdx_val_of_single dot_S10000x64_S64x64_S10000x64_1_0_0_1_n_n (cr := (0 : Fin 2)) rfl (ix2 p q) _).trans
        (contrEquiv1_symm_val dot_S10000x64_S64x64_S10000x64_1_0_0_1_n_n 64 rfl rfl k)
    | ⟨1, _⟩ => simp [DotDims.rhsIdx, dot_S10000x64_S64x64_S10000x64_1_0_0_1_n_n]; rfl
  show A _ * B _ = _
  rw [hl, hr]

/-! # The projection at an index -/

/-- The two block products added and scaled by the row's factor, at `(p, q)`. -/
theorem pay1_1_apply (v19 v35 v36 : FVec Ideal S10000x64 .f32) (W1 W2 : Vec Ideal S64x64 .f32) (fac : Vec Ideal S10000x1 .f32)
    (p : Fin 10000) (q : Fin 64) :
    k1_pay1 v19 v35 v36 W1 W2 fac (ix2 p q)
      = ((∑ k : Fin 64, v19 (ix2 p k) * W1 (ix2 k q)) + (∑ k : Fin 64, max (v35 (ix2 p k)) (v36 (ix2 p k)) * W2 (ix2 k q)))
        * fac (ix2 p (0 : Fin 1)) := by
  unfold k1_pay1
  show (matmul dot_S10000x64_S64x64_S10000x64_1_0_0_1_n_n none (truncf .bf16 v19 bitsLt_bf16_f32)
          (truncf .bf16 (shapeCast S64x64 W1 shapeCasts_S64x64_S64x64) bitsLt_bf16_f32)
          (constant (F := Ideal) S10000x64 .f32 0x00000000#32) (ix2 p q)
        + matmul dot_S10000x64_S64x64_S10000x64_1_0_0_1_n_n none (truncf .bf16 (maximumf v35 v36) bitsLt_bf16_f32)
          (truncf .bf16 (shapeCast S64x64 W2 shapeCasts_S64x64_S64x64) bitsLt_bf16_f32)
          (constant (F := Ideal) S10000x64 .f32 0x00000000#32) (ix2 p q))
      * (broadcastTo S10000x64 (shapeCast S10000x1 fac shapeCasts_S10000x1_S10000x1) broadcasts_S10000x1_S10000x64) (ix2 p q) = _
  rw [mm1_apply, mm1_apply, shapeCast_self, shapeCast_self, shapeCast_self,
    Cert.LibLayout.broadcastTo_a1_ab_apply fac broadcasts_S10000x1_S10000x64 p q]
  rfl

/-- The whole body's block at `(p, q)`: both operands normalised and cut below at zero, projected, added, scaled. -/
theorem out1_apply (x0 x1 : Vec Ideal S10000x64 .f32) (m1 i1 g1 b1 m2 i2 g2 b2 : Vec Ideal S1x64 .f32)
    (W1 W2 : Vec Ideal S64x64 .f32) (fac : Vec Ideal S10000x1 .f32) (p : Fin 10000) (q : Fin 64) :
    k1_pay1 (k1_pay2 x0 m1 i1 g1 b1) (k1_pay3 x1 m2 i2 g2 b2) (k1_pay4 (F := Ideal)) W1 W2 fac (ix2 p q)
      = ((∑ k : Fin 64, max (((x0 (ix2 p k) - m1 (ix2 (0 : Fin 1) k)) * i1 (ix2 (0 : Fin 1) k)) * g1 (ix2 (0 : Fin 1) k) + b1 (ix2 (0 : Fin 1) k))
              (Ideal.ofBits .f32 0x00000000#32) * W1 (ix2 k q))
          + (∑ k : Fin 64, max (((x1 (ix2 p k) - m2 (ix2 (0 : Fin 1) k)) * i2 (ix2 (0 : Fin 1) k)) * g2 (ix2 (0 : Fin 1) k) + b2 (ix2 (0 : Fin 1) k))
              (Ideal.ofBits .f32 0x00000000#32) * W2 (ix2 k q)))
        * fac (ix2 p (0 : Fin 1)) := by
  refine (pay1_1_apply (k1_pay2 x0 m1 i1 g1 b1) (k1_pay3 x1 m2 i2 g2 b2) (k1_pay4 (F := Ideal)) W1 W2 fac p q).trans ?_
  simp only [pay1_2_apply, pay1_3_apply, pay1_4_apply]

/-! # The same entry over the whole arrays -/

/-- The result array as one function of the thirteen arrays the call reads: row `r` of each operand normalised and cut below
    at zero, each projected by its matrix, the two added and scaled by the row's factor. -/
def projected (x1 x2 : S50000x64.Idx → EReal) (m1 i1 g1 b1 m2 i2 g2 b2 : S1x64.Idx → EReal) (W1 W2 : S64x64.Idx → EReal)
    (fac : S50000x1.Idx → EReal) : S50000x64.Idx → EReal :=
  fun i => ((∑ k : Fin 64, bnrelu x1 m1 i1 g1 b1 (show Fin 50000 from i 0) k * W1 (ix2 k (show Fin 64 from i 1)))
      + (∑ k : Fin 64, bnrelu x2 m2 i2 g2 b2 (show Fin 50000 from i 0) k * W2 (ix2 k (show Fin 64 from i 1))))
    * fac (ix2 (show Fin 50000 from i 0) (0 : Fin 1))

/-- A block's entry is `projected` at the array's row `r`, once each block entry it reads is the array's entry there. -/
theorem projected_at (x1 x2 : S50000x64.Idx → EReal) (m1 i1 g1 b1 m2 i2 g2 b2 : S1x64.Idx → EReal) (W1 W2 : S64x64.Idx → EReal)
    (fac : S50000x1.Idx → EReal)
    (X1 X2 : S10000x64.Idx → EReal) (M1 I1 G1 B1 M2 I2 G2 B2 : S1x64.Idx → EReal) (w1 w2 : S64x64.Idx → EReal)
    (f : S10000x1.Idx → EReal) (i3 : S50000x64.Idx) (r : Fin 50000) (p : Fin 10000) (q : Fin 64)
    (hX1 : ∀ k : Fin 64, X1 (ix2 p k) = x1 (ix2 r k)) (hX2 : ∀ k : Fin 64, X2 (ix2 p k) = x2 (ix2 r k))
    (hM1 : ∀ k : Fin 64, M1 (ix2 (0 : Fin 1) k) = m1 (ix2 (0 : Fin 1) k)) (hI1 : ∀ k : Fin 64, I1 (ix2 (0 : Fin 1) k) = i1 (ix2 (0 : Fin 1) k))
    (hG1 : ∀ k : Fin 64, G1 (ix2 (0 : Fin 1) k) = g1 (ix2 (0 : Fin 1) k)) (hB1 : ∀ k : Fin 64, B1 (ix2 (0 : Fin 1) k) = b1 (ix2 (0 : Fin 1) k))
    (hM2 : ∀ k : Fin 64, M2 (ix2 (0 : Fin 1) k) = m2 (ix2 (0 : Fin 1) k)) (hI2 : ∀ k : Fin 64, I2 (ix2 (0 : Fin 1) k) = i2 (ix2 (0 : Fin 1) k))
    (hG2 : ∀ k : Fin 64, G2 (ix2 (0 : Fin 1) k) = g2 (ix2 (0 : Fin 1) k)) (hB2 : ∀ k : Fin 64, B2 (ix2 (0 : Fin 1) k) = b2 (ix2 (0 : Fin 1) k))
    (hw1 : ∀ k : Fin 64, w1 (ix2 k q) = W1 (ix2 k q)) (hw2 : ∀ k : Fin 64, w2 (ix2 k q) = W2 (ix2 k q))
    (hf : f (ix2 p (0 : Fin 1)) = fac (ix2 r (0 : Fin 1))) (h3 : i3 = ix2 r q) :
    ((∑ k : Fin 64, max (((X1 (ix2 p k) - M1 (ix2 (0 : Fin 1) k)) * I1 (ix2 (0 : Fin 1) k)) * G1 (ix2 (0 : Fin 1) k) + B1 (ix2 (0 : Fin 1) k))
            (Ideal.ofBits .f32 0x00000000#32) * w1 (ix2 k q))
        + (∑ k : Fin 64, max (((X2 (ix2 p k) - M2 (ix2 (0 : Fin 1) k)) * I2 (ix2 (0 : Fin 1) k)) * G2 (ix2 (0 : Fin 1) k) + B2 (ix2 (0 : Fin 1) k))
            (Ideal.ofBits .f32 0x00000000#32) * w2 (ix2 k q)))
      * f (ix2 p (0 : Fin 1))
      = projected x1 x2 m1 i1 g1 b1 m2 i2 g2 b2 W1 W2 fac i3 := by
  subst h3
  simp only [hX1, hX2, hM1, hI1, hG1, hB1, hM2, hI2, hG2, hB2, hw1, hw2, hf]
  rfl

end Cert.KernelIdeal.Hand

end
-- ==== Proof.KI.Val1.lean ====
/- The batch-norm and projection call, read: what its result array holds after the call, index by index. -/
import proofs.«159496_j27066883899809_1_alg».proof.Proof.KI.R1
import proofs.«159496_j27066883899809_1_alg».proof.Proof.KI.Val1Pay
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe
open Idealize.SL.Sem
open Idealize.ShloMosaic.Pipeline (Dat Cfg Window)
open Idealize.ShloMosaic.ValueIdx
open Cert.KernelIdeal Cert.KernelIdeal.Gen
open scoped BigOperators

/-! # Where each window's block sits in its array -/

theorem hz1 : (![0, 0] : Fin 2 → Nat) = fun _ => 0 := funext fun a => by fin_cases a <;> rfl

/-! The printed index maps over the five grid points: the two operands, the row factor and the result sit at block `t` on
    the rows; the statistics, gains, shifts and the two matrices are whole arrays that do not move. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)
theorem idx1_13 : ∀ t : Fin cfg1.N, win1_13.index t (0 : Fin 2) = t.val ∧ win1_13.index t (1 : Fin 2) = 0 :=
  (by decide +kernel : ∀ t : Fin grid1.N, _)

theorem lt_N1 (t : Fin cfg1.N) : t.val < 5 := by have h := t.isLt; have hN : cfg1.N = 5 := N_1; omega

/-- Row `p` of block `t` is row `10000 t + p` of the array. -/
def row1 (t : Fin cfg1.N) (p : Fin 10000) : Fin 50000 :=
  ⟨t.val * 10000 + p.val, by have := lt_N1 t; have := p.isLt; omega⟩

theorem emb1_0 (t : Fin cfg1.N) (p : Fin 10000) (q : Fin 64) :
    ((cfg1.win 0).blk t).view.emb (ix2 p q) = ix2 (row1 t p) q := by
  obtain ⟨e0, e1⟩ := idx1_0 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

theorem emb1_1 (t : Fin cfg1.N) (p : Fin 10000) (q : Fin 64) :
    ((cfg1.win 1).blk t).view.emb (ix2 p q) = ix2 (row1 t p) q := by
  obtain ⟨e0, e1⟩ := idx1_1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * q.val = q.val; omega

theorem emb1_13 (t : Fin cfg1.N) (p : Fin 10000) (q : Fin 64) :
    ((cfg1.win 13).blk t).view.emb (ix2 p q) = ix2 (row1 t p) q := by
  obtain ⟨e0, e1⟩ := idx1_13 t
  funext a; apply Fin.ext
  match a with
  | ⟨0, _⟩ => show win1_13.index t (0 : Fin 2) * 10000 + 1 * p.val = t.val * 10000 + p.val; omega
  | ⟨1, _⟩ => show win1_13.index t (1 : Fin 2) * 64 + 1 * q.val = q.val; omega

theorem emb1_2 (t : Fin cfg1.N) (u : Fin 1) (q : Fin 64) :
    ((cfg1.win 2).blk t).view.emb (ix2 u q) = ix2 (0 : Fin 1) q := by
  obtain ⟨e0, e1⟩ := idx1_2 t
  funext a; apply Fin.ext
  match a with
  | ⟨0, _⟩ => show win1_2.index t (0 : Fin 2) * 1 + 1 * u.val = 0; omega
  | ⟨1, _⟩ => show win1_2.index t (1 : Fin 2) * 64 + 1 * q.val = q.val; omega

theorem emb1_3 (t : Fin cfg1.N) (u : Fin 1) (q : Fin 64) :
    ((cfg1.win 3).blk t).view.emb (ix2 u q) = ix2 (0 : Fin 1) q := by
  obtain ⟨e0, e1⟩ := idx1_3 t
  funext a; apply Fin.ext
  match a with
  | ⟨0, _⟩ => show win1_3.index t (0 : Fin 2) * 1 + 1 * u.val = 0; omega
  | ⟨1, _⟩ => show win1_3.index t (1 : Fin 2) * 64 + 1 * q.val = q.val; omega

theorem emb1_4 (t : Fin cfg1.N) (u : Fin 1) (q : Fin 64) :
    ((cfg1.win 4).blk t).view.emb (ix2 u q) = ix2 (0 : Fin 1) q := by
  obtain ⟨e0, e1⟩ := idx1_4 t
  funext a; apply Fin.ext
  match a with
  | ⟨0, _⟩ => show win1_4.index t (0 : Fin 2) * 1 + 1 * u.val = 0; omega
  | ⟨1, _⟩ => show win1_4.index t (1 : Fin 2) * 64 + 1 * q.val = q.val; omega

theorem emb1_5 (t : Fin cfg1.N) (u : Fin 1) (q : Fin 64) :
    ((cfg1.win 5).blk t).view.emb (ix2 u q) = ix2 (0 : Fin 1) q := by
  obtain ⟨e0, e1⟩ := idx1_5 t
  funext a; apply Fin.ext
  match a with
  | ⟨0, _⟩ => show win1_5.index t (0 : Fin 2) * 1 + 1 * u.val = 0; omega
  | ⟨1, _⟩ => show win1_5.index t (1 : Fin 2) * 64 + 1 * q.val = q.val; omega

theorem emb1_6 (t : Fin cfg1.N) (u : Fin 1) (q : Fin 64) :
    ((cfg1.win 6).blk t).view.emb (ix2 u q) = ix2 (0 : Fin 1) q := by
  obtain ⟨e0, e1⟩ := idx1_6 t
  funext a; apply Fin.ext
  match a with
  | ⟨0, _⟩ => show win1_6.index t (0 : Fin 2) * 1 + 1 * u.val = 0; omega
  | ⟨1, _⟩ => show win1_6.index t (1 : Fin 2) * 64 + 1 * q.val = q.val; omega

theorem emb1_7 (t : Fin cfg1.N) (u : Fin 1) (q : Fin 64) :
    ((cfg1.win 7).blk t).view.emb (ix2 u q) = ix2 (0 : Fin 1) q := by
  obtain ⟨e0, e1⟩ := idx1_7 t
  funext a; apply Fin.ext
  match a with
  | ⟨0, _⟩ => show win1_7.index t (0 : Fin 2) * 1 + 1 * u.val = 0; omega
  | ⟨1, _⟩ => show win1_7.index t (1 : Fin 2) * 64 + 1 * q.val = q.val; omega

theorem emb1_8 (t : Fin cfg1.N) (u : Fin 1) (q : Fin 64) :
    ((cfg1.win 8).blk t).view.emb (ix2 u q) = ix2 (0 : Fin 1) q := by
  obtain ⟨e0, e1⟩ := idx1_8 t
  funext a; apply Fin.ext
  match a with
  | ⟨0, _⟩ => show win1_8.index t (0 : Fin 2) * 1 + 1 * u.val = 0; omega
  | ⟨1, _⟩ => show win1_8.index t (1 : Fin 2) * 64 + 1 * q.val = q.val; omega

theorem emb1_9 (t : Fin cfg1.N) (u : Fin 1) (q : Fin 64) :
    ((cfg1.win 9).blk t).view.emb (ix2 u q) = ix2 (0 : Fin 1) q := by
  obtain ⟨e0, e1⟩ := idx1_9 t
  funext a; apply Fin.ext
  match a with
  | ⟨0, _⟩ => show win1_9.index t (0 : Fin 2) * 1 + 1 * u.val = 0; omega
  | ⟨1, _⟩ => show win1_9.index t (1 : Fin 2) * 64 + 1 * q.val = q.val; omega

theorem emb1_10 (t : Fin cfg1.N) (k : Fin 64) (q : Fin 64) :
    ((cfg1.win 10).blk t).view.emb (ix2 k q) = ix2 k q := by
  obtain ⟨e0, e1⟩ := idx1_10 t
  funext a; apply Fin.ext
  match a with
  | ⟨0, _⟩ => show win1_10.index t (0 : Fin 2) * 64 + 1 * k.val = k.val; omega
  | ⟨1, _⟩ => show win1_10.index t (1 : Fin 2) * 64 + 1 * q.val = q.val; omega

theorem emb1_11 (t : Fin cfg1.N) (k : Fin 64) (q : Fin 64) :
    ((cfg1.win 11).blk t).view.emb (ix2 k q) = ix2 k q := by
  obtain ⟨e0, e1⟩ := idx1_11 t
  funext a; apply Fin.ext
  match a with
  | ⟨0, _⟩ => show win1_11.index t (0 : Fin 2) * 64 + 1 * k.val = k.val; omega
  | ⟨1, _⟩ => show win1_11.index t (1 : Fin 2) * 64 + 1 * q.val = q.val; omega

theorem emb1_12 (t : Fin cfg1.N) (p : Fin 10000) (u : Fin 1) :
    ((cfg1.win 12).blk t).view.emb (ix2 p u) = ix2 (row1 t p) (0 : Fin 1) := by
  obtain ⟨e0, e1⟩ := idx1_12 t
  funext a; apply Fin.ext
  match a with
  | ⟨0, _⟩ => show win1_12.index t (0 : Fin 2) * 10000 + 1 * p.val = t.val * 10000 + p.val; omega
  | ⟨1, _⟩ => show win1_12.index t (1 : Fin 2) * 1 + 1 * u.val = 0; omega

/-! # From the blocks to the array -/

variable (V : (c : Dev nD) → (b : Ref sig .tc) → Buf (Elt Ideal) ((c : Thread nD τ).loc b))

/-- What point `t` writes back is block `t` of `projected` of the arrays as the call finds them. -/
theorem flushed1_13_eq (c : Dev nD) (t : Fin cfg1.N) :
    (dat1 (F := Ideal) V c).flushed 13 t
      = ((cfg1.win 13).blk t).view.read (Elt Ideal) (projected (V c main_arg0) (V c main_arg1) (V c main_v2) (V c main_v9) (V c main_v20) (V c main_v24) (V c main_v11) (V c main_v18) (V c main_v22) (V c main_v26) (V c main_v27) (V c main_v28) (V c main_v42)) := by
  show (cfg1.win 13).cut (grid1.coords t) ((dat1 (F := Ideal) V c).after 13 t) = _
  rw [after1_13]
  unfold out1_13
  rw [View.canon_unit_zero hz1]
  simp only [View.ld_unit_zero (S := S10000x64) hz1, View.ld_unit_zero (S := S10000x1) hz1, View.ld_unit_zero (S := S1x64) hz1,
    View.ld_unit_zero (S := S64x64) hz1]
  funext j
  obtain ⟨p, q, rfl⟩ : ∃ (p : Fin 10000) (q : Fin 64), j = ix2 p q := ⟨j 0, j 1, eq_ix2 j⟩
  refine (out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) p q).trans ?_
  exact projected_at (V c main_arg0) (V c main_arg1) (V c main_v2) (V c main_v9) (V c main_v20) (V c main_v24) (V c main_v11) (V c main_v18) (V c main_v22) (V c main_v26) (V c main_v27) (V c main_v28) (V c main_v42)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    _ (row1 t p) p q
    (fun k => congrArg (V c main_arg0) (emb1_0 t p k))
    (fun k => congrArg (V c main_arg1) (emb1_1 t p k))
    (fun k => congrArg (V c main_v2) (emb1_2 t (0 : Fin 1) k))
    (fun k => congrArg (V c main_v9) (emb1_3 t (0 : Fin 1) k))
    (fun k => congrArg (V c main_v20) (emb1_4 t (0 : Fin 1) k))
    (fun k => congrArg (V c main_v24) (emb1_5 t (0 : Fin 1) k))
    (fun k => congrArg (V c main_v11) (emb1_6 t (0 : Fin 1) k))
    (fun k => congrArg (V c main_v18) (emb1_7 t (0 : Fin 1) k))
    (fun k => congrArg (V c main_v22) (emb1_8 t (0 : Fin 1) k))
    (fun k => congrArg (V c main_v26) (emb1_9 t (0 : Fin 1) k))
    (fun k => congrArg (V c main_v27) (emb1_10 t k q))
    (fun k => congrArg (V c main_v28) (emb1_11 t k q))
    (congrArg (V c main_v42) (emb1_12 t p (0 : Fin 1)))
    (emb1_13 t p q)

/-- An index of the array is in point `t`'s block iff each coordinate is in the block's range on its axis. -/
theorem mem_blk1_13 (t : Fin cfg1.N) (i : S50000x64.Idx) :
    i ∈ ((cfg1.win 13).blk t).view.set ↔ ∀ a : Fin 2, win1_13.index t a * S10000x64.size a ≤ (i a).val ∧ (i a).val < win1_13.index t a * S10000x64.size a + S10000x64.size a := by
  show i ∈ ((View.whole main_v45).slice (win1_13.rect t)).set ↔ _
  rw [View.set_slice_whole, Rect.mem_set_unit]
  exact Iff.rfl

/-- Every row block is some point's. -/
theorem idx_onto1 : ∀ q0 : Fin 5, ∃ t : Fin cfg1.N, win1_13.index t = ![q0.val, 0] :=
  (by decide +kernel : ∀ q0 : Fin 5, ∃ t : Fin grid1.N, win1_13.index t = ![q0.val, 0])

/-- Every row of the array is in the block of the point `r / 10000`. -/
theorem cover1_13_arr (i : S50000x64.Idx) :
    ∃ t : Fin cfg1.N, (cfg1.win 13).flush t = true ∧ i ∈ ((cfg1.win 13).blk t).view.set := by
  have hi0 : (i 0).val < 50000 := (i 0).isLt
  have hi1 : (i 1).val < 64 := (i 1).isLt
  obtain ⟨t, ht⟩ := idx_onto1 ⟨(i 0).val / 10000, by omega⟩
  have q0 : win1_13.index t (0 : Fin 2) = (i 0).val / 10000 := congrFun ht 0
  have q1 : win1_13.index t (1 : Fin 2) = 0 := congrFun ht 1
  refine ⟨t, flush1_13 t, ?_⟩
  rw [mem_blk1_13]
  intro a
  match a with
  | ⟨0, _⟩ => show win1_13.index t (0 : Fin 2) * 10000 ≤ (i 0).val ∧ (i 0).val < win1_13.index t (0 : Fin 2) * 10000 + 10000; omega
  | ⟨1, _⟩ => show win1_13.index t (1 : Fin 2) * 64 ≤ (i 1).val ∧ (i 1).val < win1_13.index t (1 : Fin 2) * 64 + 64; omega

/-- The result array after the call is `projected` of the thirteen arrays as the call finds them. -/
theorem final1_13 (c : Dev nD) :
    (dat1 (F := Ideal) V c).arrAt 13 cfg1.N = projected (V c main_arg0) (V c main_arg1) (V c main_v2) (V c main_v9) (V c main_v20) (V c main_v24) (V c main_v11) (V c main_v18) (V c main_v22) (V c main_v26) (V c main_v27) (V c main_v28) (V c main_v42) :=
  (dat1 (F := Ideal) V c).arrAt_eq_of_cover 13 (projected (V c main_arg0) (V c main_arg1) (V c main_v2) (V c main_v9) (V c main_v20) (V c main_v24) (V c main_v11) (V c main_v18) (V c main_v22) (V c main_v26) (V c main_v27) (V c main_v28) (V c main_v42))
    (fun t _ => flushed1_13_eq V c t) cover1_13_arr

/-- Entry `(r, j)` of the result array after the call: both operands' rows `r` normalised and cut below at zero, projected
    by their matrices onto column `j`, added, and scaled by the out-degree factor of row `r`. -/
theorem arrAt1_13 (c : Dev nD) (r : Fin 50000) (j : Fin 64) :
    (dat1 (F := Ideal) V c).arrAt 13 cfg1.N (ix2 r j)
      = ((∑ k : Fin 64, bnrelu (V c main_arg0) (V c main_v2) (V c main_v9) (V c main_v20) (V c main_v24) r k * (V c main_v27) (ix2 k j))
          + (∑ k : Fin 64, bnrelu (V c main_arg1) (V c main_v11) (V c main_v18) (V c main_v22) (V c main_v26) r k * (V c main_v28) (ix2 k j)))
        * (V c main_v42) (ix2 r (0 : Fin 1)) :=
  (congrFun (final1_13 V c) (ix2 r j)).trans rfl

end Cert.KernelIdeal.Hand

end
-- ==== Proof.KI.KFeat.lean ====
/- The kernel's node features in closed form: what the projection call leaves, entry by entry, in terms of the argument
   arrays alone. The column sums the first call leaves are the sums over all rows; the host operations between the calls
   turn them into each column's mean and scale and cut the scale, shift and weight arguments into their two halves; the
   projection call's entry then is the closed form, term by term under its two sums. -/
import proofs.«159496_j27066883899809_1_alg».proof.Proof.KI.Chain
import proofs.«159496_j27066883899809_1_alg».proof.Proof.KI.KDefs
import proofs.«159496_j27066883899809_1_alg».proof.Proof.KI.Val0
import proofs.«159496_j27066883899809_1_alg».proof.Proof.KI.Val1

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.HostVal

variable (m : (ℓ : Loc nD τ sig) → Buf (Elt Ideal) ℓ) (ρ : Dev nD → PrngReg)

/-! ## Two congruences, over abstract arrays -/

/-- The rectified normalisation of an entry, from its five ingredients one by one. -/
theorem bnrelu_eq_kbn (x x' : S50000x64.Idx → EReal) (mean inv gamma beta : S1x64.Idx → EReal) (g b : S128.Idx → EReal)
    (off : ℕ) (hoff : off + 64 ≤ 128) (r : Fin 50000) (k : Fin 64)
    (hx : x (ix2 r k) = x' (ix2 r k)) (hm : mean (ix2 (0 : Fin 1) k) = kmean x' k) (hi : inv (ix2 (0 : Fin 1) k) = kinv x' k)
    (hg : gamma (ix2 (0 : Fin 1) k) = g (ix1 (⟨off + k.val, by omega⟩ : Fin 128)))
    (hb : beta (ix2 (0 : Fin 1) k) = b (ix1 (⟨off + k.val, by omega⟩ : Fin 128))) :
    bnrelu x mean inv gamma beta r k = kbn x' g b off hoff r k := by
  unfold bnrelu kbn
  rw [hx, hm, hi, hg, hb]

/-- Two sums of 64 terms added and scaled, term by term. -/
theorem two_sums_congr (A1 A2 B1 B2 : Fin 64 → EReal) (f g : EReal) (h1 : ∀ k, A1 k = B1 k) (h2 : ∀ k, A2 k = B2 k) (hf : f = g) :
    ((∑ k : Fin 64, A1 k) + (∑ k : Fin 64, A2 k)) * f = ((∑ k : Fin 64, B1 k) + (∑ k : Fin 64, B2 k)) * g := by
  rw [Finset.sum_congr rfl fun k _ => h1 k, Finset.sum_congr rfl fun k _ => h2 k, hf]

/-! ## The statistics the projection call reads -/

/-- The mean of column k of the first input, as the projection call reads it. -/
theorem mean1_eq (c : Dev nD) (k : Fin 64) :
    (W2 m ρ c (Proc.devRef .tc main_v2) : S1x64.Idx → EReal) (ix2 (0 : Fin 1) k) = kmean (m ((c : Thread nD τ).loc main_arg0)) k := by
  refine (mean1_apply (W1 m ρ c) k).trans ?_
  unfold kmean
  refine congrArg (fun z => Ideal.div z nRows) ?_
  refine (congrFun (W1_v0_0 m ρ c) (ix2 (0 : Fin 1) k)).trans ?_
  exact arrAt0_2 (V0 m ρ) c k

/-- The mean of column k of the second input. -/
theorem mean2_eq (c : Dev nD) (k : Fin 64) :
    (W2 m ρ c (Proc.devRef .tc main_v11) : S1x64.Idx → EReal) (ix2 (0 : Fin 1) k) = kmean (m ((c : Thread nD τ).loc main_arg1)) k := by
  refine (mean2_apply (W1 m ρ c) k).trans ?_
  unfold kmean
  refine congrArg (fun z => Ideal.div z nRows) ?_
  refine (congrFun (W1_v0_2 m ρ c) (ix2 (0 : Fin 1) k)).trans ?_
  exact arrAt0_4 (V0 m ρ) c k

/-- The scale of column k of the first input. -/
theorem inv1_eq (c : Dev nD) (k : Fin 64) :
    (W2 m ρ c (Proc.devRef .tc main_v9) : S1x64.Idx → EReal) (ix2 (0 : Fin 1) k) = kinv (m ((c : Thread nD τ).loc main_arg0)) k := by
  have hs : (W1 m ρ c (Proc.devRef .tc main_v0_0) : S1x64.Idx → EReal) (ix2 (0 : Fin 1) k)
      = ∑ r : Fin 50000, inp0 (V0 m ρ) c (ix2 r k) :=
    (congrFun (W1_v0_0 m ρ c) (ix2 (0 : Fin 1) k)).trans (arrAt0_2 (V0 m ρ) c k)
  have hq : (W1 m ρ c (Proc.devRef .tc main_v0_1) : S1x64.Idx → EReal) (ix2 (0 : Fin 1) k)
      = ∑ r : Fin 50000, inp0 (V0 m ρ) c (ix2 r k) * inp0 (V0 m ρ) c (ix2 r k) :=
    (congrFun (W1_v0_1 m ρ c) (ix2 (0 : Fin 1) k)).trans (arrAt0_3 (V0 m ρ) c k)
  refine (inv1_apply (W1 m ρ c) k).trans ?_
  rw [hs, hq]
  rfl

/-- The scale of column k of the second input. -/
theorem inv2_eq (c : Dev nD) (k : Fin 64) :
    (W2 m ρ c (Proc.devRef .tc main_v18) : S1x64.Idx → EReal) (ix2 (0 : Fin 1) k) = kinv (m ((c : Thread nD τ).loc main_arg1)) k := by
  have hs : (W1 m ρ c (Proc.devRef .tc main_v0_2) : S1x64.Idx → EReal) (ix2 (0 : Fin 1) k)
      = ∑ r : Fin 50000, inp1 (V0 m ρ) c (ix2 r k) :=
    (congrFun (W1_v0_2 m ρ c) (ix2 (0 : Fin 1) k)).trans (arrAt0_4 (V0 m ρ) c k)
  have hq : (W1 m ρ c (Proc.devRef .tc main_v0_3) : S1x64.Idx → EReal) (ix2 (0 : Fin 1) k)
      = ∑ r : Fin 50000, inp1 (V0 m ρ) c (ix2 r k) * inp1 (V0 m ρ) c (ix2 r k) :=
    (congrFun (W1_v0_3 m ρ c) (ix2 (0 : Fin 1) k)).trans (arrAt0_5 (V0 m ρ) c k)
  refine (inv2_apply (W1 m ρ c) k).trans ?_
  rw [hs, hq]
  rfl

/-! ## The two halves' rectified normalisations -/

theorem half1_eq (c : Dev nD) (r : Fin 50000) (k : Fin 64) :
    bnrelu (V2 m ρ c main_arg0) (V2 m ρ c main_v2) (V2 m ρ c main_v9) (V2 m ρ c main_v20) (V2 m ρ c main_v24) r k
      = kbn (m ((c : Thread nD τ).loc main_arg0)) (m ((c : Thread nD τ).loc main_arg5)) (m ((c : Thread nD τ).loc main_arg6)) 0 (by omega) r k :=
  bnrelu_eq_kbn _ _ _ _ _ _ _ _ 0 (by omega) r k
    (congrFun (W2_arg0 m ρ c) (ix2 r k)) (mean1_eq m ρ c k) (inv1_eq m ρ c k)
    (W2_v20_apply m ρ c k ⟨0 + k.val, by omega⟩ (Nat.zero_add _)) (W2_v24_apply m ρ c k ⟨0 + k.val, by omega⟩ (Nat.zero_add _))

theorem half2_eq (c : Dev nD) (r : Fin 50000) (k : Fin 64) :
    bnrelu (V2 m ρ c main_arg1) (V2 m ρ c main_v11) (V2 m ρ c main_v18) (V2 m ρ c main_v22) (V2 m ρ c main_v26) r k
      = kbn (m ((c : Thread nD τ).loc main_arg1)) (m ((c : Thread nD τ).loc main_arg5)) (m ((c : Thread nD τ).loc main_arg6)) 64 (by omega) r k :=
  bnrelu_eq_kbn _ _ _ _ _ _ _ _ 64 (by omega) r k
    (congrFun (W2_arg1 m ρ c) (ix2 r k)) (mean2_eq m ρ c k) (inv2_eq m ρ c k)
    (W2_v22_apply m ρ c k ⟨64 + k.val, by omega⟩ rfl) (W2_v26_apply m ρ c k ⟨64 + k.val, by omega⟩ rfl)

/-! ## The node features -/

/-- Entry (r, j) of what the projection call leaves is the closed form over the argument arrays. -/
theorem kfeat_apply (m : (ℓ : Loc nD τ sig) → Buf (Elt Ideal) ℓ) (ρ : Dev nD → PrngReg) (c : Dev nD) (r : Fin 50000) (j : Fin 64) :
    (W3 m ρ c (Proc.devRef .tc main_v45) : S50000x64.Idx → EReal) (ix2 r j)
      = kfeatAt (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg2)) r j := by
  refine (congrFun (W3_arr m ρ c 13) (ix2 r j)).trans ?_
  refine (arrAt1_13 (V2 m ρ) c r j).trans ?_
  unfold kfeatAt
  exact two_sums_congr _ _ _ _ _ _
    (fun k => congrArg₂ (· * ·) (half1_eq m ρ c r k) (W2_v27_apply m ρ c k j ⟨0 + k.val, by omega⟩ (Nat.zero_add _)))
    (fun k => congrArg₂ (· * ·) (half2_eq m ρ c r k) (W2_v28_apply m ρ c k j ⟨64 + k.val, by omega⟩ rfl))
    (W2_v42_apply m ρ c r)

end Cert.KernelIdeal.Hand

end
-- ==== Proof.KI.Val2.lean ====
/- The final-scaling call, read: what its result array holds after the call, index by index. -/
import proofs.«159496_j27066883899809_1_alg».proof.Proof.KI.R2
import proofs.«159496_j27066883899809_1_alg».proof.Proof.LibLayout
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe
open Idealize.SL.Sem
open Idealize.ShloMosaic.Pipeline (Dat Cfg Window)
open Idealize.ShloMosaic.ValueIdx
open Cert.KernelIdeal Cert.KernelIdeal.Gen

/-! # The payload of the final scaling at an index -/

/-- Entry `(p, q)` of the block the body stores: the aggregate's entry times the row's factor, plus the bias of the column. -/
theorem pay2_apply (x0 : Vec Ideal S10000x64 .f32) (x1 : Vec Ideal S10000x1 .f32) (x2 : Vec Ideal S1x64 .f32)
    (p : Fin 10000) (q : Fin 64) :
    k2_pay1 x0 x1 x2 (ix2 p q) = x0 (ix2 p q) * x1 (ix2 p (0 : Fin 1)) + x2 (ix2 (0 : Fin 1) q) := by
  unfold k2_pay1
  show (shapeCast S10000x64 x0 shapeCasts_S10000x64_S10000x64) (ix2 p q)
      * (broadcastTo S10000x64 (shapeCast S10000x1 x1 shapeCasts_S10000x1_S10000x1) broadcasts_S10000x1_S10000x64) (ix2 p q)
      + (broadcastTo S10000x64 (shapeCast S1x64 x2 shapeCasts_S1x64_S1x64) broadcasts_S1x64_S10000x64) (ix2 p q) = _
  rw [shapeCast_self, shapeCast_self, shapeCast_self]
  rw [Cert.LibLayout.broadcastTo_a1_ab_apply x1 broadcasts_S10000x1_S10000x64 p q,
    broadcastTo_1b_ab_apply x2 broadcasts_S1x64_S10000x64 p q]

/-! # From the blocks to the array -/

/-- The result array as one function of the three arrays the call reads: row `r` of the aggregate times the row's
    factor, plus the bias. -/
def scaled (a0 : S50000x64.Idx → EReal) (a1 : S50000x1.Idx → EReal) (a2 : S1x64.Idx → EReal) : S50000x64.Idx → EReal :=
  fun i => a0 (ix2 (show Fin 50000 from i 0) (show Fin 64 from i 1)) * a1 (ix2 (show Fin 50000 from i 0) (0 : Fin 1))
    + a2 (ix2 (0 : Fin 1) (show Fin 64 from i 1))

/-- `scaled` at row `r`, column `q`, with each factor read at an index equal to the one it names. -/
theorem scaled_at (a0 : S50000x64.Idx → EReal) (a1 : S50000x1.Idx → EReal) (a2 : S1x64.Idx → EReal)
    (i0 : S50000x64.Idx) (i1 : S50000x1.Idx) (i2 : S1x64.Idx) (i3 : S50000x64.Idx) (r : Fin 50000) (q : Fin 64)
    (h0 : i0 = ix2 r q) (h1 : i1 = ix2 r (0 : Fin 1)) (h2 : i2 = ix2 (0 : Fin 1) q) (h3 : i3 = ix2 r q) :
    a0 i0 * a1 i1 + a2 i2 = scaled a0 a1 a2 i3 := by
  subst h0; subst h1; subst h2; subst h3; rfl

theorem hz2 : (![0, 0] : Fin 2 → Nat) = fun _ => 0 := funext fun a => by fin_cases a <;> rfl

/-- The printed index maps over the five grid points: the row-blocked windows sit at block `t` on the rows and block 0 on
    the columns; the bias window does not move. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 5 :=
  (by decide +kernel : ∀ t : Fin grid2.N, _)

/-- Row `p` of block `t` is row `10000 t + p` of the array. -/
def row2 (t : Fin cfg2.N) (p : Fin 10000) : Fin 50000 :=
  ⟨t.val * 10000 + p.val, by have := (idx_facts2 t).2.2.2.2.2.2.2.2; have := p.isLt; omega⟩

theorem emb2_0 (t : Fin cfg2.N) (p : Fin 10000) (q : Fin 64) :
    ((cfg2.win 0).blk t).view.emb (ix2 p q) = ix2 (row2 t p) q := by
  obtain ⟨e0, e1, -⟩ := idx_facts2 t
  funext a; apply Fin.ext
  match a with
  | ⟨0, _⟩ => show win2_0.index t (0 : Fin 2) * 10000 + 1 * p.val = t.val * 10000 + p.val; omega
  | ⟨1, _⟩ => show win2_0.index t (1 : Fin 2) * 64 + 1 * q.val = q.val; omega

theorem emb2_1 (t : Fin cfg2.N) (p : Fin 10000) (u : Fin 1) :
    ((cfg2.win 1).blk t).view.emb (ix2 p u) = ix2 (row2 t p) (0 : Fin 1) := by
  obtain ⟨-, -, e0, e1, -⟩ := idx_facts2 t
  funext a; apply Fin.ext
  match a with
  | ⟨0, _⟩ => show win2_1.index t (0 : Fin 2) * 10000 + 1 * p.val = t.val * 10000 + p.val; omega
  | ⟨1, _⟩ => show win2_1.index t (1 : Fin 2) * 1 + 1 * u.val = 0; omega

theorem emb2_2 (t : Fin cfg2.N) (u : Fin 1) (q : Fin 64) :
    ((cfg2.win 2).blk t).view.emb (ix2 u q) = ix2 (0 : Fin 1) q := by
  obtain ⟨-, -, -, -, e0, e1, -⟩ := idx_facts2 t
  funext a; apply Fin.ext
  match a with
  | ⟨0, _⟩ => show win2_2.index t (0 : Fin 2) * 1 + 1 * u.val = 0; omega
  | ⟨1, _⟩ => show win2_2.index t (1 : Fin 2) * 64 + 1 * q.val = q.val; omega

theorem emb2_3 (t : Fin cfg2.N) (p : Fin 10000) (q : Fin 64) :
    ((cfg2.win 3).blk t).view.emb (ix2 p q) = ix2 (row2 t p) q := by
  obtain ⟨-, -, -, -, -, -, e0, e1, -⟩ := idx_facts2 t
  funext a; apply Fin.ext
  match a with
  | ⟨0, _⟩ => show win2_3.index t (0 : Fin 2) * 10000 + 1 * p.val = t.val * 10000 + p.val; omega
  | ⟨1, _⟩ => show win2_3.index t (1 : Fin 2) * 64 + 1 * q.val = q.val; omega

variable (V : (c : Dev nD) → (b : Ref sig .tc) → Buf (Elt Ideal) ((c : Thread nD τ).loc b))

/-- What point `t` writes back is block `t` of `scaled` of the arrays as the call finds them. -/
theorem flushed2_3_eq (c : Dev nD) (t : Fin cfg2.N) :
    (dat2 (F := Ideal) V c).flushed 3 t
      = ((cfg2.win 3).blk t).view.read (Elt Ideal) (scaled (V c main_v58) (V c main_v44) (V c main_v29)) := by
  show (cfg2.win 3).cut (grid2.coords t) ((dat2 (F := Ideal) V c).after 3 t) = _
  rw [after2_3]
  unfold out2_3
  rw [View.canon_unit_zero hz2]
  simp only [View.ld_unit_zero (S := S10000x64) hz2, View.ld_unit_zero (S := S10000x1) hz2, View.ld_unit_zero (S := S1x64) hz2]
  funext j
  obtain ⟨p, q, rfl⟩ : ∃ (p : Fin 10000) (q : Fin 64), j = ix2 p q := ⟨j 0, j 1, eq_ix2 j⟩
  refine (pay2_apply (iblk2 V c 0 t) (iblk2 V c 1 t) (iblk2 V c 2 t) p q).trans ?_
  exact scaled_at (V c main_v58) (V c main_v44) (V c main_v29) _ _ _ _ (row2 t p) q
    (emb2_0 t p q) (emb2_1 t p (0 : Fin 1)) (emb2_2 t (0 : Fin 1) q) (emb2_3 t p q)

/-- An index of the array is in point `t`'s block iff each coordinate is in the block's range on its axis. -/
theorem mem_blk2_3 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v59).slice (win2_3.rect t)).set ↔ _
  rw [View.set_slice_whole, Rect.mem_set_unit]
  exact Iff.rfl

/-- Every row block is some point's. -/
theorem idx_onto2 : ∀ q0 : Fin 5, ∃ t : Fin cfg2.N, win2_3.index t = ![q0.val, 0] :=
  (by decide +kernel : ∀ q0 : Fin 5, ∃ t : Fin grid2.N, win2_3.index t = ![q0.val, 0])

/-- Every row of the array is in the block of the point `r / 10000`. -/
theorem cover2_3_arr (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The result array after the call is `scaled` of the three arrays as the call finds them. -/
theorem final2_3 (c : Dev nD) :
    (dat2 (F := Ideal) V c).arrAt 3 cfg2.N = scaled (V c main_v58) (V c main_v44) (V c main_v29) :=
  (dat2 (F := Ideal) V c).arrAt_eq_of_cover 3 (scaled (V c main_v58) (V c main_v44) (V c main_v29))
    (fun t _ => flushed2_3_eq V c t) cover2_3_arr

/-- Entry `(r, j)` of the result array after the call: the aggregate's entry times the in-degree factor of row `r`,
    plus the bias of column `j`. -/
theorem arrAt2_3 (c : Dev nD) (r : Fin 50000) (j : Fin 64) :
    (dat2 (F := Ideal) V c).arrAt 3 cfg2.N (ix2 r j)
      = @HAdd.hAdd EReal EReal EReal _ (@HMul.hMul EReal EReal EReal _ (V c main_v58 (ix2 r j)) (V c main_v44 (ix2 r (0 : Fin 1))))
          (V c main_v29 (ix2 (0 : Fin 1) j)) :=
  (congrFun (final2_3 V c) (ix2 r j)).trans rfl

end Cert.KernelIdeal.Hand

end
-- ==== Proof.LibStats.lean ====
/-
  General lemmas on finite sums of extended reals: the coercion of a real sum, the regrouping of a sum
  over `n * b` indices into `n` blocks of `b`, the split of a sum over `m + n` indices into its first `m`
  and last `n` terms, the identity "mean of squares minus squared mean = mean of squared deviations" over
  finite extended reals with the ideal division by a nonzero real constant, and the two float literals
  `0.0` and `50000.0` as the extended reals they denote.
-/
import Idealize.ShloMosaic.PureOps.Ideal
import Mathlib.Algebra.BigOperators.Fin
import Mathlib.Algebra.BigOperators.Ring.Finset
import Mathlib.Tactic.Ring
import Mathlib.Tactic.FieldSimp
import Mathlib.Tactic.NormNum
import Mathlib.Tactic.Linarith

noncomputable section

namespace Cert.LibStats

open Idealize.ShloMosaic
open scoped BigOperators

/-! ### (L1) The coercion `ℝ → EReal` commutes with finite sums -/

/-- The coercion of a finite sum of reals is the sum of the coercions: `↑(∑ i ∈ s, f i) = ∑ i ∈ s, ↑(f i)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type: `↑(∑ i, f i) = ∑ i, ↑(f i)`. -/
theorem coe_sum_univ {ι : Type*} [Fintype ι] (f : ι → ℝ) :
    ((∑ i, f i : ℝ) : EReal) = ∑ i, (f i : EReal) :=
  coe_sum Finset.univ f

/-! ### (L2) A sum over `n * b` indices, regrouped into `n` blocks of `b` -/

/-- The `r`-th index of the `t`-th block of size `b` lies below `n * b`: `b * t + r < n * b` for `t < n`, `r < b`. -/
theorem block_lt {n b t r : ℕ} (ht : t < n) (hr : r < b) : b * t + r < n * b := by
  calc b * t + r < b * t + b := Nat.add_lt_add_left hr _
    _ = b * (t + 1) := by ring
    _ ≤ b * n := Nat.mul_le_mul_left _ ht
    _ = n * b := Nat.mul_comm _ _

/-- Block regrouping, in any commutative additive monoid (no finiteness needed): the sum over `m = n * b`
    indices is the sum over the `n` blocks of the sums over the `b` indices `b * t + r` of block `t`. -/
theorem sum_blocks {M : Type*} [AddCommMonoid M] (n b m : ℕ) (h : n * b = m) (a : Fin m → M) :
    (∑ t : Fin n, ∑ r : Fin b, a ⟨b * t.val + r.val, h ▸ block_lt t.isLt r.isLt⟩) = ∑ i : Fin m, a i := by
  subst h
  rw [← Fintype.sum_prod_type (f := fun p : Fin n × Fin b => a ⟨b * p.1.val + p.2.val, block_lt p.1.isLt p.2.isLt⟩)]
  refine Fintype.sum_equiv finProdFinEquiv _ _ (fun p => ?_)
  congr 1
  apply Fin.ext
  simp [finProdFinEquiv, Nat.add_comm]

/-- Block regrouping for `5` blocks of `10000`: `∑ t < 5, ∑ r < 10000, a (10000 t + r) = ∑ i < 50000, a i`. -/
theorem sum_blocks_5_10000 {M : Type*} [AddCommMonoid M] (a : Fin 50000 → M) :
    (∑ t : Fin 5, ∑ r : Fin 10000, a ⟨10000 * t.val + r.val, block_lt (n := 5) t.isLt r.isLt⟩)
      = ∑ i : Fin 50000, a i :=
  sum_blocks 5 10000 50000 rfl a

/-- Five terms added one after the other onto `0`, from the left, are their sum. -/
theorem acc5_zero {M : Type*} [AddCommMonoid M] (S : Fin 5 → M) :
    ((((0 + S 0) + S 1) + S 2) + S 3) + S 4 = ∑ t : Fin 5, S t := by
  rw [Fin.sum_univ_five, zero_add]

/-- Five terms added one after the other, from the left, are their sum. -/
theorem acc5 {M : Type*} [AddCommMonoid M] (S : Fin 5 → M) :
    (((S 0 + S 1) + S 2) + S 3) + S 4 = ∑ t : Fin 5, S t := by
  rw [Fin.sum_univ_five]

/-- The left-nested accumulation of five block sums, each block sum itself started from `0`:
    with `S t = 0 + ∑ r < 10000, a (10000 t + r)`, `(((S 0 + S 1) + S 2) + S 3) + S 4 = ∑ i < 50000, a i`. -/
theorem acc5_blocks {M : Type*} [AddCommMonoid M] (a : Fin 50000 → M) :
    ((((0 + ∑ r : Fin 10000, a ⟨10000 * (0 : Fin 5).val + r.val, block_lt (n := 5) (0 : Fin 5).isLt r.isLt⟩)
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩)
      = ∑ i : Fin 50000, a i := by
  rw [← sum_blocks_5_10000 a, Fin.sum_univ_five]
  simp only [zero_add]

/-- The same with one more `0` at the very start of the accumulation:
    `((((0 + S 0) + S 1) + S 2) + S 3) + S 4 = ∑ i < 50000, a i`. -/
theorem acc5_zero_blocks {M : Type*} [AddCommMonoid M] (a : Fin 50000 → M) :
    (((((0 + (0 + ∑ r : Fin 10000, a ⟨10000 * (0 : Fin 5).val + r.val, block_lt (n := 5) (0 : Fin 5).isLt r.isLt⟩))
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩))
      = ∑ i : Fin 50000, a i := by
  rw [zero_add]; exact acc5_blocks a

/-- The same with the block offsets as literals: the five block sums over the indices `r`, `10000 + r`,
    `20000 + r`, `30000 + r`, `40000 + r` (`r < 10000`), each started from `0` and added from the left. -/
theorem acc5_blocks_lit {M : Type*} [AddCommMonoid M] (a : Fin 50000 → M) :
    ((((0 + ∑ r : Fin 10000, a ⟨r.val, by have := r.isLt; omega⟩)
      + (0 + ∑ r : Fin 10000, a ⟨10000 + r.val, by have := r.isLt; omega⟩))
      + (0 + ∑ r : Fin 10000, a ⟨20000 + r.val, by have := r.isLt; omega⟩))
      + (0 + ∑ r : Fin 10000, a ⟨30000 + r.val, by have := r.isLt; omega⟩))
      + (0 + ∑ r : Fin 10000, a ⟨40000 + r.val, by have := r.isLt; omega⟩)
      = ∑ i : Fin 50000, a i := by
  rw [← acc5_blocks a]
  refine congrArg₂ (· + ·) (congrArg₂ (· + ·) (congrArg₂ (· + ·) (congrArg₂ (· + ·) ?_ ?_) ?_) ?_) ?_ <;>
    refine congrArg (0 + ·) (Finset.sum_congr rfl fun r _ => congrArg a (Fin.ext ?_)) <;>
    first
      | rfl
      | exact (Nat.zero_add _).symm

/-! ### (L3) A sum over `m + n` indices, split into its first `m` and its last `n` terms -/

/-- Concatenation split, in any commutative additive monoid: the sum over `N = m + n` indices is the sum over
    the first `m` plus the sum over the last `n`, the latter at the indices `m + k`. -/
theorem sum_split {M : Type*} [AddCommMonoid M] (m n N : ℕ) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- Concatenation split of `128 = 64 + 64` terms. -/
theorem sum_split_64_64 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  sum_split 64 64 128 rfl f

/-! ### (L4) Mean of squares minus squared mean = mean of squared deviations -/

/-- The sum of the squared deviations from any constant `c`:
    `∑ (x r - c)² = ∑ x r² - 2 c ∑ x r + n c²`. -/
theorem sum_sq_dev {n : ℕ} (x : Fin n → ℝ) (c : ℝ) :
    ∑ r, (x r - c) * (x r - c) = (∑ r, x r * x r) - 2 * c * (∑ r, x r) + (n : ℝ) * (c * c) := by
  have h : ∀ r, (x r - c) * (x r - c) = x r * x r - 2 * c * x r + c * c := fun r => by ring
  simp only [h, Finset.sum_add_distrib, Finset.sum_sub_distrib, ← Finset.mul_sum, Finset.sum_const,
    Finset.card_univ, Fintype.card_fin, nsmul_eq_mul]
  ring

/-- The variance identity over the reals: with `N = n > 0` and `μ = (∑ x r) / N`,
    `(∑ x r²) / N - μ² = (∑ (x r - μ)²) / N`. -/
theorem variance_real {n : ℕ} (hn : 0 < n) (x : Fin n → ℝ) :
    (∑ r, x r * x r) / (n : ℝ) - (∑ r, x r) / (n : ℝ) * ((∑ r, x r) / (n : ℝ))
      = (∑ r, (x r - (∑ r, x r) / (n : ℝ)) * (x r - (∑ r, x r) / (n : ℝ))) / (n : ℝ) := by
  have hN : (n : ℝ) ≠ 0 := Nat.cast_ne_zero.mpr hn.ne'
  rw [sum_sq_dev]
  field_simp
  ring

/-- The ideal quotient of a sum of finite extended reals, started from `0`, by a nonzero real `N` is the
    real quotient: `div (0 + ∑ ↑(f r)) ↑N = ↑((∑ f r) / N)`. -/
theorem div_sum_coe {ι : Type*} [Fintype ι] (f : ι → ℝ) {N : ℝ} (hN : N ≠ 0) :
    Ideal.div (0 + ∑ r, (f r : EReal)) (N : EReal) = (((∑ r, f r) / N : ℝ) : EReal) := by
  rw [zero_add, ← coe_sum_univ, Ideal.div_coe hN, ← EReal.coe_mul, mul_one_div]

/-- The same without the leading `0`: `div (∑ ↑(f r)) ↑N = ↑((∑ f r) / N)`. -/
theorem div_sum_coe' {ι : Type*} [Fintype ι] (f : ι → ℝ) {N : ℝ} (hN : N ≠ 0) :
    Ideal.div (∑ r, (f r : EReal)) (N : EReal) = (((∑ r, f r) / N : ℝ) : EReal) := by
  rw [← coe_sum_univ, Ideal.div_coe hN, ← EReal.coe_mul, mul_one_div]

/-- The variance identity over finite extended reals given by real witnesses, in the ideal operations:
    with `X r = ↑(x r)`, a divisor `d = ↑n`, `n > 0`, and `M = div (0 + ∑ X r) d`,
    `div (0 + ∑ X r * X r) d - M * M = div (0 + ∑ (X r - M) * (X r - M)) d`. -/
theorem variance_coe {n : ℕ} (hn : 0 < n) (x : Fin n → ℝ) (d : EReal) (hd : d = ((n : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d := by
  subst hd
  have hN : (n : ℝ) ≠ 0 := Nat.cast_ne_zero.mpr hn.ne'
  rw [div_sum_coe x hN]
  simp only [← EReal.coe_sub, ← EReal.coe_mul]
  rw [div_sum_coe _ hN, div_sum_coe _ hN, ← EReal.coe_sub, variance_real hn x]

/-- The variance identity over extended reals that are all finite (none is `⊤` or `⊥`), in the ideal
    operations: with a divisor `d = ↑n`, `n > 0`, and `M = div (0 + ∑ X r) d`,
    `div (0 + ∑ X r * X r) d - M * M = div (0 + ∑ (X r - M) * (X r - M)) d`. -/
theorem variance_ereal {n : ℕ} (hn : 0 < n) (X : Fin n → EReal) (hX : ∀ r, X r ≠ ⊤ ∧ X r ≠ ⊥)
    (d : EReal) (hd : d = ((n : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d := by
  obtain ⟨x, rfl⟩ : ∃ x : Fin n → ℝ, X = fun r => (x r : EReal) :=
    ⟨fun r => (X r).toReal, funext fun r => (EReal.coe_toReal (hX r).1 (hX r).2).symm⟩
  exact variance_coe hn x d hd

/-- The variance identity over finite extended reals given by real witnesses, the sums not started from `0`:
    with `M = div (∑ X r) d`, `div (∑ X r * X r) d - M * M = div (∑ (X r - M) * (X r - M)) d`. -/
theorem variance_coe' {n : ℕ} (hn : 0 < n) (x : Fin n → ℝ) (d : EReal) (hd : d = ((n : ℝ) : EReal)) :
    Ideal.div (∑ r, (x r : EReal) * (x r : EReal)) d
        - Ideal.div (∑ r, (x r : EReal)) d * Ideal.div (∑ r, (x r : EReal)) d
      = Ideal.div (∑ r, ((x r : EReal) - Ideal.div (∑ r, (x r : EReal)) d)
                      * ((x r : EReal) - Ideal.div (∑ r, (x r : EReal)) d)) d := by
  have h := variance_coe hn x d hd
  simpa only [zero_add] using h

/-- The variance identity over extended reals that are all finite, the sums not started from `0`. -/
theorem variance_ereal' {n : ℕ} (hn : 0 < n) (X : Fin n → EReal) (hX : ∀ r, X r ≠ ⊤ ∧ X r ≠ ⊥)
    (d : EReal) (hd : d = ((n : ℝ) : EReal)) :
    Ideal.div (∑ r, X r * X r) d - Ideal.div (∑ r, X r) d * Ideal.div (∑ r, X r) d
      = Ideal.div (∑ r, (X r - Ideal.div (∑ r, X r) d) * (X r - Ideal.div (∑ r, X r) d)) d := by
  have h := variance_ereal hn X hX d hd
  simpa only [zero_add] using h

/-- The natural number `50000` as a real is the real literal `50000`. -/
theorem cast_50000 : ((50000 : ℕ) : ℝ) = (50000 : ℝ) := by norm_num

/-- The variance identity for `50000` finite extended reals given by real witnesses, divisor `d = ↑50000`. -/
theorem variance_coe_50000 (x : Fin 50000 → ℝ) (d : EReal) (hd : d = ((50000 : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d :=
  variance_coe (n := 50000) (by norm_num) x d (by rw [hd, cast_50000])

/-- The variance identity for `50000` extended reals that are all finite, divisor `d = ↑50000`. -/
theorem variance_ereal_50000 (X : Fin 50000 → EReal) (hX : ∀ r, X r ≠ ⊤ ∧ X r ≠ ⊥)
    (d : EReal) (hd : d = ((50000 : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d :=
  variance_ereal (n := 50000) (by norm_num) X hX d (by rw [hd, cast_50000])

/-! ### (L5) The literals -/

/-- The binary32 pattern `0x47435000` (sign `+`, exponent `142 - 127 = 15`, significand `1.52587890625`)
    denotes the real `50000`. -/
theorem ofBits_50000 : Ideal.ofBits .f32 0x47435000#32 = ((50000 : ℝ) : EReal) := by
  simp [Ideal.ofBits, Ideal.ieee, -EReal.coe_mul]; norm_num

/-- The binary32 pattern `0x00000000` (`+0.0`) denotes `0`. -/
theorem ofBits_zero : Ideal.ofBits .f32 0x00000000#32 = 0 := by
  simp [Ideal.ofBits, Ideal.ieee]

/-- An integer converted to an ideal float is that integer, read signed, as an extended real. -/
theorem sitofp_def {φ : FTy} {w : ℕ} (b : BitVec w) :
    FloatOps.sitofp (F := Ideal) φ b = ((b.toInt : ℝ) : EReal) := rfl

/-- The 32-bit integer `0` converted to an ideal float is `0`. -/
theorem sitofp_zero_i32 {φ : FTy} : FloatOps.sitofp (F := Ideal) φ (0#32) = 0 := by
  rw [sitofp_def]; simp

end Cert.LibStats

end
-- ==== Proof.FeatEq.lean ====
/-
  The two programs' node features agree, entry by entry. The reference normalises the 128 columns of the two inputs
  laid side by side and contracts them against the weight matrix in one sum; the kernel normalises each input's 64
  columns on its own, from the column's sum and sum of squares, and adds two sums over 64 columns. The sum over 128
  columns splits into its first and last 64; a column of the first half reads the first input, one of the second
  half the second; the column means are the same quotient; and the kernel's "mean of squares less squared mean"
  is the reference's "mean of squared deviations" because every entry is finite.
-/
import proofs.«159496_j27066883899809_1_alg».proof.Proof.KI.KDefs
import proofs.«159496_j27066883899809_1_alg».proof.Proof.Ref.Val
import proofs.«159496_j27066883899809_1_alg».proof.Proof.LibStats
import proofs.«159496_j27066883899809_1_alg».proof.Proof.Gen.KernelIdeal
import proofs.«159496_j27066883899809_1_alg».proof.Proof.Gen.ReferenceIdeal

noncomputable section

namespace Cert.FeatEq

open Idealize.ShloMosaic Idealize.ShloMosaic.ValueIdx
open Cert.KernelIdeal.Hand Cert.KernelIdeal.HostVal Cert.ReferenceIdeal.Hand Cert.LibStats

/-- The kernel's divisor, the pattern of `50000.0`, is the real `50000`, written as the cast of the number of rows. -/
theorem nRows_eq : nRows = (((50000 : ℕ) : ℝ) : EReal) := by
  show Ideal.ofBits .f32 0x47435000#32 = _
  rw [ofBits_50000, cast_50000]

/-- The reference's variance divisor — `50000.0` less the integer `0` read as a float — is the kernel's divisor. -/
theorem dof_eq : Ideal.ofBits .f32 0x47435000#32 - FloatOps.sitofp (F := Ideal) .f32 (0#32 : BitVec 32) = nRows := by
  rw [sitofp_zero_i32]
  show Ideal.ofBits .f32 0x47435000#32 - 0 = Ideal.ofBits .f32 0x47435000#32
  rw [ofBits_50000]
  simp

/-- A column of the first half of the two inputs laid side by side reads the first input. -/
theorem xR_left (x1 x2 : Cert.KernelIdeal.S50000x64.Idx → EReal) (r : Fin 50000) (k : Fin 64) (K : Fin 128)
    (hK : K.val = k.val) : xR x1 x2 r K = x1 (ix2 r k) := by
  unfold xR
  have hlt : K.val < 64 := hK ▸ k.isLt
  rw [dif_pos hlt]
  exact congrArg (fun t => x1 (ix2 r t)) (Fin.ext hK)

/-- A column of the second half of the two inputs laid side by side reads the second input, 64 columns back. -/
theorem xR_right (x1 x2 : Cert.KernelIdeal.S50000x64.Idx → EReal) (r : Fin 50000) (k : Fin 64) (K : Fin 128)
    (hK : K.val = 64 + k.val) : xR x1 x2 r K = x2 (ix2 r k) := by
  unfold xR
  have hge : ¬ K.val < 64 := by omega
  rw [dif_neg hge]
  exact congrArg (fun t => x2 (ix2 r t)) (Fin.ext (by show K.val - 64 = k.val; omega))

section Column

variable (x x1 x2 : Cert.KernelIdeal.S50000x64.Idx → EReal) (K : Fin 128) (k : Fin 64)
  (hxR : ∀ r : Fin 50000, xR x1 x2 r K = x (ix2 r k))
include hxR

/-- Where column `K` of the two inputs side by side is column `k` of the input `x`, the reference's column mean is
    the kernel's: the same sum over the same divisor. -/
theorem mean_eq : meanR x1 x2 K = kmean x k := by
  unfold meanR kmean
  rw [zero_add]
  simp only [hxR]

/-- There, the reference's column variance — the mean of the squared deviations — is the kernel's mean of squares
    less its squared mean, every entry of the column being finite. -/
theorem var_eq (hx : ∀ i, x i ≠ ⊤ ∧ x i ≠ ⊥) :
    varR x1 x2 K
      = Ideal.div (∑ r : Fin 50000, x (ix2 r k) * x (ix2 r k)) nRows - kmean x k * kmean x k := by
  have hm := mean_eq x x1 x2 K k hxR
  unfold varR
  rw [hm, dof_eq, zero_add]
  simp only [hxR]
  unfold kmean
  exact (variance_ereal' (n := 50000) (by norm_num) (fun r => x (ix2 r k)) (fun r => hx _) nRows nRows_eq).symm

/-- There, the kernel's rectified normalisation of entry `(r, k)` of `x`, with scale and shift at column `K = off + k`,
    is the reference's rectified normalisation at `(r, K)`. -/
theorem kbn_eq (hx : ∀ i, x i ≠ ⊤ ∧ x i ≠ ⊥) (gamma beta : Cert.KernelIdeal.S128.Idx → EReal)
    (off : ℕ) (hoff : off + 64 ≤ 128) (hK : K.val = off + k.val) (r : Fin 50000) :
    kbn x gamma beta off hoff r k = hR x1 x2 gamma beta r K := by
  have hidx : (⟨off + k.val, by have := k.isLt; omega⟩ : Fin 128) = K := Fin.ext hK.symm
  unfold kbn hR kinv
  rw [hxR r, mean_eq x x1 x2 K k hxR, var_eq x x1 x2 K k hxR hx, hidx, ofBits_zero]

end Column

/-- The two programs' degree factors are the same term: the same scatter-add of ones, clamped at one, under the
    reciprocal square root. -/
theorem degFactor_eq (src : Cert.KernelIdeal.S600000.Idx → BitVec 32) : degFactor src = noutR src := rfl

/-- The kernel's node features are the reference's, at every entry, the two inputs being finite. -/
theorem feat_eq (x1 x2 : Cert.KernelIdeal.S50000x64.Idx → EReal) (h1 : ∀ i, x1 i ≠ ⊤ ∧ x1 i ≠ ⊥)
    (h2 : ∀ i, x2 i ≠ ⊤ ∧ x2 i ≠ ⊥) (gamma beta : Cert.KernelIdeal.S128.Idx → EReal)
    (W : Cert.KernelIdeal.S128x64.Idx → EReal) (src : Cert.KernelIdeal.S600000.Idx → BitVec 32)
    (r : Fin 50000) (j : Fin 64) :
    Cert.KernelIdeal.Hand.kfeatAt x1 x2 gamma beta W src r j
      = Cert.ReferenceIdeal.Hand.featR x1 x2 src gamma beta W (ValueIdx.ix2 r j) := by
  rw [featR_apply, sum_split_64_64]
  unfold kfeatAt
  rw [degFactor_eq]
  refine congrArg (· * noutR src (ix1 r)) (congrArg₂ (· + ·) (Finset.sum_congr rfl fun k _ => ?_)
    (Finset.sum_congr rfl fun k _ => ?_))
  · exact congrArg₂ (· * ·)
      (kbn_eq x1 x1 x2 ⟨k.val, by have := k.isLt; omega⟩ k (fun r' => xR_left x1 x2 r' k _ rfl) h1 gamma beta 0 (by omega)
        (Nat.zero_add _).symm r)
      (congrArg (fun t => W (ix2 t j)) (Fin.ext (Nat.zero_add _)))
  · exact congrArg₂ (· * ·)
      (kbn_eq x2 x1 x2 ⟨64 + k.val, by have := k.isLt; omega⟩ k (fun r' => xR_right x1 x2 r' k _ rfl) h2 gamma beta 64 (by omega)
        rfl r)
      rfl

end Cert.FeatEq

end
-- ==== Proof.Bridge.lean ====
/- The kernel's result array is the reference's composed term of the same arguments: the node features agree entry by
   entry (the batch statistics by the variance identity, the projection by splitting the sum over the two halves), and from
   the features on both programs apply the same gather, weighting, scatter-add, in-degree scaling and bias. -/
import proofs.«159496_j27066883899809_1_alg».proof.Proof.KI.Chain
import proofs.«159496_j27066883899809_1_alg».proof.Proof.KI.KFeat
import proofs.«159496_j27066883899809_1_alg».proof.Proof.KI.Val2
import proofs.«159496_j27066883899809_1_alg».proof.Proof.Ref.Val
import proofs.«159496_j27066883899809_1_alg».proof.Proof.FeatEq

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.KernelIdeal.HostVal

variable (m : (ℓ : Loc nD τ sig) → Buf (Elt Ideal) ℓ) (ρ : Dev nD → PrngReg)

/-- What the second call leaves is the reference's feature array. -/
theorem feat_arr (c : Dev nD)
    (h1 : ∀ i : S50000x64.Idx, @Ne EReal ((m ((c.tc : Thread Cert.KernelIdeal.nD Cert.KernelIdeal.τ).loc Cert.KernelIdeal.main_arg0)) i) ⊤ ∧ @Ne EReal ((m ((c.tc : Thread Cert.KernelIdeal.nD Cert.KernelIdeal.τ).loc Cert.KernelIdeal.main_arg0)) i) ⊥)
    (h2 : ∀ i : S50000x64.Idx, @Ne EReal ((m ((c.tc : Thread Cert.KernelIdeal.nD Cert.KernelIdeal.τ).loc Cert.KernelIdeal.main_arg1)) i) ⊤ ∧ @Ne EReal ((m ((c.tc : Thread Cert.KernelIdeal.nD Cert.KernelIdeal.τ).loc Cert.KernelIdeal.main_arg1)) i) ⊥) :
    (W3 m ρ c (Proc.devRef .tc main_v45) : S50000x64.Idx → EReal)
      = Cert.ReferenceIdeal.Hand.featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  funext i
  obtain ⟨r, j, rfl⟩ : ∃ (r : Fin 50000) (j : Fin 64), i = ix2 r j := ⟨i 0, i 1, eq_ix2 i⟩
  exact (kfeat_apply m ρ c r j).trans (Cert.FeatEq.feat_eq _ _ h1 h2 _ _ _ _ r j)

/-- The kernel's result array is the reference's term of the launch contents of the arguments. -/
theorem result_arr (c : Dev nD)
    (h1 : ∀ i : S50000x64.Idx, @Ne EReal ((m ((c.tc : Thread Cert.KernelIdeal.nD Cert.KernelIdeal.τ).loc Cert.KernelIdeal.main_arg0)) i) ⊤ ∧ @Ne EReal ((m ((c.tc : Thread Cert.KernelIdeal.nD Cert.KernelIdeal.τ).loc Cert.KernelIdeal.main_arg0)) i) ⊥)
    (h2 : ∀ i : S50000x64.Idx, @Ne EReal ((m ((c.tc : Thread Cert.KernelIdeal.nD Cert.KernelIdeal.τ).loc Cert.KernelIdeal.main_arg1)) i) ⊤ ∧ @Ne EReal ((m ((c.tc : Thread Cert.KernelIdeal.nD Cert.KernelIdeal.τ).loc Cert.KernelIdeal.main_arg1)) i) ⊥) :
    (dat2 (F := Ideal) (V4 m ρ) c).arrAt 3 cfg2.N
      = Cert.ReferenceIdeal.Hand.tailR (Cert.ReferenceIdeal.Hand.featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) := by
  funext i
  obtain ⟨r, j, rfl⟩ : ∃ (r : Fin 50000) (j : Fin 64), i = ix2 r j := ⟨i 0, i 1, eq_ix2 i⟩
  refine (arrAt2_3 (V4 m ρ) c r j).trans ?_
  rw [Cert.ReferenceIdeal.Hand.tailR_apply]
  have e58 : (V4 m ρ c main_v58 : S50000x64.Idx → EReal)
      = Cert.ReferenceIdeal.Hand.aggR (Cert.ReferenceIdeal.Hand.featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    show W4 m ρ c (Proc.devRef .tc main_v58) = _
    rw [W4_v58, feat_arr m ρ c h1 h2]
    rfl
  have e44 : (V4 m ρ c main_v44 : S50000x1.Idx → EReal) (ix2 r (0 : Fin 1)) = Cert.ReferenceIdeal.Hand.ninR (m ((c.tc : Thread Cert.KernelIdeal.nD Cert.KernelIdeal.τ).loc Cert.KernelIdeal.main_arg3)) (ix1 r) :=
    (W4_v44_apply m ρ c r).trans rfl
  have e29 : (V4 m ρ c main_v29 : S1x64.Idx → EReal) (ix2 (0 : Fin 1) j) = ((m ((c.tc : Thread Cert.KernelIdeal.nD Cert.KernelIdeal.τ).loc Cert.KernelIdeal.main_arg8)) : S64.Idx → EReal) (ix1 j) :=
    W4_v29_apply m ρ c j
  rw [e58, e44, e29]

end Cert.Bridge

end
-- ==== Proof.lean ====
/- The five claims. The two frames of the kernel's program (at the word level and idealized) come from one run of its
   three pallas_calls among two stretches of host operations, written once for any float instance; the reference's frame
   from its run; the idealization rewrote nothing; and at the ideal instance both programs end at one function of the
   arguments: the kernel's column sums, batch statistics, rectified normalisation, projection and degree scalings are the
   reference's entry by entry (the variance identity needs the inputs finite, which the precondition gives), and from the
   node features on, the two apply the same operations. -/
import proofs.«159496_j27066883899809_1_alg».proof.Defs
import proofs.«159496_j27066883899809_1_alg».proof.Proof.Gen.Kernel
import proofs.«159496_j27066883899809_1_alg».proof.Proof.Gen.KernelIdeal
import proofs.«159496_j27066883899809_1_alg».proof.Proof.Gen.ReferenceIdeal
import proofs.«159496_j27066883899809_1_alg».proof.Proof.Gen.Pre_finite_inputs
import proofs.«159496_j27066883899809_1_alg».proof.Proof.KIB.Run
import proofs.«159496_j27066883899809_1_alg».proof.Proof.KI.Run
import proofs.«159496_j27066883899809_1_alg».proof.Proof.Ref.Val
import proofs.«159496_j27066883899809_1_alg».proof.Proof.FiniteIn
import proofs.«159496_j27066883899809_1_alg».proof.Proof.Bridge
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end and leaves its arguments as launched. -/
theorem frame_p : Cert.frame_Kernel := fun m ρ _ => Cert.Kernel.Hand.frame m ρ

/-- So does the idealized program. -/
theorem frame_pi : Cert.frame_KernelIdeal := fun m ρ _ => Cert.KernelIdeal.Hand.frame m ρ

/-- The reference runs to the end and leaves its arguments as launched: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- At the ideal instance, from memories agreeing on the arguments, both programs end with the result array at the
    reference's term of the arguments. -/
theorem algebraic : Cert.algebraic_KernelIdeal_ReferenceIdeal := by
  intro m ρ m' ρ' hpre hagree
  refine ⟨fun c => (Cert.KernelIdeal.Hand.dat2 (F := Ideal) (Cert.KernelIdeal.Hand.V4 m ρ) c).arrAt 3 Cert.KernelIdeal.cfg2.N,
    Cert.KernelIdeal.Hand.run_result m ρ, ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Bridge.result_arr m ρ c (fun i => Cert.FiniteIn.x1_finite m hpre c i) (fun i => Cert.FiniteIn.x2_finite m hpre c i)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
